-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S8x64x64 : Shape := ⟨3, ![8, 64, 64]⟩
abbrev S64x40 : Shape := ⟨2, ![64, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S8x64x64 : S_.BroadcastsInDim S8x64x64 (![] : Fin 0 → Fin S8x64x64.rank)
  reducesTo_S8x64x64_S_d0_1_2 : S8x64x64.ReducesTo [0, 1, 2] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S8x64x64 .f32) (main_arg7 : FVec F S64x40 .f32) (main_arg8 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S8x64x64 .f32 := Host.absf main_arg6
  let main_cst_6 : FVec F S_ .f32 := constant S_ .f32 0x7F800000#32
  let main_v20 : FVec F S8x64x64 .f32 := broadcastInDim S8x64x64 ![] bcast_S_S8x64x64 main_cst_6
  let main_v21 : IVec S8x64x64 1 := cmpf .olt main_v19 main_v20
  let main_c_7 : IVec S_ 1 := constantI S_ 1 1#1
  let main_v22 : IVec S_ 1 := (fun x v => Host.reduce IntOp.andi x v reducesTo_S8x64x64_S_d0_1_2 h_S_) main_v21 main_c_7
  let main_v23 : IVec S_ 1 := andi main_v18 main_v22
  let main_v24 : FVec F S64x40 .f32 := Host.absf main_arg7
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S800000 .f32) (main_arg4 : FVec F S128x64 .f32) (main_arg5 : FVec F S64 .f32) (main_arg6 : FVec F S8x64x64 .f32) (main_arg7 : FVec F S64x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S8x64x64 : Shape := ⟨3, ![8, 64, 64]⟩
abbrev S64x40 : Shape := ⟨2, ![64, 40]⟩
abbrev S40 : Shape := ⟨1, ![40]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 165
  | .vmem => 68
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S128x64, .f32⟩
  | 5 => ⟨S64, .f32⟩
  | 6 => ⟨S8x64x64, .f32⟩
  | 7 => ⟨S64x40, .f32⟩
  | 8 => ⟨S40, .f32⟩
  | 9 => ⟨S1x64, .f32⟩
  | 10 => ⟨S50000x64, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S800000x1, .f32⟩
  | 21 => ⟨S800000x64, .f32⟩
  | 22 => ⟨S800000x64, .f32⟩
  | 23 => ⟨S_, .f32⟩
  | 24 => ⟨S50000x64, .f32⟩
  | 25 => ⟨S800000x1, .i32⟩
  | 26 => ⟨S50000x64, .f32⟩
  | 27 => ⟨S1x64x64, .f32⟩
  | 28 => ⟨S64x64, .f32⟩
  | 29 => ⟨S50000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S800000x1, .f32⟩
  | 40 => ⟨S800000x64, .f32⟩
  | 41 => ⟨S800000x64, .f32⟩
  | 42 => ⟨S_, .f32⟩
  | 43 => ⟨S50000x64, .f32⟩
  | 44 => ⟨S800000x1, .i32⟩
  | 45 => ⟨S50000x64, .f32⟩
  | 46 => ⟨S1x64x64, .f32⟩
  | 47 => ⟨S64x64, .f32⟩
  | 48 => ⟨S50000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S800000x1, .f32⟩
  | 59 => ⟨S800000x64, .f32⟩
  | 60 => ⟨S800000x64, .f32⟩
  | 61 => ⟨S_, .f32⟩
  | 62 => ⟨S50000x64, .f32⟩
  | 63 => ⟨S800000x1, .i32⟩
  | 64 => ⟨S50000x64, .f32⟩
  | 65 => ⟨S1x64x64, .f32⟩
  | 66 => ⟨S64x64, .f32⟩
  | 67 => ⟨S50000x64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S800000x1, .f32⟩
  | 78 => ⟨S800000x64, .f32⟩
  | 79 => ⟨S800000x64, .f32⟩
  | 80 => ⟨S_, .f32⟩
  | 81 => ⟨S50000x64, .f32⟩
  | 82 => ⟨S800000x1, .i32⟩
  | 83 => ⟨S50000x64, .f32⟩
  | 84 => ⟨S1x64x64, .f32⟩
  | 85 => ⟨S64x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S800000x1, .f32⟩
  | 97 => ⟨S800000x64, .f32⟩
  | 98 => ⟨S800000x64, .f32⟩
  | 99 => ⟨S_, .f32⟩
  | 100 => ⟨S50000x64, .f32⟩
  | 101 => ⟨S800000x1, .i32⟩
  | 102 => ⟨S50000x64, .f32⟩
  | 103 => ⟨S1x64x64, .f32⟩
  | 104 => ⟨S64x64, .f32⟩
  | 105 => ⟨S50000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S800000x1, .f32⟩
  | 116 => ⟨S800000x64, .f32⟩
  | 117 => ⟨S800000x64, .f32⟩
  | 118 => ⟨S_, .f32⟩
  | 119 => ⟨S50000x64, .f32⟩
  | 120 => ⟨S800000x1, .i32⟩
  | 121 => ⟨S50000x64, .f32⟩
  | 122 => ⟨S1x64x64, .f32⟩
  | 123 => ⟨S64x64, .f32⟩
  | 124 => ⟨S50000x64, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S800000x1, .f32⟩
  | 7 => ⟨S800000x64, .f32⟩
  | 8 => ⟨S800000x64, .f32⟩
  | 9 => ⟨S_, .f32⟩
  | 10 => ⟨S50000x64, .f32⟩
  | 11 => ⟨S800000x1, .i32⟩
  | 12 => ⟨S50000x64, .f32⟩
  | 13 => ⟨S1x64x64, .f32⟩
  | 14 => ⟨S64x64, .f32⟩
  | 15 => ⟨S50000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S800000x1, .f32⟩
  | 26 => ⟨S800000x64, .f32⟩
  | 27 => ⟨S800000x64, .f32⟩
  | 28 => ⟨S_, .f32⟩
  | 29 => ⟨S50000x64, .f32⟩
  | 30 => ⟨S800000x1, .i32⟩
  | 31 => ⟨S50000x64, .f32⟩
  | 32 => ⟨S1x64x64, .f32⟩
  | 33 => ⟨S64x64, .f32⟩
  | 34 => ⟨S50000x64, .f32⟩
  | 35 => ⟨S1x40, .f32⟩
  | 36 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S64x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S64x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S64x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S64x40, .f32⟩
  | .local _ .vmem, ⟨65, _⟩ => ⟨S1x40, .f32⟩
  | .local _ .vmem, ⟨66, _⟩ => ⟨S5000x40, .f32⟩
  | .local _ .vmem, ⟨67, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_7 : Ref sig .tc := ⟨.hbm, 68, rfl⟩
abbrev main_v50 : Ref sig .tc := ⟨.hbm, 69, rfl⟩
abbrev main_v51 : Ref sig .tc := ⟨.hbm, 70, rfl⟩
abbrev main_c_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_c_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_13 : Ref sig .tc := ⟨.hbm, 106, rfl⟩
abbrev main_v82 : Ref sig .tc := ⟨.hbm, 107, rfl⟩
abbrev main_v83 : Ref sig .tc := ⟨.hbm, 108, rfl⟩
abbrev main_c_14 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_15 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_16 : Ref sig .tc := ⟨.hbm, 125, rfl⟩
abbrev main_v98 : Ref sig .tc := ⟨.hbm, 126, rfl⟩
abbrev main_v99 : Ref sig .tc := ⟨.hbm, 127, rfl⟩
abbrev main_c_17 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_18 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_c_19 : Ref sig .tc := ⟨.hbm, 144, rfl⟩
abbrev main_v114 : Ref sig .tc := ⟨.hbm, 145, rfl⟩
abbrev main_v115 : Ref sig .tc := ⟨.hbm, 146, rfl⟩
abbrev main_c_20 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_21 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg3_1 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg1_1 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg3_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg3_0 : Ref sig .tc := ⟨.vmem, 66, rfl⟩
abbrev cc9_stg3_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem3_1 : DmaSem sig := 54
abbrev cc8_sem0_0 : DmaSem sig := 55
abbrev cc8_sem0_1 : DmaSem sig := 56
abbrev cc8_sem1_0 : DmaSem sig := 57
abbrev cc8_sem1_1 : DmaSem sig := 58
abbrev cc8_sem2_0 : DmaSem sig := 59
abbrev cc8_sem3_0 : DmaSem sig := 60
abbrev cc8_sem3_1 : DmaSem sig := 61
abbrev cc9_sem0_0 : DmaSem sig := 62
abbrev cc9_sem0_1 : DmaSem sig := 63
abbrev cc9_sem1_0 : DmaSem sig := 64
abbrev cc9_sem2_0 : DmaSem sig := 65
abbrev cc9_sem3_0 : DmaSem sig := 66
abbrev cc9_sem3_1 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x40 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x40 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x40 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S8x64x64_S1x64x64_0_0_0 : S8x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S50000x64.size a
  hwx7_3 : ∀ i : grid7.Coords, EltTy.bits .f32 = 32 ∨ (Rect.block (s := S50000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S50000x64.size a
  hwx8_1 : ∀ i : grid8.Coords, EltTy.bits .f32 = 32 ∨ (Rect.block (s := S50000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S50000x64.size a
  hwx8_3 : ∀ i : grid8.Coords, EltTy.bits .f32 = 32 ∨ (Rect.block (s := S50000x64) S5000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x40.size a ≤ S64x40.size a
  hwx9_1 : ∀ i : grid9.Coords, EltTy.bits .f32 = 32 ∨ (Rect.block (s := S64x40) S64x40.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x40.size a ≤ S1x40.size a
  hwx9_2 : ∀ i : grid9.Coords, EltTy.bits .f32 = 32 ∨ (Rect.block (s := S1x40) S1x40.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x40.size a ≤ S50000x40.size a
  hwx9_3 : ∀ i : grid9.Coords, EltTy.bits .f32 = 32 ∨ (Rect.block (s := S50000x40) S5000x40.size (cc9_transform_3 i) (hinb9_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v78) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v80) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v94) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v1) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v96) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v97) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v110) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v1) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v112) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v113) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v126) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v1) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v128) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v129) S5000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v129) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg7) S64x40.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v130) S1x40.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v131) S5000x40.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S8x64x64 : Shape := ⟨3, ![8, 64, 64]⟩
abbrev S64x40 : Shape := ⟨2, ![64, 40]⟩
abbrev S40 : Shape := ⟨1, ![40]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S50000x40 : Shape := ⟨2, ![50000, 40]⟩
abbrev S1x40 : Shape := ⟨2, ![1, 40]⟩

abbrev nBuf : Space → Nat
  | .hbm => 308
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S128x64, .f32⟩
  | 5 => ⟨S64, .f32⟩
  | 6 => ⟨S8x64x64, .f32⟩
  | 7 => ⟨S64x40, .f32⟩
  | 8 => ⟨S40, .f32⟩
  | 9 => ⟨S50000x64, .f32⟩
  | 10 => ⟨S1x64, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S800000x1, .f32⟩
  | 26 => ⟨S800000x64, .f32⟩
  | 27 => ⟨S800000x64, .f32⟩
  | 28 => ⟨S_, .f32⟩
  | 29 => ⟨S50000x64, .f32⟩
  | 30 => ⟨S800000x1, .i32⟩
  | 31 => ⟨S50000x64, .f32⟩
  | 32 => ⟨S_, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S50000x64, .f32⟩
  | 39 => ⟨S_, .f32⟩
  | 40 => ⟨S50000x64, .f32⟩
  | 41 => ⟨S50000x64, .f32⟩
  | 42 => ⟨S1x64x64, .f32⟩
  | 43 => ⟨S64x64, .f32⟩
  | 44 => ⟨S50000x64, .f32⟩
  | 45 => ⟨S_, .f32⟩
  | 46 => ⟨S50000x64, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S800000x1, .f32⟩
  | 62 => ⟨S800000x64, .f32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S_, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S1x64x64, .f32⟩
  | 79 => ⟨S64x64, .f32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S800000x1, .f32⟩
  | 98 => ⟨S800000x64, .f32⟩
  | 99 => ⟨S800000x64, .f32⟩
  | 100 => ⟨S_, .f32⟩
  | 101 => ⟨S50000x64, .f32⟩
  | 102 => ⟨S800000x1, .i32⟩
  | 103 => ⟨S50000x64, .f32⟩
  | 104 => ⟨S_, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S50000x64, .f32⟩
  | 111 => ⟨S_, .f32⟩
  | 112 => ⟨S50000x64, .f32⟩
  | 113 => ⟨S50000x64, .f32⟩
  | 114 => ⟨S1x64x64, .f32⟩
  | 115 => ⟨S64x64, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x64, .f32⟩
  | 5 => ⟨S800000x1, .f32⟩
  | 6 => ⟨S800000x64, .f32⟩
  | 7 => ⟨S800000x64, .f32⟩
  | 8 => ⟨S_, .f32⟩
  | 9 => ⟨S50000x64, .f32⟩
  | 10 => ⟨S800000x1, .i32⟩
  | 11 => ⟨S50000x64, .f32⟩
  | 12 => ⟨S_, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S50000x64, .f32⟩
  | 19 => ⟨S_, .f32⟩
  | 20 => ⟨S50000x64, .f32⟩
  | 21 => ⟨S50000x64, .f32⟩
  | 22 => ⟨S1x64x64, .f32⟩
  | 23 => ⟨S64x64, .f32⟩
  | 24 => ⟨S50000x64, .f32⟩
  | 25 => ⟨S_, .f32⟩
  | 26 => ⟨S50000x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S800000x1, .f32⟩
  | 42 => ⟨S800000x64, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S_, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S1x64x64, .f32⟩
  | 59 => ⟨S64x64, .f32⟩
  | 60 => ⟨S50000x64, .f32⟩
  | 61 => ⟨S_, .f32⟩
  | 62 => ⟨S50000x64, .f32⟩
  | 63 => ⟨S50000x64, .f32⟩
  | 64 => ⟨S50000x64, .f32⟩
  | 65 => ⟨S_, .f32⟩
  | 66 => ⟨S50000x64, .f32⟩
  | 67 => ⟨S50000x64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S800000x1, .f32⟩
  | 78 => ⟨S800000x64, .f32⟩
  | 79 => ⟨S800000x64, .f32⟩
  | 80 => ⟨S_, .f32⟩
  | 81 => ⟨S50000x64, .f32⟩
  | 82 => ⟨S800000x1, .i32⟩
  | 83 => ⟨S50000x64, .f32⟩
  | 84 => ⟨S_, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S50000x64, .f32⟩
  | 91 => ⟨S_, .f32⟩
  | 92 => ⟨S50000x64, .f32⟩
  | 93 => ⟨S50000x64, .f32⟩
  | 94 => ⟨S1x64x64, .f32⟩
  | 95 => ⟨S64x64, .f32⟩
  | 96 => ⟨S50000x64, .f32⟩
  | 97 => ⟨S_, .f32⟩
  | 98 => ⟨S50000x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x1, .f32⟩
  | 114 => ⟨S800000x64, .f32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S_, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S50000x64, .f32⟩
  | 127 => ⟨S_, .f32⟩
  | _ => ⟨S50000x128, .f32⟩

abbrev hbmTy0_2 (i : Nat) : BufTy := match i % 128 with
  | 0 => ⟨S50000x64, .f32⟩
  | 1 => ⟨S50000x64, .f32⟩
  | 2 => ⟨S1x64x64, .f32⟩
  | 3 => ⟨S64x64, .f32⟩
  | 4 => ⟨S50000x64, .f32⟩
  | 5 => ⟨S_, .f32⟩
  | 6 => ⟨S50000x64, .f32⟩
  | 7 => ⟨S50000x64, .f32⟩
  | 8 => ⟨S50000x64, .f32⟩
  | 9 => ⟨S_, .f32⟩
  | 10 => ⟨S50000x64, .f32⟩
  | 11 => ⟨S50000x64, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S800000x1, .f32⟩
  | 22 => ⟨S800000x64, .f32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S_, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S1x64x64, .f32⟩
  | 39 => ⟨S64x64, .f32⟩
  | 40 => ⟨S50000x64, .f32⟩
  | 41 => ⟨S_, .f32⟩
  | 42 => ⟨S50000x64, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S50000x40, .f32⟩
  | 49 => ⟨S1x40, .f32⟩
  | 50 => ⟨S50000x40, .f32⟩
  | 51 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_cst : Ref sig .tc := ⟨.hbm, 49, rfl⟩
abbrev main_call1_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call2_cst : Ref sig .tc := ⟨.hbm, 85, rfl⟩
abbrev main_call2_v0 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_17 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call3_cst : Ref sig .tc := ⟨.hbm, 121, rfl⟩
abbrev main_call3_v0 : Ref sig .tc := ⟨.hbm, 122, rfl⟩
abbrev main_v85 : Ref sig .tc := ⟨.hbm, 123, rfl⟩
abbrev main_c_19 : Ref sig .tc := ⟨.hbm, 124, rfl⟩
abbrev main_v86 : Ref sig .tc := ⟨.hbm, 125, rfl⟩
abbrev main_v87 : Ref sig .tc := ⟨.hbm, 126, rfl⟩
abbrev main_c_20 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_21 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_22 : Ref sig .tc := ⟨.hbm, 140, rfl⟩
abbrev main_v99 : Ref sig .tc := ⟨.hbm, 141, rfl⟩
abbrev main_v100 : Ref sig .tc := ⟨.hbm, 142, rfl⟩
abbrev main_cst_23 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_24 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_25 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call4_cst : Ref sig .tc := ⟨.hbm, 157, rfl⟩
abbrev main_call4_v0 : Ref sig .tc := ⟨.hbm, 158, rfl⟩
abbrev main_v112 : Ref sig .tc := ⟨.hbm, 159, rfl⟩
abbrev main_c_26 : Ref sig .tc := ⟨.hbm, 160, rfl⟩
abbrev main_v113 : Ref sig .tc := ⟨.hbm, 161, rfl⟩
abbrev main_v114 : Ref sig .tc := ⟨.hbm, 162, rfl⟩
abbrev main_c_27 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_28 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_29 : Ref sig .tc := ⟨.hbm, 176, rfl⟩
abbrev main_v126 : Ref sig .tc := ⟨.hbm, 177, rfl⟩
abbrev main_v127 : Ref sig .tc := ⟨.hbm, 178, rfl⟩
abbrev main_cst_30 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_31 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_32 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_call5_cst : Ref sig .tc := ⟨.hbm, 193, rfl⟩
abbrev main_call5_v0 : Ref sig .tc := ⟨.hbm, 194, rfl⟩
abbrev main_v139 : Ref sig .tc := ⟨.hbm, 195, rfl⟩
abbrev main_c_33 : Ref sig .tc := ⟨.hbm, 196, rfl⟩
abbrev main_v140 : Ref sig .tc := ⟨.hbm, 197, rfl⟩
abbrev main_v141 : Ref sig .tc := ⟨.hbm, 198, rfl⟩
abbrev main_c_34 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_35 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_cst_36 : Ref sig .tc := ⟨.hbm, 212, rfl⟩
abbrev main_v153 : Ref sig .tc := ⟨.hbm, 213, rfl⟩
abbrev main_v154 : Ref sig .tc := ⟨.hbm, 214, rfl⟩
abbrev main_cst_37 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_cst_38 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_cst_39 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_call6_cst : Ref sig .tc := ⟨.hbm, 229, rfl⟩
abbrev main_call6_v0 : Ref sig .tc := ⟨.hbm, 230, rfl⟩
abbrev main_v166 : Ref sig .tc := ⟨.hbm, 231, rfl⟩
abbrev main_c_40 : Ref sig .tc := ⟨.hbm, 232, rfl⟩
abbrev main_v167 : Ref sig .tc := ⟨.hbm, 233, rfl⟩
abbrev main_v168 : Ref sig .tc := ⟨.hbm, 234, rfl⟩
abbrev main_c_41 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_cst_42 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_cst_43 : Ref sig .tc := ⟨.hbm, 248, rfl⟩
abbrev main_v180 : Ref sig .tc := ⟨.hbm, 249, rfl⟩
abbrev main_v181 : Ref sig .tc := ⟨.hbm, 250, rfl⟩
abbrev main_cst_44 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_cst_45 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_cst_46 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_call7_cst : Ref sig .tc := ⟨.hbm, 265, rfl⟩
abbrev main_call7_v0 : Ref sig .tc := ⟨.hbm, 266, rfl⟩
abbrev main_v193 : Ref sig .tc := ⟨.hbm, 267, rfl⟩
abbrev main_c_47 : Ref sig .tc := ⟨.hbm, 268, rfl⟩
abbrev main_v194 : Ref sig .tc := ⟨.hbm, 269, rfl⟩
abbrev main_v195 : Ref sig .tc := ⟨.hbm, 270, rfl⟩
abbrev main_c_48 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_cst_49 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_cst_50 : Ref sig .tc := ⟨.hbm, 284, rfl⟩
abbrev main_v207 : Ref sig .tc := ⟨.hbm, 285, rfl⟩
abbrev main_v208 : Ref sig .tc := ⟨.hbm, 286, rfl⟩
abbrev main_cst_51 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_cst_52 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_cst_53 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_call8_cst : Ref sig .tc := ⟨.hbm, 301, rfl⟩
abbrev main_call8_v0 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  slices_S8x64x64_S1x64x64_0_0_0 : S8x64x64.Slices ![0, 0, 0] S1x64x64
  shapeCasts_S1x64x64_S64x64 : S1x64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x40_S50000x40_1_0_0_1_n_n_wf : DotDims.WF S50000x64 S64x40 S50000x40 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.KernelRun.lean ====
/-
  The run of the ten-region program with its result named.

  Every weakly fair execution terminates without a fault; at the end every buffer the TensorCore keeps across regions
  holds the last boundary's contents, the fold of the host stretches and of the regions' write-backs over the launch
  memory.  Read at the result buffer this names the result; read at the arguments it says they are unchanged.
-/
import proofs.«102039_j12893491822964_1_alg».proof.Proof.Gen.KernelIdeal.Frame

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the argument arrays as launched. -/
theorem run_result : θ_run defs (onTc (τ := τ) (main (F := F))) ⟨m, fun _ => 0, ρ⟩ (fun r => ∀ c : Dev nD,
      r.2.mem ((c.tc : Thread nD τ).loc main_v131) = W20 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v131 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c)⟩)

end Cert.KernelIdeal.Val

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.Layers.lean ====
/-
  The dense stages of a graph network with initial-residual layers, entry by entry over the extended reals.

  With `u = a·agg + b·x0` (the blend of the aggregated messages with the first hidden state), one layer is
  `max (c·u + e·(u · W)) 0`, the entry stage is `max (x · W + bias) 0` and the exit stage `h · W + bias`.  Every entry
  `(p, q)` of a stage depends on row `p` of the row-indexed operands only, so a stage computed on a block of rows is the
  restriction of the stage computed on all rows: this is what makes a row-tiled evaluation and a whole-array
  evaluation one function.  The scalars are kept as float words read at the ideal instance; the same word appears on
  every side and is never evaluated.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«102039_j12893491822964_1_alg».proof.Proof.LibPlainDot
import proofs.«102039_j12893491822964_1_alg».proof.Proof.LibDense

noncomputable section

namespace Cert.Gcn

open Idealize.ShloMosaic Idealize.ShloMosaic.ValueIdx Idealize.ShloMosaic.TcCoe

/-- An `M × N` array of extended reals. -/
abbrev Mat (M N : ℕ) := (⟨2, ![M, N]⟩ : Shape).Idx → EReal

/-- A float word read at the ideal instance. -/
abbrev word (w : BitVec 32) : EReal := Ideal.ofBits .f32 w

/-- The offset `(0, 0)` of a rectangle that starts at an array's origin. -/
theorem zero_offsets : (![0, 0] : Fin 2 → Nat) = fun _ => 0 := funext fun a => by fin_cases a <;> rfl

/-! ## The stages, entry by entry -/

/-- `a·agg + b·x0`. -/
def blend (w1 w2 : BitVec 32) {M N : ℕ} (agg x0 : Mat M N) : Mat M N := fun i => word w1 * agg i + word w2 * x0 i

/-- `max (c·u + e·(u · W)) 0` with `u = blend agg x0`. -/
def layer (w1 w2 w3 w4 : BitVec 32) {M K : ℕ} (agg x0 : Mat M K) (W : Mat K K) : Mat M K := fun i =>
  max (word w3 * blend w1 w2 agg x0 i
    + word w4 * ∑ k : Fin K, blend w1 w2 agg x0 (ix2 (i 0) k) * W (ix2 k (i 1))) (word 0x00000000#32)

/-- `max (x · W + bias) 0`, the bias a one-row array. -/
def entry {M K N : ℕ} (x : Mat M K) (W : Mat K N) (b : Mat 1 N) : Mat M N := fun i =>
  max (∑ k : Fin K, x (ix2 (i 0) k) * W (ix2 k (i 1)) + b (ix2 (0 : Fin 1) (i 1))) (word 0x00000000#32)

/-- `h · W + bias`, the bias a one-row array. -/
def outProj {M K N : ℕ} (h : Mat M K) (W : Mat K N) (b : Mat 1 N) : Mat M N := fun i =>
  ∑ k : Fin K, h (ix2 (i 0) k) * W (ix2 k (i 1)) + b (ix2 (0 : Fin 1) (i 1))

/-! ## Equal operands, equal stages -/

theorem layer_congr (w1 w2 w3 w4 : BitVec 32) {M K : ℕ} {agg agg' x0 x0' : Mat M K} {W W' : Mat K K}
    (ha : agg = agg') (hx : x0 = x0') (hW : W = W') :
    layer w1 w2 w3 w4 agg x0 W = layer w1 w2 w3 w4 agg' x0' W' := by rw [ha, hx, hW]

theorem entry_congr {M K N : ℕ} {x x' : Mat M K} {W W' : Mat K N} {b b' : Mat 1 N}
    (hx : x = x') (hW : W = W') (hb : b = b') : entry x W b = entry x' W' b' := by rw [hx, hW, hb]

theorem outProj_congr {M K N : ℕ} {h h' : Mat M K} {W W' : Mat K N} {b b' : Mat 1 N}
    (hh : h = h') (hW : W = W') (hb : b = b') : outProj h W b = outProj h' W' b' := by rw [hh, hW, hb]

/-! ## Each entry depends on one row of the row-indexed operands -/

theorem layer_rows (w1 w2 w3 w4 : BitVec 32) {M M' K : ℕ} (agg x0 : Mat M K) (agg' x0' : Mat M' K) (W W' : Mat K K)
    (p : Fin M) (r : Fin M') (q : Fin K)
    (ha : ∀ k : Fin K, agg' (ix2 r k) = agg (ix2 p k)) (hx : ∀ k : Fin K, x0' (ix2 r k) = x0 (ix2 p k))
    (hW : ∀ k : Fin K, W' (ix2 k q) = W (ix2 k q)) :
    layer w1 w2 w3 w4 agg' x0' W' (ix2 r q) = layer w1 w2 w3 w4 agg x0 W (ix2 p q) := by
  have hb : ∀ k : Fin K, blend w1 w2 agg' x0' (ix2 r k) = blend w1 w2 agg x0 (ix2 p k) := fun k => by
    unfold blend; rw [ha, hx]
  unfold layer
  show max (word w3 * blend w1 w2 agg' x0' (ix2 r q) + word w4 * ∑ k : Fin K, blend w1 w2 agg' x0' (ix2 r k) * W' (ix2 k q)) _
    = max (word w3 * blend w1 w2 agg x0 (ix2 p q) + word w4 * ∑ k : Fin K, blend w1 w2 agg x0 (ix2 p k) * W (ix2 k q)) _
  rw [hb q]
  simp only [hb, hW]

theorem entry_rows {M M' K N : ℕ} (x : Mat M K) (x' : Mat M' K) (W W' : Mat K N) (b b' : Mat 1 N)
    (p : Fin M) (r : Fin M') (q : Fin N) (hx : ∀ k : Fin K, x' (ix2 r k) = x (ix2 p k))
    (hW : ∀ k : Fin K, W' (ix2 k q) = W (ix2 k q)) (hb : b' (ix2 (0 : Fin 1) q) = b (ix2 (0 : Fin 1) q)) :
    entry x' W' b' (ix2 r q) = entry x W b (ix2 p q) := by
  unfold entry
  show max (∑ k : Fin K, x' (ix2 r k) * W' (ix2 k q) + b' (ix2 (0 : Fin 1) q)) _
    = max (∑ k : Fin K, x (ix2 p k) * W (ix2 k q) + b (ix2 (0 : Fin 1) q)) _
  rw [hb]
  simp only [hx, hW]

theorem outProj_rows {M M' K N : ℕ} (h : Mat M K) (h' : Mat M' K) (W W' : Mat K N) (b b' : Mat 1 N)
    (p : Fin M) (r : Fin M') (q : Fin N) (hh : ∀ k : Fin K, h' (ix2 r k) = h (ix2 p k))
    (hW : ∀ k : Fin K, W' (ix2 k q) = W (ix2 k q)) (hb : b' (ix2 (0 : Fin 1) q) = b (ix2 (0 : Fin 1) q)) :
    outProj h' W' b' (ix2 r q) = outProj h W b (ix2 p q) := by
  unfold outProj
  show ∑ k : Fin K, h' (ix2 r k) * W' (ix2 k q) + b' (ix2 (0 : Fin 1) q)
    = ∑ k : Fin K, h (ix2 p k) * W (ix2 k q) + b (ix2 (0 : Fin 1) q)
  rw [hb]
  simp only [hh, hW]

/-! ## The stages as a kernel body spells them (vector operations on a block) -/

/-- The blend as vector operations: each operand cast to its own shape, each scalar splat. -/
def kernBlend (w1 w2 : BitVec 32) {M K : ℕ} (hc : (⟨2, ![M, K]⟩ : Shape).ShapeCasts ⟨2, ![M, K]⟩)
    (agg x0 : FVec Ideal ⟨2, ![M, K]⟩ .f32) : FVec Ideal ⟨2, ![M, K]⟩ .f32 :=
  addf (mulf (broadcast ⟨2, ![M, K]⟩ (Scalar.ofBits .f32 w1)) (shapeCast ⟨2, ![M, K]⟩ agg hc))
    (mulf (broadcast ⟨2, ![M, K]⟩ (Scalar.ofBits .f32 w2)) (shapeCast ⟨2, ![M, K]⟩ x0 hc))

/-- One layer as vector operations: the product accumulated into a zero block. -/
def kernLayer (w1 w2 w3 w4 : BitVec 32) {M K : ℕ} (d : DotDims ⟨2, ![M, K]⟩ ⟨2, ![K, K]⟩ ⟨2, ![M, K]⟩)
    (hc : (⟨2, ![M, K]⟩ : Shape).ShapeCasts ⟨2, ![M, K]⟩) (hw : (⟨2, ![K, K]⟩ : Shape).ShapeCasts ⟨2, ![K, K]⟩)
    (agg x0 : FVec Ideal ⟨2, ![M, K]⟩ .f32) (W : FVec Ideal ⟨2, ![K, K]⟩ .f32) : FVec Ideal ⟨2, ![M, K]⟩ .f32 :=
  maximumf
    (addf (mulf (broadcast ⟨2, ![M, K]⟩ (Scalar.ofBits .f32 w3)) (kernBlend w1 w2 hc agg x0))
      (mulf (broadcast ⟨2, ![M, K]⟩ (Scalar.ofBits .f32 w4))
        (matmul d none (kernBlend w1 w2 hc agg x0) (shapeCast ⟨2, ![K, K]⟩ W hw) (constant ⟨2, ![M, K]⟩ .f32 0x00000000#32))))
    (broadcast ⟨2, ![M, K]⟩ (Scalar.ofBits .f32 0x00000000#32))

theorem kernBlend_apply (w1 w2 : BitVec 32) {M K : ℕ} (hc : (⟨2, ![M, K]⟩ : Shape).ShapeCasts ⟨2, ![M, K]⟩)
    (agg x0 : FVec Ideal ⟨2, ![M, K]⟩ .f32) (i : (⟨2, ![M, K]⟩ : Shape).Idx) :
    kernBlend w1 w2 hc agg x0 i = blend w1 w2 agg x0 i := by
  unfold kernBlend
  rw [shapeCast_self, shapeCast_self]
  rfl

theorem kernLayer_apply (w1 w2 w3 w4 : BitVec 32) {M K : ℕ} (d : DotDims ⟨2, ![M, K]⟩ ⟨2, ![K, K]⟩ ⟨2, ![M, K]⟩)
    (hd : d = DotDims.plain M K K)
    (hc : (⟨2, ![M, K]⟩ : Shape).ShapeCasts ⟨2, ![M, K]⟩) (hw : (⟨2, ![K, K]⟩ : Shape).ShapeCasts ⟨2, ![K, K]⟩)
    (agg x0 : FVec Ideal ⟨2, ![M, K]⟩ .f32) (W : FVec Ideal ⟨2, ![K, K]⟩ .f32) (p : Fin M) (q : Fin K) :
    kernLayer w1 w2 w3 w4 d hc hw agg x0 W (ix2 p q) = layer w1 w2 w3 w4 agg x0 W (ix2 p q) := by
  unfold kernLayer
  dsimp only [matmul]
  rw [maximumf_apply, addf_apply, mulf_apply, mulf_apply, PlainDot.matmul_zero_apply d hd, shapeCast_self]
  simp only [kernBlend_apply]
  rfl

/-- The entry stage as vector operations: product into a zero block, the one-row bias cast and spread over the rows. -/
def kernEntry {M K N : ℕ} (d : DotDims ⟨2, ![M, K]⟩ ⟨2, ![K, N]⟩ ⟨2, ![M, N]⟩)
    (h1 : (⟨2, ![1, N]⟩ : Shape).ShapeCasts ⟨2, ![1, N]⟩) (h2 : (⟨2, ![1, N]⟩ : Shape).Broadcasts ⟨2, ![M, N]⟩)
    (x : FVec Ideal ⟨2, ![M, K]⟩ .f32) (W : FVec Ideal ⟨2, ![K, N]⟩ .f32) (b : FVec Ideal ⟨2, ![1, N]⟩ .f32) :
    FVec Ideal ⟨2, ![M, N]⟩ .f32 :=
  maximumf
    (addf (matmul d none x W (constant ⟨2, ![M, N]⟩ .f32 0x00000000#32))
      (broadcastTo ⟨2, ![M, N]⟩ (shapeCast ⟨2, ![1, N]⟩ b h1) h2))
    (broadcast ⟨2, ![M, N]⟩ (Scalar.ofBits .f32 0x00000000#32))

theorem kernEntry_apply {M K N : ℕ} (d : DotDims ⟨2, ![M, K]⟩ ⟨2, ![K, N]⟩ ⟨2, ![M, N]⟩) (hd : d = DotDims.plain M K N)
    (h1 : (⟨2, ![1, N]⟩ : Shape).ShapeCasts ⟨2, ![1, N]⟩) (h2 : (⟨2, ![1, N]⟩ : Shape).Broadcasts ⟨2, ![M, N]⟩)
    (x : FVec Ideal ⟨2, ![M, K]⟩ .f32) (W : FVec Ideal ⟨2, ![K, N]⟩ .f32) (b : FVec Ideal ⟨2, ![1, N]⟩ .f32)
    (p : Fin M) (q : Fin N) :
    kernEntry d h1 h2 x W b (ix2 p q) = entry x W b (ix2 p q) := by
  unfold kernEntry
  dsimp only [matmul]
  rw [maximumf_apply, addf_apply, PlainDot.matmul_zero_apply d hd, broadcastTo_1b_ab_apply, shapeCast_self]
  rfl

/-- The exit stage as vector operations. -/
def kernOut {M K N : ℕ} (d : DotDims ⟨2, ![M, K]⟩ ⟨2, ![K, N]⟩ ⟨2, ![M, N]⟩)
    (hc : (⟨2, ![M, K]⟩ : Shape).ShapeCasts ⟨2, ![M, K]⟩)
    (h1 : (⟨2, ![1, N]⟩ : Shape).ShapeCasts ⟨2, ![1, N]⟩) (h2 : (⟨2, ![1, N]⟩ : Shape).Broadcasts ⟨2, ![M, N]⟩)
    (h : FVec Ideal ⟨2, ![M, K]⟩ .f32) (W : FVec Ideal ⟨2, ![K, N]⟩ .f32) (b : FVec Ideal ⟨2, ![1, N]⟩ .f32) :
    FVec Ideal ⟨2, ![M, N]⟩ .f32 :=
  addf (matmul d none (shapeCast ⟨2, ![M, K]⟩ h hc) W (constant ⟨2, ![M, N]⟩ .f32 0x00000000#32))
    (broadcastTo ⟨2, ![M, N]⟩ (shapeCast ⟨2, ![1, N]⟩ b h1) h2)

theorem kernOut_apply {M K N : ℕ} (d : DotDims ⟨2, ![M, K]⟩ ⟨2, ![K, N]⟩ ⟨2, ![M, N]⟩) (hd : d = DotDims.plain M K N)
    (hc : (⟨2, ![M, K]⟩ : Shape).ShapeCasts ⟨2, ![M, K]⟩)
    (h1 : (⟨2, ![1, N]⟩ : Shape).ShapeCasts ⟨2, ![1, N]⟩) (h2 : (⟨2, ![1, N]⟩ : Shape).Broadcasts ⟨2, ![M, N]⟩)
    (h : FVec Ideal ⟨2, ![M, K]⟩ .f32) (W : FVec Ideal ⟨2, ![K, N]⟩ .f32) (b : FVec Ideal ⟨2, ![1, N]⟩ .f32)
    (p : Fin M) (q : Fin N) :
    kernOut d hc h1 h2 h W b (ix2 p q) = outProj h W b (ix2 p q) := by
  unfold kernOut
  dsimp only [matmul]
  rw [addf_apply, PlainDot.matmul_zero_apply d hd, broadcastTo_1b_ab_apply, shapeCast_self, shapeCast_self]
  rfl

/-! ## The stages as the host spells them (whole-array operations) -/

/-- A scalar constant spread over an array. -/
def hostScalar {M K : ℕ} (hb : (⟨0, ![]⟩ : Shape).BroadcastsInDim ⟨2, ![M, K]⟩ ![]) (w : BitVec 32) :
    FVec Ideal ⟨2, ![M, K]⟩ .f32 :=
  broadcastInDim ⟨2, ![M, K]⟩ ![] hb (constant (F := Ideal) ⟨0, ![]⟩ .f32 w)

theorem hostScalar_apply {M K : ℕ} (hb : (⟨0, ![]⟩ : Shape).BroadcastsInDim ⟨2, ![M, K]⟩ ![]) (w : BitVec 32)
    (i : (⟨2, ![M, K]⟩ : Shape).Idx) : hostScalar hb w i = word w := by
  unfold hostScalar
  rw [broadcastInDim_apply ![] hb _ i ix0 (fun a => a.elim0)]
  rfl

def hostBlend (w1 w2 : BitVec 32) {M K : ℕ} (hb : (⟨0, ![]⟩ : Shape).BroadcastsInDim ⟨2, ![M, K]⟩ ![])
    (agg x0 : FVec Ideal ⟨2, ![M, K]⟩ .f32) : FVec Ideal ⟨2, ![M, K]⟩ .f32 :=
  addf (mulf (hostScalar hb w1) agg) (mulf (hostScalar hb w2) x0)

theorem hostBlend_apply (w1 w2 : BitVec 32) {M K : ℕ} (hb : (⟨0, ![]⟩ : Shape).BroadcastsInDim ⟨2, ![M, K]⟩ ![])
    (agg x0 : FVec Ideal ⟨2, ![M, K]⟩ .f32) (i : (⟨2, ![M, K]⟩ : Shape).Idx) :
    hostBlend w1 w2 hb agg x0 i = blend w1 w2 agg x0 i := by
  unfold hostBlend
  rw [addf_apply, mulf_apply, mulf_apply, hostScalar_apply, hostScalar_apply]
  rfl

/-- One layer as whole-array operations: the product a `dot_general`, the rectifier a maximum with a spread zero. -/
def hostLayer (w1 w2 w3 w4 : BitVec 32) {M K : ℕ} (d : DotDims ⟨2, ![M, K]⟩ ⟨2, ![K, K]⟩ ⟨2, ![M, K]⟩)
    (hb : (⟨0, ![]⟩ : Shape).BroadcastsInDim ⟨2, ![M, K]⟩ ![])
    (agg x0 : FVec Ideal ⟨2, ![M, K]⟩ .f32) (W : FVec Ideal ⟨2, ![K, K]⟩ .f32) : FVec Ideal ⟨2, ![M, K]⟩ .f32 :=
  maximumf
    (addf (mulf (hostScalar hb w3) (hostBlend w1 w2 hb agg x0))
      (mulf (hostScalar hb w4) (Host.dotGeneral d none (hostBlend w1 w2 hb agg x0) W)))
    (hostScalar hb 0x00000000#32)

theorem hostLayer_eq (w1 w2 w3 w4 : BitVec 32) {M K : ℕ} (d : DotDims ⟨2, ![M, K]⟩ ⟨2, ![K, K]⟩ ⟨2, ![M, K]⟩)
    (hd : d = DotDims.plain M K K) (hb : (⟨0, ![]⟩ : Shape).BroadcastsInDim ⟨2, ![M, K]⟩ ![])
    (agg x0 : FVec Ideal ⟨2, ![M, K]⟩ .f32) (W : FVec Ideal ⟨2, ![K, K]⟩ .f32) :
    hostLayer w1 w2 w3 w4 d hb agg x0 W = layer w1 w2 w3 w4 agg x0 W := by
  funext i
  obtain ⟨p, q, rfl⟩ : ∃ (p : Fin M) (q : Fin K), i = ix2 p q := ⟨i 0, i 1, eq_ix2 i⟩
  unfold hostLayer
  dsimp only [Host.dotGeneral]
  rw [maximumf_apply, addf_apply, mulf_apply, mulf_apply, PlainDot.dotGeneral_apply d hd,
    hostScalar_apply, hostScalar_apply, hostScalar_apply]
  simp only [hostBlend_apply]
  rfl

/-- The bias vector as the host spreads it: to one row, then over the rows. -/
def hostRow {M N : ℕ} (h1 : (⟨1, ![N]⟩ : Shape).BroadcastsInDim ⟨2, ![1, N]⟩ ![1])
    (h2 : (⟨2, ![1, N]⟩ : Shape).BroadcastsInDim ⟨2, ![M, N]⟩ ![0, 1]) (b : FVec Ideal ⟨1, ![N]⟩ .f32) :
    FVec Ideal ⟨2, ![M, N]⟩ .f32 :=
  broadcastInDim ⟨2, ![M, N]⟩ ![0, 1] h2 (broadcastInDim ⟨2, ![1, N]⟩ ![1] h1 b)

/-- A vector as the one row of a `[1, N]` array. -/
def rowOf {N : ℕ} (b : (⟨1, ![N]⟩ : Shape).Idx → EReal) : Mat 1 N := fun j => b (ix1 (j 1))

def hostEntry {M K N : ℕ} (d : DotDims ⟨2, ![M, K]⟩ ⟨2, ![K, N]⟩ ⟨2, ![M, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (hb : (⟨0, ![]⟩ : Shape).BroadcastsInDim ⟨2, ![M, N]⟩ ![])
    (x : FVec Ideal ⟨2, ![M, K]⟩ .f32) (W : FVec Ideal ⟨2, ![K, N]⟩ .f32) (b : FVec Ideal ⟨1, ![N]⟩ .f32) :
    FVec Ideal ⟨2, ![M, N]⟩ .f32 :=
  maximumf (addf (Host.dotGeneral d none x W) (hostRow h1 h2 b)) (hostScalar hb 0x00000000#32)

theorem hostEntry_eq {M K N : ℕ} (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (hb : (⟨0, ![]⟩ : Shape).BroadcastsInDim ⟨2, ![M, N]⟩ ![])
    (x : FVec Ideal ⟨2, ![M, K]⟩ .f32) (W : FVec Ideal ⟨2, ![K, N]⟩ .f32) (b : FVec Ideal ⟨1, ![N]⟩ .f32) :
    hostEntry d h1 h2 hb x W b = entry x W (rowOf b) := by
  funext i
  obtain ⟨p, q, rfl⟩ : ∃ (p : Fin M) (q : Fin N), i = ix2 p q := ⟨i 0, i 1, eq_ix2 i⟩
  unfold hostEntry hostRow
  dsimp only [Host.dotGeneral]
  rw [maximumf_apply, addf_apply, PlainDot.dotGeneral_apply d hd, DenseLayer.inDimRow_apply, hostScalar_apply]
  rfl

def hostOut {M K N : ℕ} (d : DotDims ⟨2, ![M, K]⟩ ⟨2, ![K, N]⟩ ⟨2, ![M, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h : FVec Ideal ⟨2, ![M, K]⟩ .f32) (W : FVec Ideal ⟨2, ![K, N]⟩ .f32) (b : FVec Ideal ⟨1, ![N]⟩ .f32) :
    FVec Ideal ⟨2, ![M, N]⟩ .f32 :=
  addf (Host.dotGeneral d none h W) (hostRow h1 h2 b)

theorem hostOut_eq {M K N : ℕ} (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (h : FVec Ideal ⟨2, ![M, K]⟩ .f32) (W : FVec Ideal ⟨2, ![K, N]⟩ .f32) (b : FVec Ideal ⟨1, ![N]⟩ .f32) :
    hostOut d h1 h2 h W b = outProj h W (rowOf b) := by
  funext i
  obtain ⟨p, q, rfl⟩ : ∃ (p : Fin M) (q : Fin N), i = ix2 p q := ⟨i 0, i 1, eq_ix2 i⟩
  unfold hostOut hostRow
  dsimp only [Host.dotGeneral]
  rw [addf_apply, PlainDot.dotGeneral_apply d hd, DenseLayer.inDimRow_apply]
  rfl

/-- A vector reshaped to one row is that row. -/
theorem reshape_row {N : ℕ} (b : (⟨1, ![N]⟩ : Shape).Idx → EReal) (h : (⟨1, ![N]⟩ : Shape).ShapeCasts ⟨2, ![1, N]⟩) :
    shapeCast ⟨2, ![1, N]⟩ b h = rowOf b := by
  funext j
  obtain ⟨z, q, rfl⟩ : ∃ (z : Fin 1) (q : Fin N), j = ix2 z q := ⟨j 0, j 1, eq_ix2 j⟩
  exact shapeCast_a_1a_apply b h z q

end Cert.Gcn

end
-- ==== Proof.Network.lean ====
/-
  The whole network as one function of its nine arguments.

  `aggregate` is the sparse message pass: every edge gathers its source row of the hidden state, scales it by the edge
  weight, and the scaled rows are scatter-added at the destination rows of a zero array.  It is spelled with the host's
  own gather and scatter-add and is never opened: both programs run the same operations on it.  The hidden states are
  `hidden0 = max (x · W_in + b_in) 0` and, for `l = 1 … 8`, one layer of the aggregated previous state, of `hidden0`
  and of slice `l - 1` of the layer weights; the result is `hidden8 · W_out + b_out`.
-/
import proofs.«102039_j12893491822964_1_alg».proof.ReferenceIdeal
import proofs.«102039_j12893491822964_1_alg».proof.Proof.Gen.ReferenceIdeal
import proofs.«102039_j12893491822964_1_alg».proof.Proof.Layers

noncomputable section

namespace Cert.Gcn

open Cert.ReferenceIdeal Cert.ReferenceIdeal.Gen Idealize.ShloMosaic Idealize.ShloMosaic.TcCoe Idealize.ShloMosaic.ValueIdx

/-- The sparse message pass: gather the source rows (a negative source index wrapped by the row count), scale by the
    edge weights, scatter-add at the destination rows into zeros. -/
def aggregate (src dst : IVec S800000 32) (w : FVec Ideal S800000 .f32) (h : FVec Ideal S50000x64 .f32) :
    FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf
      (Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x64 ![0, 1] bcast_S800000x1_S800000x64_0_1
        (broadcastInDim S800000x1 ![0] bcast_S800000_S800000x1_0 w)))

/-- Slice 0 of the layer weights, as a `64 × 64` array. -/
def wslice0 (W : FVec Ideal S8x64x64 .f32) : FVec Ideal S64x64 .f32 :=
  shapeCast S64x64 (extractStridedSlice S1x64x64 ![0, 0, 0] W slices_S8x64x64_S1x64x64_0_0_0) shapeCasts_S1x64x64_S64x64

/-- Slice 1 of the layer weights, as a `64 × 64` array. -/
def wslice1 (W : FVec Ideal S8x64x64 .f32) : FVec Ideal S64x64 .f32 :=
  shapeCast S64x64 (extractStridedSlice S1x64x64 ![1, 0, 0] W slices_S8x64x64_S1x64x64_1_0_0) shapeCasts_S1x64x64_S64x64

/-- Slice 2 of the layer weights, as a `64 × 64` array. -/
def wslice2 (W : FVec Ideal S8x64x64 .f32) : FVec Ideal S64x64 .f32 :=
  shapeCast S64x64 (extractStridedSlice S1x64x64 ![2, 0, 0] W slices_S8x64x64_S1x64x64_2_0_0) shapeCasts_S1x64x64_S64x64

/-- Slice 3 of the layer weights, as a `64 × 64` array. -/
def wslice3 (W : FVec Ideal S8x64x64 .f32) : FVec Ideal S64x64 .f32 :=
  shapeCast S64x64 (extractStridedSlice S1x64x64 ![3, 0, 0] W slices_S8x64x64_S1x64x64_3_0_0) shapeCasts_S1x64x64_S64x64

/-- Slice 4 of the layer weights, as a `64 × 64` array. -/
def wslice4 (W : FVec Ideal S8x64x64 .f32) : FVec Ideal S64x64 .f32 :=
  shapeCast S64x64 (extractStridedSlice S1x64x64 ![4, 0, 0] W slices_S8x64x64_S1x64x64_4_0_0) shapeCasts_S1x64x64_S64x64

/-- Slice 5 of the layer weights, as a `64 × 64` array. -/
def wslice5 (W : FVec Ideal S8x64x64 .f32) : FVec Ideal S64x64 .f32 :=
  shapeCast S64x64 (extractStridedSlice S1x64x64 ![5, 0, 0] W slices_S8x64x64_S1x64x64_5_0_0) shapeCasts_S1x64x64_S64x64

/-- Slice 6 of the layer weights, as a `64 × 64` array. -/
def wslice6 (W : FVec Ideal S8x64x64 .f32) : FVec Ideal S64x64 .f32 :=
  shapeCast S64x64 (extractStridedSlice S1x64x64 ![6, 0, 0] W slices_S8x64x64_S1x64x64_6_0_0) shapeCasts_S1x64x64_S64x64

/-- Slice 7 of the layer weights, as a `64 × 64` array. -/
def wslice7 (W : FVec Ideal S8x64x64 .f32) : FVec Ideal S64x64 .f32 :=
  shapeCast S64x64 (extractStridedSlice S1x64x64 ![7, 0, 0] W slices_S8x64x64_S1x64x64_7_0_0) shapeCasts_S1x64x64_S64x64

theorem aggregate_congr {src src' dst dst' : IVec S800000 32} {w w' : FVec Ideal S800000 .f32}
    {h h' : FVec Ideal S50000x64 .f32} (hs : src = src') (hd : dst = dst') (hw : w = w') (hh : h = h') :
    aggregate src dst w h = aggregate src' dst' w' h' := by rw [hs, hd, hw, hh]

section
variable (a0 : FVec Ideal S50000x128 .f32) (a1 a2 : IVec S800000 32) (a3 : FVec Ideal S800000 .f32)
  (a4 : FVec Ideal S128x64 .f32) (a5 : FVec Ideal S64 .f32) (a6 : FVec Ideal S8x64x64 .f32)
  (a7 : FVec Ideal S64x40 .f32) (a8 : FVec Ideal S40 .f32)

/-- The first hidden state. -/
def hidden0 : Mat 50000 64 := entry a0 a4 (rowOf a5)
/-- Hidden state 1. -/
def hidden1 : Mat 50000 64 :=
  layer 0x3F666666#32 0x3DCCCCCD#32 0x3F183370#32 0x3ECF991F#32 (aggregate a1 a2 a3 (hidden0 a0 a4 a5)) (hidden0 a0 a4 a5) (wslice0 a6)
/-- Hidden state 2. -/
def hidden2 : Mat 50000 64 :=
  layer 0x3F666666#32 0x3DCCCCCD#32 0x3F46E010#32 0x3E647FBE#32 (aggregate a1 a2 a3 (hidden1 a0 a1 a2 a3 a4 a5 a6)) (hidden0 a0 a4 a5) (wslice1 a6)
/-- Hidden state 3. -/
def hidden3 : Mat 50000 64 :=
  layer 0x3F666666#32 0x3DCCCCCD#32 0x3F588995#32 0x3E1DD9AD#32 (aggregate a1 a2 a3 (hidden2 a0 a1 a2 a3 a4 a5 a6)) (hidden0 a0 a4 a5) (wslice2 a6)
/-- Hidden state 4. -/
def hidden4 : Mat 50000 64 :=
  layer 0x3F666666#32 0x3DCCCCCD#32 0x3F61D8F9#32 0x3DF1383B#32 (aggregate a1 a2 a3 (hidden3 a0 a1 a2 a3 a4 a5 a6)) (hidden0 a0 a4 a5) (wslice3 a6)
/-- Hidden state 5. -/
def hidden5 : Mat 50000 64 :=
  layer 0x3F666666#32 0x3DCCCCCD#32 0x3F6799C1#32 0x3DC331FC#32 (aggregate a1 a2 a3 (hidden4 a0 a1 a2 a3 a4 a5 a6)) (hidden0 a0 a4 a5) (wslice4 a6)
/-- Hidden state 6. -/
def hidden6 : Mat 50000 64 :=
  layer 0x3F666666#32 0x3DCCCCCD#32 0x3F6B8252#32 0x3DA3ED6E#32 (aggregate a1 a2 a3 (hidden5 a0 a1 a2 a3 a4 a5 a6)) (hidden0 a0 a4 a5) (wslice5 a6)
/-- Hidden state 7. -/
def hidden7 : Mat 50000 64 :=
  layer 0x3F666666#32 0x3DCCCCCD#32 0x3F6E567C#32 0x3D8D4C22#32 (aggregate a1 a2 a3 (hidden6 a0 a1 a2 a3 a4 a5 a6)) (hidden0 a0 a4 a5) (wslice6 a6)
/-- Hidden state 8. -/
def hidden8 : Mat 50000 64 :=
  layer 0x3F666666#32 0x3DCCCCCD#32 0x3F707AE8#32 0x3D785186#32 (aggregate a1 a2 a3 (hidden7 a0 a1 a2 a3 a4 a5 a6)) (hidden0 a0 a4 a5) (wslice7 a6)
/-- The network's result. -/
def output : Mat 50000 40 := outProj (hidden8 a0 a1 a2 a3 a4 a5 a6) a7 (rowOf a8)

end

end Cert.Gcn

end
-- ==== Proof.Stretches.lean ====
/-
  What one host stretch between two regions computes, from any buffer contents `W`.

  Stretch `l` (`l = 1 … 8`) aggregates the previous hidden state over the edges and takes slice `l - 1` of the layer
  weights; it reads the edge arrays and the weights and writes only its own intermediate buffers, so the arguments and
  the first hidden state pass through it untouched.  The first stretch reshapes the entry bias to one row, the last one
  the exit bias.
-/
import proofs.«102039_j12893491822964_1_alg».proof.Proof.Gen.KernelIdeal.Frame
import proofs.«102039_j12893491822964_1_alg».proof.Proof.Network

noncomputable section

namespace Cert.KernelIdeal.Val

open Cert.KernelIdeal Cert.KernelIdeal.Gen Idealize.ShloMosaic Idealize.ShloMosaic.TcCoe Idealize.ShloMosaic.StableHlo
open Idealize.SL.Sem

/-- A buffer that no operation of the stretch writes holds after it what it held before. -/
macro "kept_by " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

variable (W : Valuation τ sig (Elt Ideal))

/-- The buffers every later stage still needs: the edge arrays, the layer and exit weights, the exit bias, and the first
    hidden state. -/
structure Keeps (W' : Valuation τ sig (Elt Ideal)) : Prop where
  main_arg1 : W' (Proc.devRef .tc main_arg1) = W (Proc.devRef .tc main_arg1)
  main_arg2 : W' (Proc.devRef .tc main_arg2) = W (Proc.devRef .tc main_arg2)
  main_arg3 : W' (Proc.devRef .tc main_arg3) = W (Proc.devRef .tc main_arg3)
  main_arg6 : W' (Proc.devRef .tc main_arg6) = W (Proc.devRef .tc main_arg6)
  main_arg7 : W' (Proc.devRef .tc main_arg7) = W (Proc.devRef .tc main_arg7)
  main_arg8 : W' (Proc.devRef .tc main_arg8) = W (Proc.devRef .tc main_arg8)
  main_v1 : W' (Proc.devRef .tc main_v1) = W (Proc.devRef .tc main_v1)

theorem Keeps.refl : Keeps W W := ⟨rfl, rfl, rfl, rfl, rfl, rfl, rfl⟩

theorem Keeps.trans {W₁ W₂ : Valuation τ sig (Elt Ideal)} (h₁ : Keeps W W₁) (h₂ : Keeps W₁ W₂) : Keeps W W₂ :=
  ⟨h₂.main_arg1.trans h₁.main_arg1, h₂.main_arg2.trans h₁.main_arg2, h₂.main_arg3.trans h₁.main_arg3, h₂.main_arg6.trans h₁.main_arg6, h₂.main_arg7.trans h₁.main_arg7, h₂.main_arg8.trans h₁.main_arg8, h₂.main_v1.trans h₁.main_v1⟩

theorem keeps_host1 : Keeps W (StableHlo.after (hostOps1 (F := Ideal)) W) :=
  ⟨by kept_by hostOps1, by kept_by hostOps1, by kept_by hostOps1, by kept_by hostOps1, by kept_by hostOps1, by kept_by hostOps1, by kept_by hostOps1⟩

theorem keeps_host2 : Keeps W (StableHlo.after (hostOps2 (F := Ideal)) W) :=
  ⟨by kept_by hostOps2, by kept_by hostOps2, by kept_by hostOps2, by kept_by hostOps2, by kept_by hostOps2, by kept_by hostOps2, by kept_by hostOps2⟩

theorem keeps_host3 : Keeps W (StableHlo.after (hostOps3 (F := Ideal)) W) :=
  ⟨by kept_by hostOps3, by kept_by hostOps3, by kept_by hostOps3, by kept_by hostOps3, by kept_by hostOps3, by kept_by hostOps3, by kept_by hostOps3⟩

theorem keeps_host4 : Keeps W (StableHlo.after (hostOps4 (F := Ideal)) W) :=
  ⟨by kept_by hostOps4, by kept_by hostOps4, by kept_by hostOps4, by kept_by hostOps4, by kept_by hostOps4, by kept_by hostOps4, by kept_by hostOps4⟩

theorem keeps_host5 : Keeps W (StableHlo.after (hostOps5 (F := Ideal)) W) :=
  ⟨by kept_by hostOps5, by kept_by hostOps5, by kept_by hostOps5, by kept_by hostOps5, by kept_by hostOps5, by kept_by hostOps5, by kept_by hostOps5⟩

theorem keeps_host6 : Keeps W (StableHlo.after (hostOps6 (F := Ideal)) W) :=
  ⟨by kept_by hostOps6, by kept_by hostOps6, by kept_by hostOps6, by kept_by hostOps6, by kept_by hostOps6, by kept_by hostOps6, by kept_by hostOps6⟩

theorem keeps_host7 : Keeps W (StableHlo.after (hostOps7 (F := Ideal)) W) :=
  ⟨by kept_by hostOps7, by kept_by hostOps7, by kept_by hostOps7, by kept_by hostOps7, by kept_by hostOps7, by kept_by hostOps7, by kept_by hostOps7⟩

theorem keeps_host8 : Keeps W (StableHlo.after (hostOps8 (F := Ideal)) W) :=
  ⟨by kept_by hostOps8, by kept_by hostOps8, by kept_by hostOps8, by kept_by hostOps8, by kept_by hostOps8, by kept_by hostOps8, by kept_by hostOps8⟩

theorem keeps_host9 : Keeps W (StableHlo.after (hostOps9 (F := Ideal)) W) :=
  ⟨by kept_by hostOps9, by kept_by hostOps9, by kept_by hostOps9, by kept_by hostOps9, by kept_by hostOps9, by kept_by hostOps9, by kept_by hostOps9⟩

set_option maxHeartbeats 2000000 in
/-- Stretch 1 aggregates hidden state 0 over the edges. -/
theorem host_agg1 : StableHlo.after (hostOps1 (F := Ideal)) W (Proc.devRef .tc main_v14)
    = Cert.Gcn.aggregate (W (Proc.devRef .tc main_arg1)) (W (Proc.devRef .tc main_arg2)) (W (Proc.devRef .tc main_arg3))
        (W (Proc.devRef .tc main_v1)) := by
  after_results_simp <;> rfl

/-- Stretch 1 takes slice 0 of the layer weights. -/
theorem host_w1 : StableHlo.after (hostOps1 (F := Ideal)) W (Proc.devRef .tc main_v16)
    = Cert.Gcn.wslice0 (W (Proc.devRef .tc main_arg6)) := by
  after_results
  rfl

set_option maxHeartbeats 2000000 in
/-- Stretch 2 aggregates hidden state 1 over the edges. -/
theorem host_agg2 : StableHlo.after (hostOps2 (F := Ideal)) W (Proc.devRef .tc main_v30)
    = Cert.Gcn.aggregate (W (Proc.devRef .tc main_arg1)) (W (Proc.devRef .tc main_arg2)) (W (Proc.devRef .tc main_arg3))
        (W (Proc.devRef .tc main_v17)) := by
  after_results_simp <;> rfl

/-- Stretch 2 takes slice 1 of the layer weights. -/
theorem host_w2 : StableHlo.after (hostOps2 (F := Ideal)) W (Proc.devRef .tc main_v32)
    = Cert.Gcn.wslice1 (W (Proc.devRef .tc main_arg6)) := by
  after_results
  rfl

theorem host_prev2 : StableHlo.after (hostOps2 (F := Ideal)) W (Proc.devRef .tc main_v17)
    = W (Proc.devRef .tc main_v17) := by
  kept_by hostOps2

set_option maxHeartbeats 2000000 in
/-- Stretch 3 aggregates hidden state 2 over the edges. -/
theorem host_agg3 : StableHlo.after (hostOps3 (F := Ideal)) W (Proc.devRef .tc main_v46)
    = Cert.Gcn.aggregate (W (Proc.devRef .tc main_arg1)) (W (Proc.devRef .tc main_arg2)) (W (Proc.devRef .tc main_arg3))
        (W (Proc.devRef .tc main_v33)) := by
  after_results_simp <;> rfl

/-- Stretch 3 takes slice 2 of the layer weights. -/
theorem host_w3 : StableHlo.after (hostOps3 (F := Ideal)) W (Proc.devRef .tc main_v48)
    = Cert.Gcn.wslice2 (W (Proc.devRef .tc main_arg6)) := by
  after_results
  rfl

theorem host_prev3 : StableHlo.after (hostOps3 (F := Ideal)) W (Proc.devRef .tc main_v33)
    = W (Proc.devRef .tc main_v33) := by
  kept_by hostOps3

set_option maxHeartbeats 2000000 in
/-- Stretch 4 aggregates hidden state 3 over the edges. -/
theorem host_agg4 : StableHlo.after (hostOps4 (F := Ideal)) W (Proc.devRef .tc main_v62)
    = Cert.Gcn.aggregate (W (Proc.devRef .tc main_arg1)) (W (Proc.devRef .tc main_arg2)) (W (Proc.devRef .tc main_arg3))
        (W (Proc.devRef .tc main_v49)) := by
  after_results_simp <;> rfl

/-- Stretch 4 takes slice 3 of the layer weights. -/
theorem host_w4 : StableHlo.after (hostOps4 (F := Ideal)) W (Proc.devRef .tc main_v64)
    = Cert.Gcn.wslice3 (W (Proc.devRef .tc main_arg6)) := by
  after_results
  rfl

theorem host_prev4 : StableHlo.after (hostOps4 (F := Ideal)) W (Proc.devRef .tc main_v49)
    = W (Proc.devRef .tc main_v49) := by
  kept_by hostOps4

set_option maxHeartbeats 2000000 in
/-- Stretch 5 aggregates hidden state 4 over the edges. -/
theorem host_agg5 : StableHlo.after (hostOps5 (F := Ideal)) W (Proc.devRef .tc main_v78)
    = Cert.Gcn.aggregate (W (Proc.devRef .tc main_arg1)) (W (Proc.devRef .tc main_arg2)) (W (Proc.devRef .tc main_arg3))
        (W (Proc.devRef .tc main_v65)) := by
  after_results_simp <;> rfl

/-- Stretch 5 takes slice 4 of the layer weights. -/
theorem host_w5 : StableHlo.after (hostOps5 (F := Ideal)) W (Proc.devRef .tc main_v80)
    = Cert.Gcn.wslice4 (W (Proc.devRef .tc main_arg6)) := by
  after_results
  rfl

theorem host_prev5 : StableHlo.after (hostOps5 (F := Ideal)) W (Proc.devRef .tc main_v65)
    = W (Proc.devRef .tc main_v65) := by
  kept_by hostOps5

set_option maxHeartbeats 2000000 in
/-- Stretch 6 aggregates hidden state 5 over the edges. -/
theorem host_agg6 : StableHlo.after (hostOps6 (F := Ideal)) W (Proc.devRef .tc main_v94)
    = Cert.Gcn.aggregate (W (Proc.devRef .tc main_arg1)) (W (Proc.devRef .tc main_arg2)) (W (Proc.devRef .tc main_arg3))
        (W (Proc.devRef .tc main_v81)) := by
  after_results_simp <;> rfl

/-- Stretch 6 takes slice 5 of the layer weights. -/
theorem host_w6 : StableHlo.after (hostOps6 (F := Ideal)) W (Proc.devRef .tc main_v96)
    = Cert.Gcn.wslice5 (W (Proc.devRef .tc main_arg6)) := by
  after_results
  rfl

theorem host_prev6 : StableHlo.after (hostOps6 (F := Ideal)) W (Proc.devRef .tc main_v81)
    = W (Proc.devRef .tc main_v81) := by
  kept_by hostOps6

set_option maxHeartbeats 2000000 in
/-- Stretch 7 aggregates hidden state 6 over the edges. -/
theorem host_agg7 : StableHlo.after (hostOps7 (F := Ideal)) W (Proc.devRef .tc main_v110)
    = Cert.Gcn.aggregate (W (Proc.devRef .tc main_arg1)) (W (Proc.devRef .tc main_arg2)) (W (Proc.devRef .tc main_arg3))
        (W (Proc.devRef .tc main_v97)) := by
  after_results_simp <;> rfl

/-- Stretch 7 takes slice 6 of the layer weights. -/
theorem host_w7 : StableHlo.after (hostOps7 (F := Ideal)) W (Proc.devRef .tc main_v112)
    = Cert.Gcn.wslice6 (W (Proc.devRef .tc main_arg6)) := by
  after_results
  rfl

theorem host_prev7 : StableHlo.after (hostOps7 (F := Ideal)) W (Proc.devRef .tc main_v97)
    = W (Proc.devRef .tc main_v97) := by
  kept_by hostOps7

set_option maxHeartbeats 2000000 in
/-- Stretch 8 aggregates hidden state 7 over the edges. -/
theorem host_agg8 : StableHlo.after (hostOps8 (F := Ideal)) W (Proc.devRef .tc main_v126)
    = Cert.Gcn.aggregate (W (Proc.devRef .tc main_arg1)) (W (Proc.devRef .tc main_arg2)) (W (Proc.devRef .tc main_arg3))
        (W (Proc.devRef .tc main_v113)) := by
  after_results_simp <;> rfl

/-- Stretch 8 takes slice 7 of the layer weights. -/
theorem host_w8 : StableHlo.after (hostOps8 (F := Ideal)) W (Proc.devRef .tc main_v128)
    = Cert.Gcn.wslice7 (W (Proc.devRef .tc main_arg6)) := by
  after_results
  rfl

theorem host_prev8 : StableHlo.after (hostOps8 (F := Ideal)) W (Proc.devRef .tc main_v113)
    = W (Proc.devRef .tc main_v113) := by
  kept_by hostOps8

/-- The first stretch reshapes the entry bias to one row and leaves the features and the entry weight alone. -/
theorem host_bias0 : StableHlo.after (hostOps0 (F := Ideal)) W (Proc.devRef .tc main_v0)
    = shapeCast S1x64 (W (Proc.devRef .tc main_arg5)) shapeCasts_S64_S1x64 := by
  after_results
  rfl

theorem host_x0 : StableHlo.after (hostOps0 (F := Ideal)) W (Proc.devRef .tc main_arg0) = W (Proc.devRef .tc main_arg0) := by
  kept_by hostOps0

theorem host_win0 : StableHlo.after (hostOps0 (F := Ideal)) W (Proc.devRef .tc main_arg4) = W (Proc.devRef .tc main_arg4) := by
  kept_by hostOps0

theorem keeps_host0 : StableHlo.after (hostOps0 (F := Ideal)) W (Proc.devRef .tc main_arg1) = W (Proc.devRef .tc main_arg1)
    ∧ StableHlo.after (hostOps0 (F := Ideal)) W (Proc.devRef .tc main_arg2) = W (Proc.devRef .tc main_arg2)
    ∧ StableHlo.after (hostOps0 (F := Ideal)) W (Proc.devRef .tc main_arg3) = W (Proc.devRef .tc main_arg3)
    ∧ StableHlo.after (hostOps0 (F := Ideal)) W (Proc.devRef .tc main_arg6) = W (Proc.devRef .tc main_arg6)
    ∧ StableHlo.after (hostOps0 (F := Ideal)) W (Proc.devRef .tc main_arg7) = W (Proc.devRef .tc main_arg7)
    ∧ StableHlo.after (hostOps0 (F := Ideal)) W (Proc.devRef .tc main_arg8) = W (Proc.devRef .tc main_arg8) :=
  ⟨by kept_by hostOps0, by kept_by hostOps0, by kept_by hostOps0, by kept_by hostOps0, by kept_by hostOps0, by kept_by hostOps0⟩

/-- The last stretch reshapes the exit bias to one row and leaves the last hidden state alone. -/
theorem host_bias9 : StableHlo.after (hostOps9 (F := Ideal)) W (Proc.devRef .tc main_v130)
    = shapeCast S1x40 (W (Proc.devRef .tc main_arg8)) shapeCasts_S40_S1x40 := by
  after_results
  rfl

theorem host_prev9 : StableHlo.after (hostOps9 (F := Ideal)) W (Proc.devRef .tc main_v129)
    = W (Proc.devRef .tc main_v129) := by
  kept_by hostOps9

end Cert.KernelIdeal.Val

end
-- ==== Proof.Region0.lean ====
/-
  The entry stage on the row-tiled grid.  Grid point `t` loads rows `5000·t … 5000·t + 4999` of the input features,
  the whole weight and the one-row bias, and writes back the stage of those rows.  An entry `(p, q)` of the stage depends
  on row `p` only, so what point `t` writes is block `t` of the stage of the whole arrays; the ten blocks tile the rows.
-/
import proofs.«102039_j12893491822964_1_alg».proof.Proof.Gen.KernelIdeal.Frame
import proofs.«102039_j12893491822964_1_alg».proof.Proof.Layers

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored value is the stage of its loaded blocks, as vector operations. -/
theorem pay0 (v0 : Vec Ideal S5000x128 .f32) (v1 : Vec Ideal S128x64 .f32) (v3 : Vec Ideal S1x64 .f32) :
    k0_pay1 v0 v1 v3 = Cert.Gcn.kernEntry dot_S5000x128_S128x64_S5000x64_1_0_0_1_n_n shapeCasts_S1x64_S1x64 broadcasts_S1x64_S5000x64 v0 v1 v3 := rfl

/-- The index maps over the grid: the row-indexed windows sit at block `(t, 0)`, the weight and the bias at `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem row_lt0 (t : Fin cfg0.N) (r : Fin 5000) : t.val * 5000 + r.val < 50000 := by
  have ht : t.val < grid0.N := t.isLt
  rw [N_0] at ht
  have := r.isLt
  omega

theorem emb0_0 (t : Fin cfg0.N) (r : Fin 5000) (k : Fin 128) :
    ((cfg0.win 0).blk t).view.emb (ix2 r k : S5000x128.Idx)
      = (ix2 (⟨t.val * 5000 + r.val, row_lt0 t r⟩ : Fin 50000) k : S50000x128.Idx) := by
  obtain ⟨e0, e1, -⟩ := idx0 t
  funext a; apply Fin.ext
  match a with
  | ⟨0, _⟩ => show win0_0.index t (0 : Fin 2) * 5000 + 1 * r.val = t.val * 5000 + r.val; omega
  | ⟨1, _⟩ => show win0_0.index t (1 : Fin 2) * 128 + 1 * k.val = k.val; omega

theorem emb0_1 (t : Fin cfg0.N) (k : Fin 128) (q : Fin 64) :
    ((cfg0.win 1).blk t).view.emb (ix2 k q : S128x64.Idx) = (ix2 k q : S128x64.Idx) := by
  obtain ⟨-, -, e0, e1, -⟩ := idx0 t
  funext a; apply Fin.ext
  match a with
  | ⟨0, _⟩ => show win0_1.index t (0 : Fin 2) * 128 + 1 * k.val = k.val; omega
  | ⟨1, _⟩ => show win0_1.index t (1 : Fin 2) * 64 + 1 * q.val = q.val; omega

theorem emb0_2 (t : Fin cfg0.N) (q : Fin 64) :
    ((cfg0.win 2).blk t).view.emb (ix2 (0 : Fin 1) q : S1x64.Idx) = (ix2 (0 : Fin 1) q : S1x64.Idx) := by
  obtain ⟨-, -, -, -, e0, e1, -⟩ := idx0 t
  funext a; apply Fin.ext
  match a with
  | ⟨0, _⟩ => show win0_2.index t (0 : Fin 2) * 1 + 1 * 0 = 0; omega
  | ⟨1, _⟩ => show win0_2.index t (1 : Fin 2) * 64 + 1 * q.val = q.val; omega

theorem emb0_3 (t : Fin cfg0.N) (r : Fin 5000) (q : Fin 64) :
    ((cfg0.win 3).blk t).view.emb (ix2 r q : S5000x64.Idx)
      = (ix2 (⟨t.val * 5000 + r.val, row_lt0 t r⟩ : Fin 50000) q : S50000x64.Idx) := by
  obtain ⟨-, -, -, -, -, -, e0, e1⟩ := idx0 t
  funext a; apply Fin.ext
  match a with
  | ⟨0, _⟩ => show win0_3.index t (0 : Fin 2) * 5000 + 1 * r.val = t.val * 5000 + r.val; omega
  | ⟨1, _⟩ => show win0_3.index t (1 : Fin 2) * 64 + 1 * q.val = q.val; omega

theorem blk0_0 (c : Dev nD) (t : Fin cfg0.N) (r : Fin 5000) (k : Fin 128) :
    iblk0 V c 0 t (ix2 r k : S5000x128.Idx)
      = V c main_arg0 (ix2 (⟨t.val * 5000 + r.val, row_lt0 t r⟩ : Fin 50000) k : S50000x128.Idx) := by
  show V c main_arg0 (((cfg0.win 0).blk t).view.emb (ix2 r k : S5000x128.Idx)) = _
  rw [emb0_0]

theorem blk0_1 (c : Dev nD) (t : Fin cfg0.N) (k : Fin 128) (q : Fin 64) :
    iblk0 V c 1 t (ix2 k q : S128x64.Idx) = V c main_arg4 (ix2 k q : S128x64.Idx) := by
  show V c main_arg4 (((cfg0.win 1).blk t).view.emb (ix2 k q : S128x64.Idx)) = _
  rw [emb0_1]

theorem blk0_2 (c : Dev nD) (t : Fin cfg0.N) (q : Fin 64) :
    iblk0 V c 2 t (ix2 (0 : Fin 1) q : S1x64.Idx) = V c main_v0 (ix2 (0 : Fin 1) q : S1x64.Idx) := by
  show V c main_v0 (((cfg0.win 2).blk t).view.emb (ix2 (0 : Fin 1) q : S1x64.Idx)) = _
  rw [emb0_2]

/-- What point `t` writes back is block `t` of the stage of the arrays the region finds. -/
theorem flushed0 (c : Dev nD) (t : Fin cfg0.N) :
    (dat0 V c).flushed 3 t = ((cfg0.win 3).blk t).view.read (Elt Ideal)
      (Cert.Gcn.entry (V c main_arg0) (V c main_arg4) (V c main_v0)) := by
  show (cfg0.win 3).cut (grid0.coords t) ((dat0 V c).after 3 t) = _
  rw [after0_3]
  unfold out0_3
  rw [View.canon_unit_zero Cert.Gcn.zero_offsets]
  simp only [View.ld_unit_zero (S := S5000x128) Cert.Gcn.zero_offsets, View.ld_unit_zero (S := S128x64) Cert.Gcn.zero_offsets, View.ld_unit_zero (S := S1x64) Cert.Gcn.zero_offsets]
  rw [pay0]
  funext (j : S5000x64.Idx)
  obtain ⟨r, q, rfl⟩ : ∃ (r : Fin 5000) (q : Fin 64), j = ix2 r q := ⟨j 0, j 1, eq_ix2 j⟩
  show Cert.Gcn.kernEntry dot_S5000x128_S128x64_S5000x64_1_0_0_1_n_n shapeCasts_S1x64_S1x64 broadcasts_S1x64_S5000x64 (iblk0 V c 0 t) (iblk0 V c 1 t) (iblk0 V c 2 t) (ix2 r q)
    = Cert.Gcn.entry (V c main_arg0) (V c main_arg4) (V c main_v0)
        (((cfg0.win 3).blk t).view.emb (ix2 r q : S5000x64.Idx))
  rw [emb0_3 t r q]
  exact (Cert.Gcn.kernEntry_apply dot_S5000x128_S128x64_S5000x64_1_0_0_1_n_n rfl shapeCasts_S1x64_S1x64 broadcasts_S1x64_S5000x64 (iblk0 V c 0 t) (iblk0 V c 1 t) (iblk0 V c 2 t) r q).trans
    (Cert.Gcn.entry_rows (V c main_arg0) (iblk0 V c 0 t) (V c main_arg4) (iblk0 V c 1 t) (V c main_v0) (iblk0 V c 2 t)
      ⟨t.val * 5000 + r.val, row_lt0 t r⟩ r q
      (fun k => blk0_0 V c t r k) (fun k => blk0_1 V c t k q) (blk0_2 V c t q))

/-- Every index of the output array lies in the block of the point its row falls in. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  let t : Fin cfg0.N := ⟨(i 0).val / 5000, by show (i 0).val / 5000 < grid0.N; rw [hN]; omega⟩
  obtain ⟨-, -, -, -, -, -, e0, e1⟩ := idx0 t
  have ht : t.val = (i 0).val / 5000 := rfl
  refine ⟨t, flush0_3 t, ?_⟩
  show i ∈ ((View.whole main_v1).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The array region 0 leaves in its output: the stage of the arrays it finds. -/
theorem arr0 (c : Dev nD) :
    (dat0 V c).arrAt 3 cfg0.N = Cert.Gcn.entry (V c main_arg0) (V c main_arg4) (V c main_v0) :=
  (dat0 V c).arrAt_eq_of_cover 3 _ (fun t _ => flushed0 V c t) (cover0)

end Cert.KernelIdeal.Val

end
-- ==== Proof.Region1.lean ====
/-
  Layer 1 on the row-tiled grid.  Grid point `t` loads rows `5000·t … 5000·t + 4999` of the aggregated messages and
  of the first hidden state, and the whole `64 × 64` weight; it writes back one layer of those rows.  A layer's entry
  `(p, q)` depends on row `p` only, so what point `t` writes is block `t` of the layer of the whole arrays; the ten
  blocks tile the `50000` rows, so the array the region leaves is that layer.
-/
import proofs.«102039_j12893491822964_1_alg».proof.Proof.Gen.KernelIdeal.Frame
import proofs.«102039_j12893491822964_1_alg».proof.Proof.Layers

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored value is one layer of its loaded blocks, as vector operations. -/
theorem pay1 (v0 v4 : Vec Ideal S5000x64 .f32) (v9 : Vec Ideal S64x64 .f32) :
    k1_pay1 v0 v4 v9 = Cert.Gcn.kernLayer 0x3F666666#32 0x3DCCCCCD#32 0x3F183370#32 0x3ECF991F#32 dot_S5000x64_S64x64_S5000x64_1_0_0_1_n_n
      shapeCasts_S5000x64_S5000x64 shapeCasts_S64x64_S64x64 v0 v4 v9 := rfl

/-- The index maps over the grid: the row-indexed windows sit at block `(t, 0)`, the weight at `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem row_lt1 (t : Fin cfg1.N) (r : Fin 5000) : t.val * 5000 + r.val < 50000 := by
  have ht : t.val < grid1.N := t.isLt
  rw [N_1] at ht
  have := r.isLt
  omega

/-- Row `r` of point `t`'s block of the aggregated messages is row `5000·t + r` of the array. -/
theorem emb1_0 (t : Fin cfg1.N) (r : Fin 5000) (k : Fin 64) :
    ((cfg1.win 0).blk t).view.emb (ix2 r k : S5000x64.Idx)
      = (ix2 (⟨t.val * 5000 + r.val, row_lt1 t r⟩ : Fin 50000) k : S50000x64.Idx) := by
  obtain ⟨e0, e1, -⟩ := idx1 t
  funext a; apply Fin.ext
  match a with
  | ⟨0, _⟩ => show win1_0.index t (0 : Fin 2) * 5000 + 1 * r.val = t.val * 5000 + r.val; omega
  | ⟨1, _⟩ => show win1_0.index t (1 : Fin 2) * 64 + 1 * k.val = k.val; omega

theorem emb1_1 (t : Fin cfg1.N) (r : Fin 5000) (k : Fin 64) :
    ((cfg1.win 1).blk t).view.emb (ix2 r k : S5000x64.Idx)
      = (ix2 (⟨t.val * 5000 + r.val, row_lt1 t r⟩ : Fin 50000) k : S50000x64.Idx) := by
  obtain ⟨-, -, e0, e1, -⟩ := idx1 t
  funext a; apply Fin.ext
  match a with
  | ⟨0, _⟩ => show win1_1.index t (0 : Fin 2) * 5000 + 1 * r.val = t.val * 5000 + r.val; omega
  | ⟨1, _⟩ => show win1_1.index t (1 : Fin 2) * 64 + 1 * k.val = k.val; omega

theorem emb1_2 (t : Fin cfg1.N) (k q : Fin 64) :
    ((cfg1.win 2).blk t).view.emb (ix2 k q : S64x64.Idx) = (ix2 k q : S64x64.Idx) := by
  obtain ⟨-, -, -, -, e0, e1, -⟩ := idx1 t
  funext a; apply Fin.ext
  match a with
  | ⟨0, _⟩ => show win1_2.index t (0 : Fin 2) * 64 + 1 * k.val = k.val; omega
  | ⟨1, _⟩ => show win1_2.index t (1 : Fin 2) * 64 + 1 * q.val = q.val; omega

theorem emb1_3 (t : Fin cfg1.N) (r : Fin 5000) (q : Fin 64) :
    ((cfg1.win 3).blk t).view.emb (ix2 r q : S5000x64.Idx)
      = (ix2 (⟨t.val * 5000 + r.val, row_lt1 t r⟩ : Fin 50000) q : S50000x64.Idx) := by
  obtain ⟨-, -, -, -, -, -, e0, e1⟩ := idx1 t
  funext a; apply Fin.ext
  match a with
  | ⟨0, _⟩ => show win1_3.index t (0 : Fin 2) * 5000 + 1 * r.val = t.val * 5000 + r.val; omega
  | ⟨1, _⟩ => show win1_3.index t (1 : Fin 2) * 64 + 1 * q.val = q.val; omega

theorem blk1_0 (c : Dev nD) (t : Fin cfg1.N) (r : Fin 5000) (k : Fin 64) :
    iblk1 V c 0 t (ix2 r k : S5000x64.Idx)
      = V c main_v14 (ix2 (⟨t.val * 5000 + r.val, row_lt1 t r⟩ : Fin 50000) k : S50000x64.Idx) := by
  show V c main_v14 (((cfg1.win 0).blk t).view.emb (ix2 r k : S5000x64.Idx)) = _
  rw [emb1_0]

theorem blk1_1 (c : Dev nD) (t : Fin cfg1.N) (r : Fin 5000) (k : Fin 64) :
    iblk1 V c 1 t (ix2 r k : S5000x64.Idx)
      = V c main_v1 (ix2 (⟨t.val * 5000 + r.val, row_lt1 t r⟩ : Fin 50000) k : S50000x64.Idx) := by
  show V c main_v1 (((cfg1.win 1).blk t).view.emb (ix2 r k : S5000x64.Idx)) = _
  rw [emb1_1]

theorem blk1_2 (c : Dev nD) (t : Fin cfg1.N) (k q : Fin 64) :
    iblk1 V c 2 t (ix2 k q : S64x64.Idx) = V c main_v16 (ix2 k q : S64x64.Idx) := by
  show V c main_v16 (((cfg1.win 2).blk t).view.emb (ix2 k q : S64x64.Idx)) = _
  rw [emb1_2]

/-- What point `t` writes back is block `t` of the layer of the arrays the region finds. -/
theorem flushed1 (c : Dev nD) (t : Fin cfg1.N) :
    (dat1 V c).flushed 3 t = ((cfg1.win 3).blk t).view.read (Elt Ideal)
      (Cert.Gcn.layer 0x3F666666#32 0x3DCCCCCD#32 0x3F183370#32 0x3ECF991F#32 (V c main_v14) (V c main_v1) (V c main_v16)) := by
  show (cfg1.win 3).cut (grid1.coords t) ((dat1 V c).after 3 t) = _
  rw [after1_3]
  unfold out1_3
  rw [View.canon_unit_zero Cert.Gcn.zero_offsets]
  simp only [View.ld_unit_zero (S := S5000x64) Cert.Gcn.zero_offsets, View.ld_unit_zero (S := S64x64) Cert.Gcn.zero_offsets]
  rw [pay1]
  funext (j : S5000x64.Idx)
  obtain ⟨r, q, rfl⟩ : ∃ (r : Fin 5000) (q : Fin 64), j = ix2 r q := ⟨j 0, j 1, eq_ix2 j⟩
  show Cert.Gcn.kernLayer 0x3F666666#32 0x3DCCCCCD#32 0x3F183370#32 0x3ECF991F#32 dot_S5000x64_S64x64_S5000x64_1_0_0_1_n_n
      shapeCasts_S5000x64_S5000x64 shapeCasts_S64x64_S64x64 (iblk1 V c 0 t) (iblk1 V c 1 t) (iblk1 V c 2 t) (ix2 r q)
    = Cert.Gcn.layer 0x3F666666#32 0x3DCCCCCD#32 0x3F183370#32 0x3ECF991F#32 (V c main_v14) (V c main_v1) (V c main_v16)
        (((cfg1.win 3).blk t).view.emb (ix2 r q : S5000x64.Idx))
  rw [emb1_3 t r q]
  exact (Cert.Gcn.kernLayer_apply 0x3F666666#32 0x3DCCCCCD#32 0x3F183370#32 0x3ECF991F#32 dot_S5000x64_S64x64_S5000x64_1_0_0_1_n_n rfl
      shapeCasts_S5000x64_S5000x64 shapeCasts_S64x64_S64x64 (iblk1 V c 0 t) (iblk1 V c 1 t) (iblk1 V c 2 t) r q).trans
    (Cert.Gcn.layer_rows 0x3F666666#32 0x3DCCCCCD#32 0x3F183370#32 0x3ECF991F#32 (V c main_v14) (V c main_v1) (iblk1 V c 0 t) (iblk1 V c 1 t)
      (V c main_v16) (iblk1 V c 2 t) ⟨t.val * 5000 + r.val, row_lt1 t r⟩ r q
      (fun k => blk1_0 V c t r k) (fun k => blk1_1 V c t r k) (fun k => blk1_2 V c t k q))

/-- Every index of the output array lies in the block of the point its row falls in. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; rw [hN]; omega⟩
  obtain ⟨-, -, -, -, -, -, e0, e1⟩ := idx1 t
  have ht : t.val = (i 0).val / 5000 := rfl
  refine ⟨t, flush1_3 t, ?_⟩
  show i ∈ ((View.whole main_v17).slice (win1_3.rect t)).set
  rw [View.set_slice_whole, Rect.mem_set_unit]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The array region 1 leaves in its output: one layer of the arrays it finds. -/
theorem arr1 (c : Dev nD) :
    (dat1 V c).arrAt 3 cfg1.N
      = Cert.Gcn.layer 0x3F666666#32 0x3DCCCCCD#32 0x3F183370#32 0x3ECF991F#32 (V c main_v14) (V c main_v1) (V c main_v16) :=
  (dat1 V c).arrAt_eq_of_cover 3 _ (fun t _ => flushed1 V c t) (cover1)

end Cert.KernelIdeal.Val

end
-- ==== Proof.Region2.lean ====
/-
  Layer 2 on the row-tiled grid.  Grid point `t` loads rows `5000·t … 5000·t + 4999` of the aggregated messages and
  of the first hidden state, and the whole `64 × 64` weight; it writes back one layer of those rows.  A layer's entry
  `(p, q)` depends on row `p` only, so what point `t` writes is block `t` of the layer of the whole arrays; the ten
  blocks tile the `50000` rows, so the array the region leaves is that layer.
-/
import proofs.«102039_j12893491822964_1_alg».proof.Proof.Gen.KernelIdeal.Frame
import proofs.«102039_j12893491822964_1_alg».proof.Proof.Layers

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored value is one layer of its loaded blocks, as vector operations. -/
theorem pay2 (v0 v4 : Vec Ideal S5000x64 .f32) (v9 : Vec Ideal S64x64 .f32) :
    k2_pay1 v0 v4 v9 = Cert.Gcn.kernLayer 0x3F666666#32 0x3DCCCCCD#32 0x3F46E010#32 0x3E647FBE#32 dot_S5000x64_S64x64_S5000x64_1_0_0_1_n_n
      shapeCasts_S5000x64_S5000x64 shapeCasts_S64x64_S64x64 v0 v4 v9 := rfl

/-- The index maps over the grid: the row-indexed windows sit at block `(t, 0)`, the weight at `(0, 0)`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem row_lt2 (t : Fin cfg2.N) (r : Fin 5000) : t.val * 5000 + r.val < 50000 := by
  have ht : t.val < grid2.N := t.isLt
  rw [N_2] at ht
  have := r.isLt
  omega

/-- Row `r` of point `t`'s block of the aggregated messages is row `5000·t + r` of the array. -/
theorem emb2_0 (t : Fin cfg2.N) (r : Fin 5000) (k : Fin 64) :
    ((cfg2.win 0).blk t).view.emb (ix2 r k : S5000x64.Idx)
      = (ix2 (⟨t.val * 5000 + r.val, row_lt2 t r⟩ : Fin 50000) k : S50000x64.Idx) := by
  obtain ⟨e0, e1, -⟩ := idx2 t
  funext a; apply Fin.ext
  match a with
  | ⟨0, _⟩ => show win2_0.index t (0 : Fin 2) * 5000 + 1 * r.val = t.val * 5000 + r.val; omega
  | ⟨1, _⟩ => show win2_0.index t (1 : Fin 2) * 64 + 1 * k.val = k.val; omega

theorem emb2_1 (t : Fin cfg2.N) (r : Fin 5000) (k : Fin 64) :
    ((cfg2.win 1).blk t).view.emb (ix2 r k : S5000x64.Idx)
      = (ix2 (⟨t.val * 5000 + r.val, row_lt2 t r⟩ : Fin 50000) k : S50000x64.Idx) := by
  obtain ⟨-, -, e0, e1, -⟩ := idx2 t
  funext a; apply Fin.ext
  match a with
  | ⟨0, _⟩ => show win2_1.index t (0 : Fin 2) * 5000 + 1 * r.val = t.val * 5000 + r.val; omega
  | ⟨1, _⟩ => show win2_1.index t (1 : Fin 2) * 64 + 1 * k.val = k.val; omega

theorem emb2_2 (t : Fin cfg2.N) (k q : Fin 64) :
    ((cfg2.win 2).blk t).view.emb (ix2 k q : S64x64.Idx) = (ix2 k q : S64x64.Idx) := by
  obtain ⟨-, -, -, -, e0, e1, -⟩ := idx2 t
  funext a; apply Fin.ext
  match a with
  | ⟨0, _⟩ => show win2_2.index t (0 : Fin 2) * 64 + 1 * k.val = k.val; omega
  | ⟨1, _⟩ => show win2_2.index t (1 : Fin 2) * 64 + 1 * q.val = q.val; omega

theorem emb2_3 (t : Fin cfg2.N) (r : Fin 5000) (q : Fin 64) :
    ((cfg2.win 3).blk t).view.emb (ix2 r q : S5000x64.Idx)
      = (ix2 (⟨t.val * 5000 + r.val, row_lt2 t r⟩ : Fin 50000) q : S50000x64.Idx) := by
  obtain ⟨-, -, -, -, -, -, e0, e1⟩ := idx2 t
  funext a; apply Fin.ext
  match a with
  | ⟨0, _⟩ => show win2_3.index t (0 : Fin 2) * 5000 + 1 * r.val = t.val * 5000 + r.val; omega
  | ⟨1, _⟩ => show win2_3.index t (1 : Fin 2) * 64 + 1 * q.val = q.val; omega

theorem blk2_0 (c : Dev nD) (t : Fin cfg2.N) (r : Fin 5000) (k : Fin 64) :
    iblk2 V c 0 t (ix2 r k : S5000x64.Idx)
      = V c main_v30 (ix2 (⟨t.val * 5000 + r.val, row_lt2 t r⟩ : Fin 50000) k : S50000x64.Idx) := by
  show V c main_v30 (((cfg2.win 0).blk t).view.emb (ix2 r k : S5000x64.Idx)) = _
  rw [emb2_0]

theorem blk2_1 (c : Dev nD) (t : Fin cfg2.N) (r : Fin 5000) (k : Fin 64) :
    iblk2 V c 1 t (ix2 r k : S5000x64.Idx)
      = V c main_v1 (ix2 (⟨t.val * 5000 + r.val, row_lt2 t r⟩ : Fin 50000) k : S50000x64.Idx) := by
  show V c main_v1 (((cfg2.win 1).blk t).view.emb (ix2 r k : S5000x64.Idx)) = _
  rw [emb2_1]

theorem blk2_2 (c : Dev nD) (t : Fin cfg2.N) (k q : Fin 64) :
    iblk2 V c 2 t (ix2 k q : S64x64.Idx) = V c main_v32 (ix2 k q : S64x64.Idx) := by
  show V c main_v32 (((cfg2.win 2).blk t).view.emb (ix2 k q : S64x64.Idx)) = _
  rw [emb2_2]

/-- What point `t` writes back is block `t` of the layer of the arrays the region finds. -/
theorem flushed2 (c : Dev nD) (t : Fin cfg2.N) :
    (dat2 V c).flushed 3 t = ((cfg2.win 3).blk t).view.read (Elt Ideal)
      (Cert.Gcn.layer 0x3F666666#32 0x3DCCCCCD#32 0x3F46E010#32 0x3E647FBE#32 (V c main_v30) (V c main_v1) (V c main_v32)) := by
  show (cfg2.win 3).cut (grid2.coords t) ((dat2 V c).after 3 t) = _
  rw [after2_3]
  unfold out2_3
  rw [View.canon_unit_zero Cert.Gcn.zero_offsets]
  simp only [View.ld_unit_zero (S := S5000x64) Cert.Gcn.zero_offsets, View.ld_unit_zero (S := S64x64) Cert.Gcn.zero_offsets]
  rw [pay2]
  funext (j : S5000x64.Idx)
  obtain ⟨r, q, rfl⟩ : ∃ (r : Fin 5000) (q : Fin 64), j = ix2 r q := ⟨j 0, j 1, eq_ix2 j⟩
  show Cert.Gcn.kernLayer 0x3F666666#32 0x3DCCCCCD#32 0x3F46E010#32 0x3E647FBE#32 dot_S5000x64_S64x64_S5000x64_1_0_0_1_n_n
      shapeCasts_S5000x64_S5000x64 shapeCasts_S64x64_S64x64 (iblk2 V c 0 t) (iblk2 V c 1 t) (iblk2 V c 2 t) (ix2 r q)
    = Cert.Gcn.layer 0x3F666666#32 0x3DCCCCCD#32 0x3F46E010#32 0x3E647FBE#32 (V c main_v30) (V c main_v1) (V c main_v32)
        (((cfg2.win 3).blk t).view.emb (ix2 r q : S5000x64.Idx))
  rw [emb2_3 t r q]
  exact (Cert.Gcn.kernLayer_apply 0x3F666666#32 0x3DCCCCCD#32 0x3F46E010#32 0x3E647FBE#32 dot_S5000x64_S64x64_S5000x64_1_0_0_1_n_n rfl
      shapeCasts_S5000x64_S5000x64 shapeCasts_S64x64_S64x64 (iblk2 V c 0 t) (iblk2 V c 1 t) (iblk2 V c 2 t) r q).trans
    (Cert.Gcn.layer_rows 0x3F666666#32 0x3DCCCCCD#32 0x3F46E010#32 0x3E647FBE#32 (V c main_v30) (V c main_v1) (iblk2 V c 0 t) (iblk2 V c 1 t)
      (V c main_v32) (iblk2 V c 2 t) ⟨t.val * 5000 + r.val, row_lt2 t r⟩ r q
      (fun k => blk2_0 V c t r k) (fun k => blk2_1 V c t r k) (fun k => blk2_2 V c t k q))

/-- Every index of the output array lies in the block of the point its row falls in. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : grid2.N = 10 := N_2
  let t : Fin cfg2.N := ⟨(i 0).val / 5000, by show (i 0).val / 5000 < grid2.N; rw [hN]; omega⟩
  obtain ⟨-, -, -, -, -, -, e0, e1⟩ := idx2 t
  have ht : t.val = (i 0).val / 5000 := rfl
  refine ⟨t, flush2_3 t, ?_⟩
  show i ∈ ((View.whole main_v33).slice (win2_3.rect t)).set
  rw [View.set_slice_whole, Rect.mem_set_unit]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The array region 2 leaves in its output: one layer of the arrays it finds. -/
theorem arr2 (c : Dev nD) :
    (dat2 V c).arrAt 3 cfg2.N
      = Cert.Gcn.layer 0x3F666666#32 0x3DCCCCCD#32 0x3F46E010#32 0x3E647FBE#32 (V c main_v30) (V c main_v1) (V c main_v32) :=
  (dat2 V c).arrAt_eq_of_cover 3 _ (fun t _ => flushed2 V c t) (cover2)

end Cert.KernelIdeal.Val

end
-- ==== Proof.Region3.lean ====
/-
  Layer 3 on the row-tiled grid.  Grid point `t` loads rows `5000·t … 5000·t + 4999` of the aggregated messages and
  of the first hidden state, and the whole `64 × 64` weight; it writes back one layer of those rows.  A layer's entry
  `(p, q)` depends on row `p` only, so what point `t` writes is block `t` of the layer of the whole arrays; the ten
  blocks tile the `50000` rows, so the array the region leaves is that layer.
-/
import proofs.«102039_j12893491822964_1_alg».proof.Proof.Gen.KernelIdeal.Frame
import proofs.«102039_j12893491822964_1_alg».proof.Proof.Layers

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored value is one layer of its loaded blocks, as vector operations. -/
theorem pay3 (v0 v4 : Vec Ideal S5000x64 .f32) (v9 : Vec Ideal S64x64 .f32) :
    k3_pay1 v0 v4 v9 = Cert.Gcn.kernLayer 0x3F666666#32 0x3DCCCCCD#32 0x3F588995#32 0x3E1DD9AD#32 dot_S5000x64_S64x64_S5000x64_1_0_0_1_n_n
      shapeCasts_S5000x64_S5000x64 shapeCasts_S64x64_S64x64 v0 v4 v9 := rfl

/-- The index maps over the grid: the row-indexed windows sit at block `(t, 0)`, the weight at `(0, 0)`. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem row_lt3 (t : Fin cfg3.N) (r : Fin 5000) : t.val * 5000 + r.val < 50000 := by
  have ht : t.val < grid3.N := t.isLt
  rw [N_3] at ht
  have := r.isLt
  omega

/-- Row `r` of point `t`'s block of the aggregated messages is row `5000·t + r` of the array. -/
theorem emb3_0 (t : Fin cfg3.N) (r : Fin 5000) (k : Fin 64) :
    ((cfg3.win 0).blk t).view.emb (ix2 r k : S5000x64.Idx)
      = (ix2 (⟨t.val * 5000 + r.val, row_lt3 t r⟩ : Fin 50000) k : S50000x64.Idx) := by
  obtain ⟨e0, e1, -⟩ := idx3 t
  funext a; apply Fin.ext
  match a with
  | ⟨0, _⟩ => show win3_0.index t (0 : Fin 2) * 5000 + 1 * r.val = t.val * 5000 + r.val; omega
  | ⟨1, _⟩ => show win3_0.index t (1 : Fin 2) * 64 + 1 * k.val = k.val; omega

theorem emb3_1 (t : Fin cfg3.N) (r : Fin 5000) (k : Fin 64) :
    ((cfg3.win 1).blk t).view.emb (ix2 r k : S5000x64.Idx)
      = (ix2 (⟨t.val * 5000 + r.val, row_lt3 t r⟩ : Fin 50000) k : S50000x64.Idx) := by
  obtain ⟨-, -, e0, e1, -⟩ := idx3 t
  funext a; apply Fin.ext
  match a with
  | ⟨0, _⟩ => show win3_1.index t (0 : Fin 2) * 5000 + 1 * r.val = t.val * 5000 + r.val; omega
  | ⟨1, _⟩ => show win3_1.index t (1 : Fin 2) * 64 + 1 * k.val = k.val; omega

theorem emb3_2 (t : Fin cfg3.N) (k q : Fin 64) :
    ((cfg3.win 2).blk t).view.emb (ix2 k q : S64x64.Idx) = (ix2 k q : S64x64.Idx) := by
  obtain ⟨-, -, -, -, e0, e1, -⟩ := idx3 t
  funext a; apply Fin.ext
  match a with
  | ⟨0, _⟩ => show win3_2.index t (0 : Fin 2) * 64 + 1 * k.val = k.val; omega
  | ⟨1, _⟩ => show win3_2.index t (1 : Fin 2) * 64 + 1 * q.val = q.val; omega

theorem emb3_3 (t : Fin cfg3.N) (r : Fin 5000) (q : Fin 64) :
    ((cfg3.win 3).blk t).view.emb (ix2 r q : S5000x64.Idx)
      = (ix2 (⟨t.val * 5000 + r.val, row_lt3 t r⟩ : Fin 50000) q : S50000x64.Idx) := by
  obtain ⟨-, -, -, -, -, -, e0, e1⟩ := idx3 t
  funext a; apply Fin.ext
  match a with
  | ⟨0, _⟩ => show win3_3.index t (0 : Fin 2) * 5000 + 1 * r.val = t.val * 5000 + r.val; omega
  | ⟨1, _⟩ => show win3_3.index t (1 : Fin 2) * 64 + 1 * q.val = q.val; omega

theorem blk3_0 (c : Dev nD) (t : Fin cfg3.N) (r : Fin 5000) (k : Fin 64) :
    iblk3 V c 0 t (ix2 r k : S5000x64.Idx)
      = V c main_v46 (ix2 (⟨t.val * 5000 + r.val, row_lt3 t r⟩ : Fin 50000) k : S50000x64.Idx) := by
  show V c main_v46 (((cfg3.win 0).blk t).view.emb (ix2 r k : S5000x64.Idx)) = _
  rw [emb3_0]

theorem blk3_1 (c : Dev nD) (t : Fin cfg3.N) (r : Fin 5000) (k : Fin 64) :
    iblk3 V c 1 t (ix2 r k : S5000x64.Idx)
      = V c main_v1 (ix2 (⟨t.val * 5000 + r.val, row_lt3 t r⟩ : Fin 50000) k : S50000x64.Idx) := by
  show V c main_v1 (((cfg3.win 1).blk t).view.emb (ix2 r k : S5000x64.Idx)) = _
  rw [emb3_1]

theorem blk3_2 (c : Dev nD) (t : Fin cfg3.N) (k q : Fin 64) :
    iblk3 V c 2 t (ix2 k q : S64x64.Idx) = V c main_v48 (ix2 k q : S64x64.Idx) := by
  show V c main_v48 (((cfg3.win 2).blk t).view.emb (ix2 k q : S64x64.Idx)) = _
  rw [emb3_2]

/-- What point `t` writes back is block `t` of the layer of the arrays the region finds. -/
theorem flushed3 (c : Dev nD) (t : Fin cfg3.N) :
    (dat3 V c).flushed 3 t = ((cfg3.win 3).blk t).view.read (Elt Ideal)
      (Cert.Gcn.layer 0x3F666666#32 0x3DCCCCCD#32 0x3F588995#32 0x3E1DD9AD#32 (V c main_v46) (V c main_v1) (V c main_v48)) := by
  show (cfg3.win 3).cut (grid3.coords t) ((dat3 V c).after 3 t) = _
  rw [after3_3]
  unfold out3_3
  rw [View.canon_unit_zero Cert.Gcn.zero_offsets]
  simp only [View.ld_unit_zero (S := S5000x64) Cert.Gcn.zero_offsets, View.ld_unit_zero (S := S64x64) Cert.Gcn.zero_offsets]
  rw [pay3]
  funext (j : S5000x64.Idx)
  obtain ⟨r, q, rfl⟩ : ∃ (r : Fin 5000) (q : Fin 64), j = ix2 r q := ⟨j 0, j 1, eq_ix2 j⟩
  show Cert.Gcn.kernLayer 0x3F666666#32 0x3DCCCCCD#32 0x3F588995#32 0x3E1DD9AD#32 dot_S5000x64_S64x64_S5000x64_1_0_0_1_n_n
      shapeCasts_S5000x64_S5000x64 shapeCasts_S64x64_S64x64 (iblk3 V c 0 t) (iblk3 V c 1 t) (iblk3 V c 2 t) (ix2 r q)
    = Cert.Gcn.layer 0x3F666666#32 0x3DCCCCCD#32 0x3F588995#32 0x3E1DD9AD#32 (V c main_v46) (V c main_v1) (V c main_v48)
        (((cfg3.win 3).blk t).view.emb (ix2 r q : S5000x64.Idx))
  rw [emb3_3 t r q]
  exact (Cert.Gcn.kernLayer_apply 0x3F666666#32 0x3DCCCCCD#32 0x3F588995#32 0x3E1DD9AD#32 dot_S5000x64_S64x64_S5000x64_1_0_0_1_n_n rfl
      shapeCasts_S5000x64_S5000x64 shapeCasts_S64x64_S64x64 (iblk3 V c 0 t) (iblk3 V c 1 t) (iblk3 V c 2 t) r q).trans
    (Cert.Gcn.layer_rows 0x3F666666#32 0x3DCCCCCD#32 0x3F588995#32 0x3E1DD9AD#32 (V c main_v46) (V c main_v1) (iblk3 V c 0 t) (iblk3 V c 1 t)
      (V c main_v48) (iblk3 V c 2 t) ⟨t.val * 5000 + r.val, row_lt3 t r⟩ r q
      (fun k => blk3_0 V c t r k) (fun k => blk3_1 V c t r k) (fun k => blk3_2 V c t k q))

/-- Every index of the output array lies in the block of the point its row falls in. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : grid3.N = 10 := N_3
  let t : Fin cfg3.N := ⟨(i 0).val / 5000, by show (i 0).val / 5000 < grid3.N; rw [hN]; omega⟩
  obtain ⟨-, -, -, -, -, -, e0, e1⟩ := idx3 t
  have ht : t.val = (i 0).val / 5000 := rfl
  refine ⟨t, flush3_3 t, ?_⟩
  show i ∈ ((View.whole main_v49).slice (win3_3.rect t)).set
  rw [View.set_slice_whole, Rect.mem_set_unit]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The array region 3 leaves in its output: one layer of the arrays it finds. -/
theorem arr3 (c : Dev nD) :
    (dat3 V c).arrAt 3 cfg3.N
      = Cert.Gcn.layer 0x3F666666#32 0x3DCCCCCD#32 0x3F588995#32 0x3E1DD9AD#32 (V c main_v46) (V c main_v1) (V c main_v48) :=
  (dat3 V c).arrAt_eq_of_cover 3 _ (fun t _ => flushed3 V c t) (cover3)

end Cert.KernelIdeal.Val

end
-- ==== Proof.Region4.lean ====
/-
  Layer 4 on the row-tiled grid.  Grid point `t` loads rows `5000·t … 5000·t + 4999` of the aggregated messages and
  of the first hidden state, and the whole `64 × 64` weight; it writes back one layer of those rows.  A layer's entry
  `(p, q)` depends on row `p` only, so what point `t` writes is block `t` of the layer of the whole arrays; the ten
  blocks tile the `50000` rows, so the array the region leaves is that layer.
-/
import proofs.«102039_j12893491822964_1_alg».proof.Proof.Gen.KernelIdeal.Frame
import proofs.«102039_j12893491822964_1_alg».proof.Proof.Layers

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored value is one layer of its loaded blocks, as vector operations. -/
theorem pay4 (v0 v4 : Vec Ideal S5000x64 .f32) (v9 : Vec Ideal S64x64 .f32) :
    k4_pay1 v0 v4 v9 = Cert.Gcn.kernLayer 0x3F666666#32 0x3DCCCCCD#32 0x3F61D8F9#32 0x3DF1383B#32 dot_S5000x64_S64x64_S5000x64_1_0_0_1_n_n
      shapeCasts_S5000x64_S5000x64 shapeCasts_S64x64_S64x64 v0 v4 v9 := rfl

/-- The index maps over the grid: the row-indexed windows sit at block `(t, 0)`, the weight at `(0, 0)`. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem row_lt4 (t : Fin cfg4.N) (r : Fin 5000) : t.val * 5000 + r.val < 50000 := by
  have ht : t.val < grid4.N := t.isLt
  rw [N_4] at ht
  have := r.isLt
  omega

/-- Row `r` of point `t`'s block of the aggregated messages is row `5000·t + r` of the array. -/
theorem emb4_0 (t : Fin cfg4.N) (r : Fin 5000) (k : Fin 64) :
    ((cfg4.win 0).blk t).view.emb (ix2 r k : S5000x64.Idx)
      = (ix2 (⟨t.val * 5000 + r.val, row_lt4 t r⟩ : Fin 50000) k : S50000x64.Idx) := by
  obtain ⟨e0, e1, -⟩ := idx4 t
  funext a; apply Fin.ext
  match a with
  | ⟨0, _⟩ => show win4_0.index t (0 : Fin 2) * 5000 + 1 * r.val = t.val * 5000 + r.val; omega
  | ⟨1, _⟩ => show win4_0.index t (1 : Fin 2) * 64 + 1 * k.val = k.val; omega

theorem emb4_1 (t : Fin cfg4.N) (r : Fin 5000) (k : Fin 64) :
    ((cfg4.win 1).blk t).view.emb (ix2 r k : S5000x64.Idx)
      = (ix2 (⟨t.val * 5000 + r.val, row_lt4 t r⟩ : Fin 50000) k : S50000x64.Idx) := by
  obtain ⟨-, -, e0, e1, -⟩ := idx4 t
  funext a; apply Fin.ext
  match a with
  | ⟨0, _⟩ => show win4_1.index t (0 : Fin 2) * 5000 + 1 * r.val = t.val * 5000 + r.val; omega
  | ⟨1, _⟩ => show win4_1.index t (1 : Fin 2) * 64 + 1 * k.val = k.val; omega

theorem emb4_2 (t : Fin cfg4.N) (k q : Fin 64) :
    ((cfg4.win 2).blk t).view.emb (ix2 k q : S64x64.Idx) = (ix2 k q : S64x64.Idx) := by
  obtain ⟨-, -, -, -, e0, e1, -⟩ := idx4 t
  funext a; apply Fin.ext
  match a with
  | ⟨0, _⟩ => show win4_2.index t (0 : Fin 2) * 64 + 1 * k.val = k.val; omega
  | ⟨1, _⟩ => show win4_2.index t (1 : Fin 2) * 64 + 1 * q.val = q.val; omega

theorem emb4_3 (t : Fin cfg4.N) (r : Fin 5000) (q : Fin 64) :
    ((cfg4.win 3).blk t).view.emb (ix2 r q : S5000x64.Idx)
      = (ix2 (⟨t.val * 5000 + r.val, row_lt4 t r⟩ : Fin 50000) q : S50000x64.Idx) := by
  obtain ⟨-, -, -, -, -, -, e0, e1⟩ := idx4 t
  funext a; apply Fin.ext
  match a with
  | ⟨0, _⟩ => show win4_3.index t (0 : Fin 2) * 5000 + 1 * r.val = t.val * 5000 + r.val; omega
  | ⟨1, _⟩ => show win4_3.index t (1 : Fin 2) * 64 + 1 * q.val = q.val; omega

theorem blk4_0 (c : Dev nD) (t : Fin cfg4.N) (r : Fin 5000) (k : Fin 64) :
    iblk4 V c 0 t (ix2 r k : S5000x64.Idx)
      = V c main_v62 (ix2 (⟨t.val * 5000 + r.val, row_lt4 t r⟩ : Fin 50000) k : S50000x64.Idx) := by
  show V c main_v62 (((cfg4.win 0).blk t).view.emb (ix2 r k : S5000x64.Idx)) = _
  rw [emb4_0]

theorem blk4_1 (c : Dev nD) (t : Fin cfg4.N) (r : Fin 5000) (k : Fin 64) :
    iblk4 V c 1 t (ix2 r k : S5000x64.Idx)
      = V c main_v1 (ix2 (⟨t.val * 5000 + r.val, row_lt4 t r⟩ : Fin 50000) k : S50000x64.Idx) := by
  show V c main_v1 (((cfg4.win 1).blk t).view.emb (ix2 r k : S5000x64.Idx)) = _
  rw [emb4_1]

theorem blk4_2 (c : Dev nD) (t : Fin cfg4.N) (k q : Fin 64) :
    iblk4 V c 2 t (ix2 k q : S64x64.Idx) = V c main_v64 (ix2 k q : S64x64.Idx) := by
  show V c main_v64 (((cfg4.win 2).blk t).view.emb (ix2 k q : S64x64.Idx)) = _
  rw [emb4_2]

/-- What point `t` writes back is block `t` of the layer of the arrays the region finds. -/
theorem flushed4 (c : Dev nD) (t : Fin cfg4.N) :
    (dat4 V c).flushed 3 t = ((cfg4.win 3).blk t).view.read (Elt Ideal)
      (Cert.Gcn.layer 0x3F666666#32 0x3DCCCCCD#32 0x3F61D8F9#32 0x3DF1383B#32 (V c main_v62) (V c main_v1) (V c main_v64)) := by
  show (cfg4.win 3).cut (grid4.coords t) ((dat4 V c).after 3 t) = _
  rw [after4_3]
  unfold out4_3
  rw [View.canon_unit_zero Cert.Gcn.zero_offsets]
  simp only [View.ld_unit_zero (S := S5000x64) Cert.Gcn.zero_offsets, View.ld_unit_zero (S := S64x64) Cert.Gcn.zero_offsets]
  rw [pay4]
  funext (j : S5000x64.Idx)
  obtain ⟨r, q, rfl⟩ : ∃ (r : Fin 5000) (q : Fin 64), j = ix2 r q := ⟨j 0, j 1, eq_ix2 j⟩
  show Cert.Gcn.kernLayer 0x3F666666#32 0x3DCCCCCD#32 0x3F61D8F9#32 0x3DF1383B#32 dot_S5000x64_S64x64_S5000x64_1_0_0_1_n_n
      shapeCasts_S5000x64_S5000x64 shapeCasts_S64x64_S64x64 (iblk4 V c 0 t) (iblk4 V c 1 t) (iblk4 V c 2 t) (ix2 r q)
    = Cert.Gcn.layer 0x3F666666#32 0x3DCCCCCD#32 0x3F61D8F9#32 0x3DF1383B#32 (V c main_v62) (V c main_v1) (V c main_v64)
        (((cfg4.win 3).blk t).view.emb (ix2 r q : S5000x64.Idx))
  rw [emb4_3 t r q]
  exact (Cert.Gcn.kernLayer_apply 0x3F666666#32 0x3DCCCCCD#32 0x3F61D8F9#32 0x3DF1383B#32 dot_S5000x64_S64x64_S5000x64_1_0_0_1_n_n rfl
      shapeCasts_S5000x64_S5000x64 shapeCasts_S64x64_S64x64 (iblk4 V c 0 t) (iblk4 V c 1 t) (iblk4 V c 2 t) r q).trans
    (Cert.Gcn.layer_rows 0x3F666666#32 0x3DCCCCCD#32 0x3F61D8F9#32 0x3DF1383B#32 (V c main_v62) (V c main_v1) (iblk4 V c 0 t) (iblk4 V c 1 t)
      (V c main_v64) (iblk4 V c 2 t) ⟨t.val * 5000 + r.val, row_lt4 t r⟩ r q
      (fun k => blk4_0 V c t r k) (fun k => blk4_1 V c t r k) (fun k => blk4_2 V c t k q))

/-- Every index of the output array lies in the block of the point its row falls in. -/
theorem cover4 (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : grid4.N = 10 := N_4
  let t : Fin cfg4.N := ⟨(i 0).val / 5000, by show (i 0).val / 5000 < grid4.N; rw [hN]; omega⟩
  obtain ⟨-, -, -, -, -, -, e0, e1⟩ := idx4 t
  have ht : t.val = (i 0).val / 5000 := rfl
  refine ⟨t, flush4_3 t, ?_⟩
  show i ∈ ((View.whole main_v65).slice (win4_3.rect t)).set
  rw [View.set_slice_whole, Rect.mem_set_unit]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- The array region 4 leaves in its output: one layer of the arrays it finds. -/
theorem arr4 (c : Dev nD) :
    (dat4 V c).arrAt 3 cfg4.N
      = Cert.Gcn.layer 0x3F666666#32 0x3DCCCCCD#32 0x3F61D8F9#32 0x3DF1383B#32 (V c main_v62) (V c main_v1) (V c main_v64) :=
  (dat4 V c).arrAt_eq_of_cover 3 _ (fun t _ => flushed4 V c t) (cover4)

end Cert.KernelIdeal.Val

end
-- ==== Proof.Region5.lean ====
/-
  Layer 5 on the row-tiled grid.  Grid point `t` loads rows `5000·t … 5000·t + 4999` of the aggregated messages and
  of the first hidden state, and the whole `64 × 64` weight; it writes back one layer of those rows.  A layer's entry
  `(p, q)` depends on row `p` only, so what point `t` writes is block `t` of the layer of the whole arrays; the ten
  blocks tile the `50000` rows, so the array the region leaves is that layer.
-/
import proofs.«102039_j12893491822964_1_alg».proof.Proof.Gen.KernelIdeal.Frame
import proofs.«102039_j12893491822964_1_alg».proof.Proof.Layers

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored value is one layer of its loaded blocks, as vector operations. -/
theorem pay5 (v0 v4 : Vec Ideal S5000x64 .f32) (v9 : Vec Ideal S64x64 .f32) :
    k5_pay1 v0 v4 v9 = Cert.Gcn.kernLayer 0x3F666666#32 0x3DCCCCCD#32 0x3F6799C1#32 0x3DC331FC#32 dot_S5000x64_S64x64_S5000x64_1_0_0_1_n_n
      shapeCasts_S5000x64_S5000x64 shapeCasts_S64x64_S64x64 v0 v4 v9 := rfl

/-- The index maps over the grid: the row-indexed windows sit at block `(t, 0)`, the weight at `(0, 0)`. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem row_lt5 (t : Fin cfg5.N) (r : Fin 5000) : t.val * 5000 + r.val < 50000 := by
  have ht : t.val < grid5.N := t.isLt
  rw [N_5] at ht
  have := r.isLt
  omega

/-- Row `r` of point `t`'s block of the aggregated messages is row `5000·t + r` of the array. -/
theorem emb5_0 (t : Fin cfg5.N) (r : Fin 5000) (k : Fin 64) :
    ((cfg5.win 0).blk t).view.emb (ix2 r k : S5000x64.Idx)
      = (ix2 (⟨t.val * 5000 + r.val, row_lt5 t r⟩ : Fin 50000) k : S50000x64.Idx) := by
  obtain ⟨e0, e1, -⟩ := idx5 t
  funext a; apply Fin.ext
  match a with
  | ⟨0, _⟩ => show win5_0.index t (0 : Fin 2) * 5000 + 1 * r.val = t.val * 5000 + r.val; omega
  | ⟨1, _⟩ => show win5_0.index t (1 : Fin 2) * 64 + 1 * k.val = k.val; omega

theorem emb5_1 (t : Fin cfg5.N) (r : Fin 5000) (k : Fin 64) :
    ((cfg5.win 1).blk t).view.emb (ix2 r k : S5000x64.Idx)
      = (ix2 (⟨t.val * 5000 + r.val, row_lt5 t r⟩ : Fin 50000) k : S50000x64.Idx) := by
  obtain ⟨-, -, e0, e1, -⟩ := idx5 t
  funext a; apply Fin.ext
  match a with
  | ⟨0, _⟩ => show win5_1.index t (0 : Fin 2) * 5000 + 1 * r.val = t.val * 5000 + r.val; omega
  | ⟨1, _⟩ => show win5_1.index t (1 : Fin 2) * 64 + 1 * k.val = k.val; omega

theorem emb5_2 (t : Fin cfg5.N) (k q : Fin 64) :
    ((cfg5.win 2).blk t).view.emb (ix2 k q : S64x64.Idx) = (ix2 k q : S64x64.Idx) := by
  obtain ⟨-, -, -, -, e0, e1, -⟩ := idx5 t
  funext a; apply Fin.ext
  match a with
  | ⟨0, _⟩ => show win5_2.index t (0 : Fin 2) * 64 + 1 * k.val = k.val; omega
  | ⟨1, _⟩ => show win5_2.index t (1 : Fin 2) * 64 + 1 * q.val = q.val; omega

theorem emb5_3 (t : Fin cfg5.N) (r : Fin 5000) (q : Fin 64) :
    ((cfg5.win 3).blk t).view.emb (ix2 r q : S5000x64.Idx)
      = (ix2 (⟨t.val * 5000 + r.val, row_lt5 t r⟩ : Fin 50000) q : S50000x64.Idx) := by
  obtain ⟨-, -, -, -, -, -, e0, e1⟩ := idx5 t
  funext a; apply Fin.ext
  match a with
  | ⟨0, _⟩ => show win5_3.index t (0 : Fin 2) * 5000 + 1 * r.val = t.val * 5000 + r.val; omega
  | ⟨1, _⟩ => show win5_3.index t (1 : Fin 2) * 64 + 1 * q.val = q.val; omega

theorem blk5_0 (c : Dev nD) (t : Fin cfg5.N) (r : Fin 5000) (k : Fin 64) :
    iblk5 V c 0 t (ix2 r k : S5000x64.Idx)
      = V c main_v78 (ix2 (⟨t.val * 5000 + r.val, row_lt5 t r⟩ : Fin 50000) k : S50000x64.Idx) := by
  show V c main_v78 (((cfg5.win 0).blk t).view.emb (ix2 r k : S5000x64.Idx)) = _
  rw [emb5_0]

theorem blk5_1 (c : Dev nD) (t : Fin cfg5.N) (r : Fin 5000) (k : Fin 64) :
    iblk5 V c 1 t (ix2 r k : S5000x64.Idx)
      = V c main_v1 (ix2 (⟨t.val * 5000 + r.val, row_lt5 t r⟩ : Fin 50000) k : S50000x64.Idx) := by
  show V c main_v1 (((cfg5.win 1).blk t).view.emb (ix2 r k : S5000x64.Idx)) = _
  rw [emb5_1]

theorem blk5_2 (c : Dev nD) (t : Fin cfg5.N) (k q : Fin 64) :
    iblk5 V c 2 t (ix2 k q : S64x64.Idx) = V c main_v80 (ix2 k q : S64x64.Idx) := by
  show V c main_v80 (((cfg5.win 2).blk t).view.emb (ix2 k q : S64x64.Idx)) = _
  rw [emb5_2]

/-- What point `t` writes back is block `t` of the layer of the arrays the region finds. -/
theorem flushed5 (c : Dev nD) (t : Fin cfg5.N) :
    (dat5 V c).flushed 3 t = ((cfg5.win 3).blk t).view.read (Elt Ideal)
      (Cert.Gcn.layer 0x3F666666#32 0x3DCCCCCD#32 0x3F6799C1#32 0x3DC331FC#32 (V c main_v78) (V c main_v1) (V c main_v80)) := by
  show (cfg5.win 3).cut (grid5.coords t) ((dat5 V c).after 3 t) = _
  rw [after5_3]
  unfold out5_3
  rw [View.canon_unit_zero Cert.Gcn.zero_offsets]
  simp only [View.ld_unit_zero (S := S5000x64) Cert.Gcn.zero_offsets, View.ld_unit_zero (S := S64x64) Cert.Gcn.zero_offsets]
  rw [pay5]
  funext (j : S5000x64.Idx)
  obtain ⟨r, q, rfl⟩ : ∃ (r : Fin 5000) (q : Fin 64), j = ix2 r q := ⟨j 0, j 1, eq_ix2 j⟩
  show Cert.Gcn.kernLayer 0x3F666666#32 0x3DCCCCCD#32 0x3F6799C1#32 0x3DC331FC#32 dot_S5000x64_S64x64_S5000x64_1_0_0_1_n_n
      shapeCasts_S5000x64_S5000x64 shapeCasts_S64x64_S64x64 (iblk5 V c 0 t) (iblk5 V c 1 t) (iblk5 V c 2 t) (ix2 r q)
    = Cert.Gcn.layer 0x3F666666#32 0x3DCCCCCD#32 0x3F6799C1#32 0x3DC331FC#32 (V c main_v78) (V c main_v1) (V c main_v80)
        (((cfg5.win 3).blk t).view.emb (ix2 r q : S5000x64.Idx))
  rw [emb5_3 t r q]
  exact (Cert.Gcn.kernLayer_apply 0x3F666666#32 0x3DCCCCCD#32 0x3F6799C1#32 0x3DC331FC#32 dot_S5000x64_S64x64_S5000x64_1_0_0_1_n_n rfl
      shapeCasts_S5000x64_S5000x64 shapeCasts_S64x64_S64x64 (iblk5 V c 0 t) (iblk5 V c 1 t) (iblk5 V c 2 t) r q).trans
    (Cert.Gcn.layer_rows 0x3F666666#32 0x3DCCCCCD#32 0x3F6799C1#32 0x3DC331FC#32 (V c main_v78) (V c main_v1) (iblk5 V c 0 t) (iblk5 V c 1 t)
      (V c main_v80) (iblk5 V c 2 t) ⟨t.val * 5000 + r.val, row_lt5 t r⟩ r q
      (fun k => blk5_0 V c t r k) (fun k => blk5_1 V c t r k) (fun k => blk5_2 V c t k q))

/-- Every index of the output array lies in the block of the point its row falls in. -/
theorem cover5 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : grid5.N = 10 := N_5
  let t : Fin cfg5.N := ⟨(i 0).val / 5000, by show (i 0).val / 5000 < grid5.N; rw [hN]; omega⟩
  obtain ⟨-, -, -, -, -, -, e0, e1⟩ := idx5 t
  have ht : t.val = (i 0).val / 5000 := rfl
  refine ⟨t, flush5_3 t, ?_⟩
  show i ∈ ((View.whole main_v81).slice (win5_3.rect t)).set
  rw [View.set_slice_whole, Rect.mem_set_unit]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- The array region 5 leaves in its output: one layer of the arrays it finds. -/
theorem arr5 (c : Dev nD) :
    (dat5 V c).arrAt 3 cfg5.N
      = Cert.Gcn.layer 0x3F666666#32 0x3DCCCCCD#32 0x3F6799C1#32 0x3DC331FC#32 (V c main_v78) (V c main_v1) (V c main_v80) :=
  (dat5 V c).arrAt_eq_of_cover 3 _ (fun t _ => flushed5 V c t) (cover5)

end Cert.KernelIdeal.Val

end
-- ==== Proof.Region6.lean ====
/-
  Layer 6 on the row-tiled grid.  Grid point `t` loads rows `5000·t … 5000·t + 4999` of the aggregated messages and
  of the first hidden state, and the whole `64 × 64` weight; it writes back one layer of those rows.  A layer's entry
  `(p, q)` depends on row `p` only, so what point `t` writes is block `t` of the layer of the whole arrays; the ten
  blocks tile the `50000` rows, so the array the region leaves is that layer.
-/
import proofs.«102039_j12893491822964_1_alg».proof.Proof.Gen.KernelIdeal.Frame
import proofs.«102039_j12893491822964_1_alg».proof.Proof.Layers

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored value is one layer of its loaded blocks, as vector operations. -/
theorem pay6 (v0 v4 : Vec Ideal S5000x64 .f32) (v9 : Vec Ideal S64x64 .f32) :
    k6_pay1 v0 v4 v9 = Cert.Gcn.kernLayer 0x3F666666#32 0x3DCCCCCD#32 0x3F6B8252#32 0x3DA3ED6E#32 dot_S5000x64_S64x64_S5000x64_1_0_0_1_n_n
      shapeCasts_S5000x64_S5000x64 shapeCasts_S64x64_S64x64 v0 v4 v9 := rfl

/-- The index maps over the grid: the row-indexed windows sit at block `(t, 0)`, the weight at `(0, 0)`. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem row_lt6 (t : Fin cfg6.N) (r : Fin 5000) : t.val * 5000 + r.val < 50000 := by
  have ht : t.val < grid6.N := t.isLt
  rw [N_6] at ht
  have := r.isLt
  omega

/-- Row `r` of point `t`'s block of the aggregated messages is row `5000·t + r` of the array. -/
theorem emb6_0 (t : Fin cfg6.N) (r : Fin 5000) (k : Fin 64) :
    ((cfg6.win 0).blk t).view.emb (ix2 r k : S5000x64.Idx)
      = (ix2 (⟨t.val * 5000 + r.val, row_lt6 t r⟩ : Fin 50000) k : S50000x64.Idx) := by
  obtain ⟨e0, e1, -⟩ := idx6 t
  funext a; apply Fin.ext
  match a with
  | ⟨0, _⟩ => show win6_0.index t (0 : Fin 2) * 5000 + 1 * r.val = t.val * 5000 + r.val; omega
  | ⟨1, _⟩ => show win6_0.index t (1 : Fin 2) * 64 + 1 * k.val = k.val; omega

theorem emb6_1 (t : Fin cfg6.N) (r : Fin 5000) (k : Fin 64) :
    ((cfg6.win 1).blk t).view.emb (ix2 r k : S5000x64.Idx)
      = (ix2 (⟨t.val * 5000 + r.val, row_lt6 t r⟩ : Fin 50000) k : S50000x64.Idx) := by
  obtain ⟨-, -, e0, e1, -⟩ := idx6 t
  funext a; apply Fin.ext
  match a with
  | ⟨0, _⟩ => show win6_1.index t (0 : Fin 2) * 5000 + 1 * r.val = t.val * 5000 + r.val; omega
  | ⟨1, _⟩ => show win6_1.index t (1 : Fin 2) * 64 + 1 * k.val = k.val; omega

theorem emb6_2 (t : Fin cfg6.N) (k q : Fin 64) :
    ((cfg6.win 2).blk t).view.emb (ix2 k q : S64x64.Idx) = (ix2 k q : S64x64.Idx) := by
  obtain ⟨-, -, -, -, e0, e1, -⟩ := idx6 t
  funext a; apply Fin.ext
  match a with
  | ⟨0, _⟩ => show win6_2.index t (0 : Fin 2) * 64 + 1 * k.val = k.val; omega
  | ⟨1, _⟩ => show win6_2.index t (1 : Fin 2) * 64 + 1 * q.val = q.val; omega

theorem emb6_3 (t : Fin cfg6.N) (r : Fin 5000) (q : Fin 64) :
    ((cfg6.win 3).blk t).view.emb (ix2 r q : S5000x64.Idx)
      = (ix2 (⟨t.val * 5000 + r.val, row_lt6 t r⟩ : Fin 50000) q : S50000x64.Idx) := by
  obtain ⟨-, -, -, -, -, -, e0, e1⟩ := idx6 t
  funext a; apply Fin.ext
  match a with
  | ⟨0, _⟩ => show win6_3.index t (0 : Fin 2) * 5000 + 1 * r.val = t.val * 5000 + r.val; omega
  | ⟨1, _⟩ => show win6_3.index t (1 : Fin 2) * 64 + 1 * q.val = q.val; omega

theorem blk6_0 (c : Dev nD) (t : Fin cfg6.N) (r : Fin 5000) (k : Fin 64) :
    iblk6 V c 0 t (ix2 r k : S5000x64.Idx)
      = V c main_v94 (ix2 (⟨t.val * 5000 + r.val, row_lt6 t r⟩ : Fin 50000) k : S50000x64.Idx) := by
  show V c main_v94 (((cfg6.win 0).blk t).view.emb (ix2 r k : S5000x64.Idx)) = _
  rw [emb6_0]

theorem blk6_1 (c : Dev nD) (t : Fin cfg6.N) (r : Fin 5000) (k : Fin 64) :
    iblk6 V c 1 t (ix2 r k : S5000x64.Idx)
      = V c main_v1 (ix2 (⟨t.val * 5000 + r.val, row_lt6 t r⟩ : Fin 50000) k : S50000x64.Idx) := by
  show V c main_v1 (((cfg6.win 1).blk t).view.emb (ix2 r k : S5000x64.Idx)) = _
  rw [emb6_1]

theorem blk6_2 (c : Dev nD) (t : Fin cfg6.N) (k q : Fin 64) :
    iblk6 V c 2 t (ix2 k q : S64x64.Idx) = V c main_v96 (ix2 k q : S64x64.Idx) := by
  show V c main_v96 (((cfg6.win 2).blk t).view.emb (ix2 k q : S64x64.Idx)) = _
  rw [emb6_2]

/-- What point `t` writes back is block `t` of the layer of the arrays the region finds. -/
theorem flushed6 (c : Dev nD) (t : Fin cfg6.N) :
    (dat6 V c).flushed 3 t = ((cfg6.win 3).blk t).view.read (Elt Ideal)
      (Cert.Gcn.layer 0x3F666666#32 0x3DCCCCCD#32 0x3F6B8252#32 0x3DA3ED6E#32 (V c main_v94) (V c main_v1) (V c main_v96)) := by
  show (cfg6.win 3).cut (grid6.coords t) ((dat6 V c).after 3 t) = _
  rw [after6_3]
  unfold out6_3
  rw [View.canon_unit_zero Cert.Gcn.zero_offsets]
  simp only [View.ld_unit_zero (S := S5000x64) Cert.Gcn.zero_offsets, View.ld_unit_zero (S := S64x64) Cert.Gcn.zero_offsets]
  rw [pay6]
  funext (j : S5000x64.Idx)
  obtain ⟨r, q, rfl⟩ : ∃ (r : Fin 5000) (q : Fin 64), j = ix2 r q := ⟨j 0, j 1, eq_ix2 j⟩
  show Cert.Gcn.kernLayer 0x3F666666#32 0x3DCCCCCD#32 0x3F6B8252#32 0x3DA3ED6E#32 dot_S5000x64_S64x64_S5000x64_1_0_0_1_n_n
      shapeCasts_S5000x64_S5000x64 shapeCasts_S64x64_S64x64 (iblk6 V c 0 t) (iblk6 V c 1 t) (iblk6 V c 2 t) (ix2 r q)
    = Cert.Gcn.layer 0x3F666666#32 0x3DCCCCCD#32 0x3F6B8252#32 0x3DA3ED6E#32 (V c main_v94) (V c main_v1) (V c main_v96)
        (((cfg6.win 3).blk t).view.emb (ix2 r q : S5000x64.Idx))
  rw [emb6_3 t r q]
  exact (Cert.Gcn.kernLayer_apply 0x3F666666#32 0x3DCCCCCD#32 0x3F6B8252#32 0x3DA3ED6E#32 dot_S5000x64_S64x64_S5000x64_1_0_0_1_n_n rfl
      shapeCasts_S5000x64_S5000x64 shapeCasts_S64x64_S64x64 (iblk6 V c 0 t) (iblk6 V c 1 t) (iblk6 V c 2 t) r q).trans
    (Cert.Gcn.layer_rows 0x3F666666#32 0x3DCCCCCD#32 0x3F6B8252#32 0x3DA3ED6E#32 (V c main_v94) (V c main_v1) (iblk6 V c 0 t) (iblk6 V c 1 t)
      (V c main_v96) (iblk6 V c 2 t) ⟨t.val * 5000 + r.val, row_lt6 t r⟩ r q
      (fun k => blk6_0 V c t r k) (fun k => blk6_1 V c t r k) (fun k => blk6_2 V c t k q))

/-- Every index of the output array lies in the block of the point its row falls in. -/
theorem cover6 (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : grid6.N = 10 := N_6
  let t : Fin cfg6.N := ⟨(i 0).val / 5000, by show (i 0).val / 5000 < grid6.N; rw [hN]; omega⟩
  obtain ⟨-, -, -, -, -, -, e0, e1⟩ := idx6 t
  have ht : t.val = (i 0).val / 5000 := rfl
  refine ⟨t, flush6_3 t, ?_⟩
  show i ∈ ((View.whole main_v97).slice (win6_3.rect t)).set
  rw [View.set_slice_whole, Rect.mem_set_unit]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- The array region 6 leaves in its output: one layer of the arrays it finds. -/
theorem arr6 (c : Dev nD) :
    (dat6 V c).arrAt 3 cfg6.N
      = Cert.Gcn.layer 0x3F666666#32 0x3DCCCCCD#32 0x3F6B8252#32 0x3DA3ED6E#32 (V c main_v94) (V c main_v1) (V c main_v96) :=
  (dat6 V c).arrAt_eq_of_cover 3 _ (fun t _ => flushed6 V c t) (cover6)

end Cert.KernelIdeal.Val

end
-- ==== Proof.Region7.lean ====
/-
  Layer 7 on the row-tiled grid.  Grid point `t` loads rows `5000·t … 5000·t + 4999` of the aggregated messages and
  of the first hidden state, and the whole `64 × 64` weight; it writes back one layer of those rows.  A layer's entry
  `(p, q)` depends on row `p` only, so what point `t` writes is block `t` of the layer of the whole arrays; the ten
  blocks tile the `50000` rows, so the array the region leaves is that layer.
-/
import proofs.«102039_j12893491822964_1_alg».proof.Proof.Gen.KernelIdeal.Frame
import proofs.«102039_j12893491822964_1_alg».proof.Proof.Layers

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored value is one layer of its loaded blocks, as vector operations. -/
theorem pay7 (v0 v4 : Vec Ideal S5000x64 .f32) (v9 : Vec Ideal S64x64 .f32) :
    k7_pay1 v0 v4 v9 = Cert.Gcn.kernLayer 0x3F666666#32 0x3DCCCCCD#32 0x3F6E567C#32 0x3D8D4C22#32 dot_S5000x64_S64x64_S5000x64_1_0_0_1_n_n
      shapeCasts_S5000x64_S5000x64 shapeCasts_S64x64_S64x64 v0 v4 v9 := rfl

/-- The index maps over the grid: the row-indexed windows sit at block `(t, 0)`, the weight at `(0, 0)`. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

theorem row_lt7 (t : Fin cfg7.N) (r : Fin 5000) : t.val * 5000 + r.val < 50000 := by
  have ht : t.val < grid7.N := t.isLt
  rw [N_7] at ht
  have := r.isLt
  omega

/-- Row `r` of point `t`'s block of the aggregated messages is row `5000·t + r` of the array. -/
theorem emb7_0 (t : Fin cfg7.N) (r : Fin 5000) (k : Fin 64) :
    ((cfg7.win 0).blk t).view.emb (ix2 r k : S5000x64.Idx)
      = (ix2 (⟨t.val * 5000 + r.val, row_lt7 t r⟩ : Fin 50000) k : S50000x64.Idx) := by
  obtain ⟨e0, e1, -⟩ := idx7 t
  funext a; apply Fin.ext
  match a with
  | ⟨0, _⟩ => show win7_0.index t (0 : Fin 2) * 5000 + 1 * r.val = t.val * 5000 + r.val; omega
  | ⟨1, _⟩ => show win7_0.index t (1 : Fin 2) * 64 + 1 * k.val = k.val; omega

theorem emb7_1 (t : Fin cfg7.N) (r : Fin 5000) (k : Fin 64) :
    ((cfg7.win 1).blk t).view.emb (ix2 r k : S5000x64.Idx)
      = (ix2 (⟨t.val * 5000 + r.val, row_lt7 t r⟩ : Fin 50000) k : S50000x64.Idx) := by
  obtain ⟨-, -, e0, e1, -⟩ := idx7 t
  funext a; apply Fin.ext
  match a with
  | ⟨0, _⟩ => show win7_1.index t (0 : Fin 2) * 5000 + 1 * r.val = t.val * 5000 + r.val; omega
  | ⟨1, _⟩ => show win7_1.index t (1 : Fin 2) * 64 + 1 * k.val = k.val; omega

theorem emb7_2 (t : Fin cfg7.N) (k q : Fin 64) :
    ((cfg7.win 2).blk t).view.emb (ix2 k q : S64x64.Idx) = (ix2 k q : S64x64.Idx) := by
  obtain ⟨-, -, -, -, e0, e1, -⟩ := idx7 t
  funext a; apply Fin.ext
  match a with
  | ⟨0, _⟩ => show win7_2.index t (0 : Fin 2) * 64 + 1 * k.val = k.val; omega
  | ⟨1, _⟩ => show win7_2.index t (1 : Fin 2) * 64 + 1 * q.val = q.val; omega

theorem emb7_3 (t : Fin cfg7.N) (r : Fin 5000) (q : Fin 64) :
    ((cfg7.win 3).blk t).view.emb (ix2 r q : S5000x64.Idx)
      = (ix2 (⟨t.val * 5000 + r.val, row_lt7 t r⟩ : Fin 50000) q : S50000x64.Idx) := by
  obtain ⟨-, -, -, -, -, -, e0, e1⟩ := idx7 t
  funext a; apply Fin.ext
  match a with
  | ⟨0, _⟩ => show win7_3.index t (0 : Fin 2) * 5000 + 1 * r.val = t.val * 5000 + r.val; omega
  | ⟨1, _⟩ => show win7_3.index t (1 : Fin 2) * 64 + 1 * q.val = q.val; omega

theorem blk7_0 (c : Dev nD) (t : Fin cfg7.N) (r : Fin 5000) (k : Fin 64) :
    iblk7 V c 0 t (ix2 r k : S5000x64.Idx)
      = V c main_v110 (ix2 (⟨t.val * 5000 + r.val, row_lt7 t r⟩ : Fin 50000) k : S50000x64.Idx) := by
  show V c main_v110 (((cfg7.win 0).blk t).view.emb (ix2 r k : S5000x64.Idx)) = _
  rw [emb7_0]

theorem blk7_1 (c : Dev nD) (t : Fin cfg7.N) (r : Fin 5000) (k : Fin 64) :
    iblk7 V c 1 t (ix2 r k : S5000x64.Idx)
      = V c main_v1 (ix2 (⟨t.val * 5000 + r.val, row_lt7 t r⟩ : Fin 50000) k : S50000x64.Idx) := by
  show V c main_v1 (((cfg7.win 1).blk t).view.emb (ix2 r k : S5000x64.Idx)) = _
  rw [emb7_1]

theorem blk7_2 (c : Dev nD) (t : Fin cfg7.N) (k q : Fin 64) :
    iblk7 V c 2 t (ix2 k q : S64x64.Idx) = V c main_v112 (ix2 k q : S64x64.Idx) := by
  show V c main_v112 (((cfg7.win 2).blk t).view.emb (ix2 k q : S64x64.Idx)) = _
  rw [emb7_2]

/-- What point `t` writes back is block `t` of the layer of the arrays the region finds. -/
theorem flushed7 (c : Dev nD) (t : Fin cfg7.N) :
    (dat7 V c).flushed 3 t = ((cfg7.win 3).blk t).view.read (Elt Ideal)
      (Cert.Gcn.layer 0x3F666666#32 0x3DCCCCCD#32 0x3F6E567C#32 0x3D8D4C22#32 (V c main_v110) (V c main_v1) (V c main_v112)) := by
  show (cfg7.win 3).cut (grid7.coords t) ((dat7 V c).after 3 t) = _
  rw [after7_3]
  unfold out7_3
  rw [View.canon_unit_zero Cert.Gcn.zero_offsets]
  simp only [View.ld_unit_zero (S := S5000x64) Cert.Gcn.zero_offsets, View.ld_unit_zero (S := S64x64) Cert.Gcn.zero_offsets]
  rw [pay7]
  funext (j : S5000x64.Idx)
  obtain ⟨r, q, rfl⟩ : ∃ (r : Fin 5000) (q : Fin 64), j = ix2 r q := ⟨j 0, j 1, eq_ix2 j⟩
  show Cert.Gcn.kernLayer 0x3F666666#32 0x3DCCCCCD#32 0x3F6E567C#32 0x3D8D4C22#32 dot_S5000x64_S64x64_S5000x64_1_0_0_1_n_n
      shapeCasts_S5000x64_S5000x64 shapeCasts_S64x64_S64x64 (iblk7 V c 0 t) (iblk7 V c 1 t) (iblk7 V c 2 t) (ix2 r q)
    = Cert.Gcn.layer 0x3F666666#32 0x3DCCCCCD#32 0x3F6E567C#32 0x3D8D4C22#32 (V c main_v110) (V c main_v1) (V c main_v112)
        (((cfg7.win 3).blk t).view.emb (ix2 r q : S5000x64.Idx))
  rw [emb7_3 t r q]
  exact (Cert.Gcn.kernLayer_apply 0x3F666666#32 0x3DCCCCCD#32 0x3F6E567C#32 0x3D8D4C22#32 dot_S5000x64_S64x64_S5000x64_1_0_0_1_n_n rfl
      shapeCasts_S5000x64_S5000x64 shapeCasts_S64x64_S64x64 (iblk7 V c 0 t) (iblk7 V c 1 t) (iblk7 V c 2 t) r q).trans
    (Cert.Gcn.layer_rows 0x3F666666#32 0x3DCCCCCD#32 0x3F6E567C#32 0x3D8D4C22#32 (V c main_v110) (V c main_v1) (iblk7 V c 0 t) (iblk7 V c 1 t)
      (V c main_v112) (iblk7 V c 2 t) ⟨t.val * 5000 + r.val, row_lt7 t r⟩ r q
      (fun k => blk7_0 V c t r k) (fun k => blk7_1 V c t r k) (fun k => blk7_2 V c t k q))

/-- Every index of the output array lies in the block of the point its row falls in. -/
theorem cover7 (i : S50000x64.Idx) :
    ∃ t : Fin cfg7.N, (cfg7.win 3).flush t = true ∧ i ∈ ((cfg7.win 3).blk t).view.set := by
  have hi0 : (i 0).val < 50000 := (i 0).isLt
  have hi1 : (i 1).val < 64 := (i 1).isLt
  have hN : grid7.N = 10 := N_7
  let t : Fin cfg7.N := ⟨(i 0).val / 5000, by show (i 0).val / 5000 < grid7.N; rw [hN]; omega⟩
  obtain ⟨-, -, -, -, -, -, e0, e1⟩ := idx7 t
  have ht : t.val = (i 0).val / 5000 := rfl
  refine ⟨t, flush7_3 t, ?_⟩
  show i ∈ ((View.whole main_v113).slice (win7_3.rect t)).set
  rw [View.set_slice_whole, Rect.mem_set_unit]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 64 ≤ (i 1).val ∧ (i 1).val < win7_3.index t (1 : Fin 2) * 64 + 64; omega

/-- The array region 7 leaves in its output: one layer of the arrays it finds. -/
theorem arr7 (c : Dev nD) :
    (dat7 V c).arrAt 3 cfg7.N
      = Cert.Gcn.layer 0x3F666666#32 0x3DCCCCCD#32 0x3F6E567C#32 0x3D8D4C22#32 (V c main_v110) (V c main_v1) (V c main_v112) :=
  (dat7 V c).arrAt_eq_of_cover 3 _ (fun t _ => flushed7 V c t) (cover7)

end Cert.KernelIdeal.Val

end
-- ==== Proof.Region8.lean ====
/-
  Layer 8 on the row-tiled grid.  Grid point `t` loads rows `5000·t … 5000·t + 4999` of the aggregated messages and
  of the first hidden state, and the whole `64 × 64` weight; it writes back one layer of those rows.  A layer's entry
  `(p, q)` depends on row `p` only, so what point `t` writes is block `t` of the layer of the whole arrays; the ten
  blocks tile the `50000` rows, so the array the region leaves is that layer.
-/
import proofs.«102039_j12893491822964_1_alg».proof.Proof.Gen.KernelIdeal.Frame
import proofs.«102039_j12893491822964_1_alg».proof.Proof.Layers

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored value is one layer of its loaded blocks, as vector operations. -/
theorem pay8 (v0 v4 : Vec Ideal S5000x64 .f32) (v9 : Vec Ideal S64x64 .f32) :
    k8_pay1 v0 v4 v9 = Cert.Gcn.kernLayer 0x3F666666#32 0x3DCCCCCD#32 0x3F707AE8#32 0x3D785186#32 dot_S5000x64_S64x64_S5000x64_1_0_0_1_n_n
      shapeCasts_S5000x64_S5000x64 shapeCasts_S64x64_S64x64 v0 v4 v9 := rfl

/-- The index maps over the grid: the row-indexed windows sit at block `(t, 0)`, the weight at `(0, 0)`. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

theorem row_lt8 (t : Fin cfg8.N) (r : Fin 5000) : t.val * 5000 + r.val < 50000 := by
  have ht : t.val < grid8.N := t.isLt
  rw [N_8] at ht
  have := r.isLt
  omega

/-- Row `r` of point `t`'s block of the aggregated messages is row `5000·t + r` of the array. -/
theorem emb8_0 (t : Fin cfg8.N) (r : Fin 5000) (k : Fin 64) :
    ((cfg8.win 0).blk t).view.emb (ix2 r k : S5000x64.Idx)
      = (ix2 (⟨t.val * 5000 + r.val, row_lt8 t r⟩ : Fin 50000) k : S50000x64.Idx) := by
  obtain ⟨e0, e1, -⟩ := idx8 t
  funext a; apply Fin.ext
  match a with
  | ⟨0, _⟩ => show win8_0.index t (0 : Fin 2) * 5000 + 1 * r.val = t.val * 5000 + r.val; omega
  | ⟨1, _⟩ => show win8_0.index t (1 : Fin 2) * 64 + 1 * k.val = k.val; omega

theorem emb8_1 (t : Fin cfg8.N) (r : Fin 5000) (k : Fin 64) :
    ((cfg8.win 1).blk t).view.emb (ix2 r k : S5000x64.Idx)
      = (ix2 (⟨t.val * 5000 + r.val, row_lt8 t r⟩ : Fin 50000) k : S50000x64.Idx) := by
  obtain ⟨-, -, e0, e1, -⟩ := idx8 t
  funext a; apply Fin.ext
  match a with
  | ⟨0, _⟩ => show win8_1.index t (0 : Fin 2) * 5000 + 1 * r.val = t.val * 5000 + r.val; omega
  | ⟨1, _⟩ => show win8_1.index t (1 : Fin 2) * 64 + 1 * k.val = k.val; omega

theorem emb8_2 (t : Fin cfg8.N) (k q : Fin 64) :
    ((cfg8.win 2).blk t).view.emb (ix2 k q : S64x64.Idx) = (ix2 k q : S64x64.Idx) := by
  obtain ⟨-, -, -, -, e0, e1, -⟩ := idx8 t
  funext a; apply Fin.ext
  match a with
  | ⟨0, _⟩ => show win8_2.index t (0 : Fin 2) * 64 + 1 * k.val = k.val; omega
  | ⟨1, _⟩ => show win8_2.index t (1 : Fin 2) * 64 + 1 * q.val = q.val; omega

theorem emb8_3 (t : Fin cfg8.N) (r : Fin 5000) (q : Fin 64) :
    ((cfg8.win 3).blk t).view.emb (ix2 r q : S5000x64.Idx)
      = (ix2 (⟨t.val * 5000 + r.val, row_lt8 t r⟩ : Fin 50000) q : S50000x64.Idx) := by
  obtain ⟨-, -, -, -, -, -, e0, e1⟩ := idx8 t
  funext a; apply Fin.ext
  match a with
  | ⟨0, _⟩ => show win8_3.index t (0 : Fin 2) * 5000 + 1 * r.val = t.val * 5000 + r.val; omega
  | ⟨1, _⟩ => show win8_3.index t (1 : Fin 2) * 64 + 1 * q.val = q.val; omega

theorem blk8_0 (c : Dev nD) (t : Fin cfg8.N) (r : Fin 5000) (k : Fin 64) :
    iblk8 V c 0 t (ix2 r k : S5000x64.Idx)
      = V c main_v126 (ix2 (⟨t.val * 5000 + r.val, row_lt8 t r⟩ : Fin 50000) k : S50000x64.Idx) := by
  show V c main_v126 (((cfg8.win 0).blk t).view.emb (ix2 r k : S5000x64.Idx)) = _
  rw [emb8_0]

theorem blk8_1 (c : Dev nD) (t : Fin cfg8.N) (r : Fin 5000) (k : Fin 64) :
    iblk8 V c 1 t (ix2 r k : S5000x64.Idx)
      = V c main_v1 (ix2 (⟨t.val * 5000 + r.val, row_lt8 t r⟩ : Fin 50000) k : S50000x64.Idx) := by
  show V c main_v1 (((cfg8.win 1).blk t).view.emb (ix2 r k : S5000x64.Idx)) = _
  rw [emb8_1]

theorem blk8_2 (c : Dev nD) (t : Fin cfg8.N) (k q : Fin 64) :
    iblk8 V c 2 t (ix2 k q : S64x64.Idx) = V c main_v128 (ix2 k q : S64x64.Idx) := by
  show V c main_v128 (((cfg8.win 2).blk t).view.emb (ix2 k q : S64x64.Idx)) = _
  rw [emb8_2]

/-- What point `t` writes back is block `t` of the layer of the arrays the region finds. -/
theorem flushed8 (c : Dev nD) (t : Fin cfg8.N) :
    (dat8 V c).flushed 3 t = ((cfg8.win 3).blk t).view.read (Elt Ideal)
      (Cert.Gcn.layer 0x3F666666#32 0x3DCCCCCD#32 0x3F707AE8#32 0x3D785186#32 (V c main_v126) (V c main_v1) (V c main_v128)) := by
  show (cfg8.win 3).cut (grid8.coords t) ((dat8 V c).after 3 t) = _
  rw [after8_3]
  unfold out8_3
  rw [View.canon_unit_zero Cert.Gcn.zero_offsets]
  simp only [View.ld_unit_zero (S := S5000x64) Cert.Gcn.zero_offsets, View.ld_unit_zero (S := S64x64) Cert.Gcn.zero_offsets]
  rw [pay8]
  funext (j : S5000x64.Idx)
  obtain ⟨r, q, rfl⟩ : ∃ (r : Fin 5000) (q : Fin 64), j = ix2 r q := ⟨j 0, j 1, eq_ix2 j⟩
  show Cert.Gcn.kernLayer 0x3F666666#32 0x3DCCCCCD#32 0x3F707AE8#32 0x3D785186#32 dot_S5000x64_S64x64_S5000x64_1_0_0_1_n_n
      shapeCasts_S5000x64_S5000x64 shapeCasts_S64x64_S64x64 (iblk8 V c 0 t) (iblk8 V c 1 t) (iblk8 V c 2 t) (ix2 r q)
    = Cert.Gcn.layer 0x3F666666#32 0x3DCCCCCD#32 0x3F707AE8#32 0x3D785186#32 (V c main_v126) (V c main_v1) (V c main_v128)
        (((cfg8.win 3).blk t).view.emb (ix2 r q : S5000x64.Idx))
  rw [emb8_3 t r q]
  exact (Cert.Gcn.kernLayer_apply 0x3F666666#32 0x3DCCCCCD#32 0x3F707AE8#32 0x3D785186#32 dot_S5000x64_S64x64_S5000x64_1_0_0_1_n_n rfl
      shapeCasts_S5000x64_S5000x64 shapeCasts_S64x64_S64x64 (iblk8 V c 0 t) (iblk8 V c 1 t) (iblk8 V c 2 t) r q).trans
    (Cert.Gcn.layer_rows 0x3F666666#32 0x3DCCCCCD#32 0x3F707AE8#32 0x3D785186#32 (V c main_v126) (V c main_v1) (iblk8 V c 0 t) (iblk8 V c 1 t)
      (V c main_v128) (iblk8 V c 2 t) ⟨t.val * 5000 + r.val, row_lt8 t r⟩ r q
      (fun k => blk8_0 V c t r k) (fun k => blk8_1 V c t r k) (fun k => blk8_2 V c t k q))

/-- Every index of the output array lies in the block of the point its row falls in. -/
theorem cover8 (i : S50000x64.Idx) :
    ∃ t : Fin cfg8.N, (cfg8.win 3).flush t = true ∧ i ∈ ((cfg8.win 3).blk t).view.set := by
  have hi0 : (i 0).val < 50000 := (i 0).isLt
  have hi1 : (i 1).val < 64 := (i 1).isLt
  have hN : grid8.N = 10 := N_8
  let t : Fin cfg8.N := ⟨(i 0).val / 5000, by show (i 0).val / 5000 < grid8.N; rw [hN]; omega⟩
  obtain ⟨-, -, -, -, -, -, e0, e1⟩ := idx8 t
  have ht : t.val = (i 0).val / 5000 := rfl
  refine ⟨t, flush8_3 t, ?_⟩
  show i ∈ ((View.whole main_v129).slice (win8_3.rect t)).set
  rw [View.set_slice_whole, Rect.mem_set_unit]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 64 ≤ (i 1).val ∧ (i 1).val < win8_3.index t (1 : Fin 2) * 64 + 64; omega

/-- The array region 8 leaves in its output: one layer of the arrays it finds. -/
theorem arr8 (c : Dev nD) :
    (dat8 V c).arrAt 3 cfg8.N
      = Cert.Gcn.layer 0x3F666666#32 0x3DCCCCCD#32 0x3F707AE8#32 0x3D785186#32 (V c main_v126) (V c main_v1) (V c main_v128) :=
  (dat8 V c).arrAt_eq_of_cover 3 _ (fun t _ => flushed8 V c t) (cover8)

end Cert.KernelIdeal.Val

end
-- ==== Proof.Region9.lean ====
/-
  The exit stage on the row-tiled grid.  Grid point `t` loads rows `5000·t … 5000·t + 4999` of the last hidden state,
  the whole weight and the one-row bias, and writes back the stage of those rows.  An entry `(p, q)` of the stage depends
  on row `p` only, so what point `t` writes is block `t` of the stage of the whole arrays; the ten blocks tile the rows.
-/
import proofs.«102039_j12893491822964_1_alg».proof.Proof.Gen.KernelIdeal.Frame
import proofs.«102039_j12893491822964_1_alg».proof.Proof.Layers

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored value is the stage of its loaded blocks, as vector operations. -/
theorem pay9 (v0 : Vec Ideal S5000x64 .f32) (v2 : Vec Ideal S64x40 .f32) (v4 : Vec Ideal S1x40 .f32) :
    k9_pay1 v0 v2 v4 = Cert.Gcn.kernOut dot_S5000x64_S64x40_S5000x40_1_0_0_1_n_n shapeCasts_S5000x64_S5000x64 shapeCasts_S1x40_S1x40 broadcasts_S1x40_S5000x40 v0 v2 v4 := rfl

/-- The index maps over the grid: the row-indexed windows sit at block `(t, 0)`, the weight and the bias at `(0, 0)`. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

theorem row_lt9 (t : Fin cfg9.N) (r : Fin 5000) : t.val * 5000 + r.val < 50000 := by
  have ht : t.val < grid9.N := t.isLt
  rw [N_9] at ht
  have := r.isLt
  omega

theorem emb9_0 (t : Fin cfg9.N) (r : Fin 5000) (k : Fin 64) :
    ((cfg9.win 0).blk t).view.emb (ix2 r k : S5000x64.Idx)
      = (ix2 (⟨t.val * 5000 + r.val, row_lt9 t r⟩ : Fin 50000) k : S50000x64.Idx) := by
  obtain ⟨e0, e1, -⟩ := idx9 t
  funext a; apply Fin.ext
  match a with
  | ⟨0, _⟩ => show win9_0.index t (0 : Fin 2) * 5000 + 1 * r.val = t.val * 5000 + r.val; omega
  | ⟨1, _⟩ => show win9_0.index t (1 : Fin 2) * 64 + 1 * k.val = k.val; omega

theorem emb9_1 (t : Fin cfg9.N) (k : Fin 64) (q : Fin 40) :
    ((cfg9.win 1).blk t).view.emb (ix2 k q : S64x40.Idx) = (ix2 k q : S64x40.Idx) := by
  obtain ⟨-, -, e0, e1, -⟩ := idx9 t
  funext a; apply Fin.ext
  match a with
  | ⟨0, _⟩ => show win9_1.index t (0 : Fin 2) * 64 + 1 * k.val = k.val; omega
  | ⟨1, _⟩ => show win9_1.index t (1 : Fin 2) * 40 + 1 * q.val = q.val; omega

theorem emb9_2 (t : Fin cfg9.N) (q : Fin 40) :
    ((cfg9.win 2).blk t).view.emb (ix2 (0 : Fin 1) q : S1x40.Idx) = (ix2 (0 : Fin 1) q : S1x40.Idx) := by
  obtain ⟨-, -, -, -, e0, e1, -⟩ := idx9 t
  funext a; apply Fin.ext
  match a with
  | ⟨0, _⟩ => show win9_2.index t (0 : Fin 2) * 1 + 1 * 0 = 0; omega
  | ⟨1, _⟩ => show win9_2.index t (1 : Fin 2) * 40 + 1 * q.val = q.val; omega

theorem emb9_3 (t : Fin cfg9.N) (r : Fin 5000) (q : Fin 40) :
    ((cfg9.win 3).blk t).view.emb (ix2 r q : S5000x40.Idx)
      = (ix2 (⟨t.val * 5000 + r.val, row_lt9 t r⟩ : Fin 50000) q : S50000x40.Idx) := by
  obtain ⟨-, -, -, -, -, -, e0, e1⟩ := idx9 t
  funext a; apply Fin.ext
  match a with
  | ⟨0, _⟩ => show win9_3.index t (0 : Fin 2) * 5000 + 1 * r.val = t.val * 5000 + r.val; omega
  | ⟨1, _⟩ => show win9_3.index t (1 : Fin 2) * 40 + 1 * q.val = q.val; omega

theorem blk9_0 (c : Dev nD) (t : Fin cfg9.N) (r : Fin 5000) (k : Fin 64) :
    iblk9 V c 0 t (ix2 r k : S5000x64.Idx)
      = V c main_v129 (ix2 (⟨t.val * 5000 + r.val, row_lt9 t r⟩ : Fin 50000) k : S50000x64.Idx) := by
  show V c main_v129 (((cfg9.win 0).blk t).view.emb (ix2 r k : S5000x64.Idx)) = _
  rw [emb9_0]

theorem blk9_1 (c : Dev nD) (t : Fin cfg9.N) (k : Fin 64) (q : Fin 40) :
    iblk9 V c 1 t (ix2 k q : S64x40.Idx) = V c main_arg7 (ix2 k q : S64x40.Idx) := by
  show V c main_arg7 (((cfg9.win 1).blk t).view.emb (ix2 k q : S64x40.Idx)) = _
  rw [emb9_1]

theorem blk9_2 (c : Dev nD) (t : Fin cfg9.N) (q : Fin 40) :
    iblk9 V c 2 t (ix2 (0 : Fin 1) q : S1x40.Idx) = V c main_v130 (ix2 (0 : Fin 1) q : S1x40.Idx) := by
  show V c main_v130 (((cfg9.win 2).blk t).view.emb (ix2 (0 : Fin 1) q : S1x40.Idx)) = _
  rw [emb9_2]

/-- What point `t` writes back is block `t` of the stage of the arrays the region finds. -/
theorem flushed9 (c : Dev nD) (t : Fin cfg9.N) :
    (dat9 V c).flushed 3 t = ((cfg9.win 3).blk t).view.read (Elt Ideal)
      (Cert.Gcn.outProj (V c main_v129) (V c main_arg7) (V c main_v130)) := by
  show (cfg9.win 3).cut (grid9.coords t) ((dat9 V c).after 3 t) = _
  rw [after9_3]
  unfold out9_3
  rw [View.canon_unit_zero Cert.Gcn.zero_offsets]
  simp only [View.ld_unit_zero (S := S5000x64) Cert.Gcn.zero_offsets, View.ld_unit_zero (S := S64x40) Cert.Gcn.zero_offsets, View.ld_unit_zero (S := S1x40) Cert.Gcn.zero_offsets]
  rw [pay9]
  funext (j : S5000x40.Idx)
  obtain ⟨r, q, rfl⟩ : ∃ (r : Fin 5000) (q : Fin 40), j = ix2 r q := ⟨j 0, j 1, eq_ix2 j⟩
  show Cert.Gcn.kernOut dot_S5000x64_S64x40_S5000x40_1_0_0_1_n_n shapeCasts_S5000x64_S5000x64 shapeCasts_S1x40_S1x40 broadcasts_S1x40_S5000x40 (iblk9 V c 0 t) (iblk9 V c 1 t) (iblk9 V c 2 t) (ix2 r q)
    = Cert.Gcn.outProj (V c main_v129) (V c main_arg7) (V c main_v130)
        (((cfg9.win 3).blk t).view.emb (ix2 r q : S5000x40.Idx))
  rw [emb9_3 t r q]
  exact (Cert.Gcn.kernOut_apply dot_S5000x64_S64x40_S5000x40_1_0_0_1_n_n rfl shapeCasts_S5000x64_S5000x64 shapeCasts_S1x40_S1x40 broadcasts_S1x40_S5000x40 (iblk9 V c 0 t) (iblk9 V c 1 t) (iblk9 V c 2 t) r q).trans
    (Cert.Gcn.outProj_rows (V c main_v129) (iblk9 V c 0 t) (V c main_arg7) (iblk9 V c 1 t) (V c main_v130) (iblk9 V c 2 t)
      ⟨t.val * 5000 + r.val, row_lt9 t r⟩ r q
      (fun k => blk9_0 V c t r k) (fun k => blk9_1 V c t k q) (blk9_2 V c t q))

/-- Every index of the output array lies in the block of the point its row falls in. -/
theorem cover9 (i : S50000x40.Idx) :
    ∃ t : Fin cfg9.N, (cfg9.win 3).flush t = true ∧ i ∈ ((cfg9.win 3).blk t).view.set := by
  have hi0 : (i 0).val < 50000 := (i 0).isLt
  have hi1 : (i 1).val < 40 := (i 1).isLt
  have hN : grid9.N = 10 := N_9
  let t : Fin cfg9.N := ⟨(i 0).val / 5000, by show (i 0).val / 5000 < grid9.N; rw [hN]; omega⟩
  obtain ⟨-, -, -, -, -, -, e0, e1⟩ := idx9 t
  have ht : t.val = (i 0).val / 5000 := rfl
  refine ⟨t, flush9_3 t, ?_⟩
  show i ∈ ((View.whole main_v131).slice (win9_3.rect t)).set
  rw [View.set_slice_whole, Rect.mem_set_unit]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 40 ≤ (i 1).val ∧ (i 1).val < win9_3.index t (1 : Fin 2) * 40 + 40; omega

/-- The array region 9 leaves in its output: the stage of the arrays it finds. -/
theorem arr9 (c : Dev nD) :
    (dat9 V c).arrAt 3 cfg9.N = Cert.Gcn.outProj (V c main_v129) (V c main_arg7) (V c main_v130) :=
  (dat9 V c).arrAt_eq_of_cover 3 _ (fun t _ => flushed9 V c t) (cover9)

end Cert.KernelIdeal.Val

end
-- ==== Proof.Chain.lean ====
/-
  The contents of the result buffer at the last boundary, stage by stage.

  Between the launch and the return the TensorCore's buffers pass twenty boundaries: a host stretch, then a region, ten
  times.  The edge arrays, the weights, the exit bias and the first hidden state cross every later boundary unchanged.
  Region 0 leaves the first hidden state; stretch `l` aggregates hidden state `l - 1` and slices the layer weights, and
  region `l` leaves hidden state `l`; the last stretch lays the exit bias out as a row and region 9 leaves the output.
-/
import proofs.«102039_j12893491822964_1_alg».proof.Proof.Stretches
import proofs.«102039_j12893491822964_1_alg».proof.Proof.Region0
import proofs.«102039_j12893491822964_1_alg».proof.Proof.Region1
import proofs.«102039_j12893491822964_1_alg».proof.Proof.Region2
import proofs.«102039_j12893491822964_1_alg».proof.Proof.Region3
import proofs.«102039_j12893491822964_1_alg».proof.Proof.Region4
import proofs.«102039_j12893491822964_1_alg».proof.Proof.Region5
import proofs.«102039_j12893491822964_1_alg».proof.Proof.Region6
import proofs.«102039_j12893491822964_1_alg».proof.Proof.Region7
import proofs.«102039_j12893491822964_1_alg».proof.Proof.Region8
import proofs.«102039_j12893491822964_1_alg».proof.Proof.Region9

noncomputable section

namespace Cert.KernelIdeal.Val

open Cert.KernelIdeal Cert.KernelIdeal.Gen Idealize.ShloMosaic Idealize.ShloMosaic.TcCoe Idealize.ShloMosaic.StableHlo
open Idealize.SL.Sem
open Idealize.ShloMosaic.Pipeline (Dat)

variable (m : (ℓ : Loc nD τ sig) → Buf (Elt Ideal) ℓ) (ρ : Dev nD → PrngReg) (c : Dev nD)

/-! ## After region 0 -/

theorem at2_main_arg1 : W2 m ρ c (Proc.devRef .tc main_arg1) = m ((c : Thread nD τ).loc main_arg1) :=
  (W2_of_ne m ρ c main_arg1 (by decide)).trans (((keeps_host0 (W0 m ρ c)).1).trans rfl)

theorem at2_main_arg2 : W2 m ρ c (Proc.devRef .tc main_arg2) = m ((c : Thread nD τ).loc main_arg2) :=
  (W2_of_ne m ρ c main_arg2 (by decide)).trans (((keeps_host0 (W0 m ρ c)).2.1).trans rfl)

theorem at2_main_arg3 : W2 m ρ c (Proc.devRef .tc main_arg3) = m ((c : Thread nD τ).loc main_arg3) :=
  (W2_of_ne m ρ c main_arg3 (by decide)).trans (((keeps_host0 (W0 m ρ c)).2.2.1).trans rfl)

theorem at2_main_arg6 : W2 m ρ c (Proc.devRef .tc main_arg6) = m ((c : Thread nD τ).loc main_arg6) :=
  (W2_of_ne m ρ c main_arg6 (by decide)).trans (((keeps_host0 (W0 m ρ c)).2.2.2.1).trans rfl)

theorem at2_main_arg7 : W2 m ρ c (Proc.devRef .tc main_arg7) = m ((c : Thread nD τ).loc main_arg7) :=
  (W2_of_ne m ρ c main_arg7 (by decide)).trans (((keeps_host0 (W0 m ρ c)).2.2.2.2.1).trans rfl)

theorem at2_main_arg8 : W2 m ρ c (Proc.devRef .tc main_arg8) = m ((c : Thread nD τ).loc main_arg8) :=
  (W2_of_ne m ρ c main_arg8 (by decide)).trans (((keeps_host0 (W0 m ρ c)).2.2.2.2.2).trans rfl)

/-- Region 0 leaves the first hidden state. -/
theorem at2_hidden0 : W2 m ρ c (Proc.devRef .tc main_v1) = Cert.Gcn.hidden0 (m ((c : Thread nD τ).loc main_arg0)) (m ((c : Thread nD τ).loc main_arg4)) (m ((c : Thread nD τ).loc main_arg5)) :=
  (W2_arr m ρ c 3).trans ((arr0 (V1 m ρ) c).trans (Cert.Gcn.entry_congr
    ((host_x0 (W0 m ρ c)).trans rfl) ((host_win0 (W0 m ρ c)).trans rfl)
    ((host_bias0 (W0 m ρ c)).trans (Cert.Gcn.reshape_row _ _))))

/-! ## What crosses the later boundaries unchanged -/

theorem keeps_reg1 : Keeps (W3 m ρ c) (W4 m ρ c) :=
  ⟨W4_of_ne m ρ c main_arg1 (by decide),
   W4_of_ne m ρ c main_arg2 (by decide),
   W4_of_ne m ρ c main_arg3 (by decide),
   W4_of_ne m ρ c main_arg6 (by decide),
   W4_of_ne m ρ c main_arg7 (by decide),
   W4_of_ne m ρ c main_arg8 (by decide),
   (W4_arr m ρ c 1).trans (((dat1 (V3 m ρ) c).arrAt_in 1 rfl _).trans (A_eq1 (V3 m ρ) c 1))⟩

theorem keeps_reg2 : Keeps (W5 m ρ c) (W6 m ρ c) :=
  ⟨W6_of_ne m ρ c main_arg1 (by decide),
   W6_of_ne m ρ c main_arg2 (by decide),
   W6_of_ne m ρ c main_arg3 (by decide),
   W6_of_ne m ρ c main_arg6 (by decide),
   W6_of_ne m ρ c main_arg7 (by decide),
   W6_of_ne m ρ c main_arg8 (by decide),
   (W6_arr m ρ c 1).trans (((dat2 (V5 m ρ) c).arrAt_in 1 rfl _).trans (A_eq2 (V5 m ρ) c 1))⟩

theorem keeps_reg3 : Keeps (W7 m ρ c) (W8 m ρ c) :=
  ⟨W8_of_ne m ρ c main_arg1 (by decide),
   W8_of_ne m ρ c main_arg2 (by decide),
   W8_of_ne m ρ c main_arg3 (by decide),
   W8_of_ne m ρ c main_arg6 (by decide),
   W8_of_ne m ρ c main_arg7 (by decide),
   W8_of_ne m ρ c main_arg8 (by decide),
   (W8_arr m ρ c 1).trans (((dat3 (V7 m ρ) c).arrAt_in 1 rfl _).trans (A_eq3 (V7 m ρ) c 1))⟩

theorem keeps_reg4 : Keeps (W9 m ρ c) (W10 m ρ c) :=
  ⟨W10_of_ne m ρ c main_arg1 (by decide),
   W10_of_ne m ρ c main_arg2 (by decide),
   W10_of_ne m ρ c main_arg3 (by decide),
   W10_of_ne m ρ c main_arg6 (by decide),
   W10_of_ne m ρ c main_arg7 (by decide),
   W10_of_ne m ρ c main_arg8 (by decide),
   (W10_arr m ρ c 1).trans (((dat4 (V9 m ρ) c).arrAt_in 1 rfl _).trans (A_eq4 (V9 m ρ) c 1))⟩

theorem keeps_reg5 : Keeps (W11 m ρ c) (W12 m ρ c) :=
  ⟨W12_of_ne m ρ c main_arg1 (by decide),
   W12_of_ne m ρ c main_arg2 (by decide),
   W12_of_ne m ρ c main_arg3 (by decide),
   W12_of_ne m ρ c main_arg6 (by decide),
   W12_of_ne m ρ c main_arg7 (by decide),
   W12_of_ne m ρ c main_arg8 (by decide),
   (W12_arr m ρ c 1).trans (((dat5 (V11 m ρ) c).arrAt_in 1 rfl _).trans (A_eq5 (V11 m ρ) c 1))⟩

theorem keeps_reg6 : Keeps (W13 m ρ c) (W14 m ρ c) :=
  ⟨W14_of_ne m ρ c main_arg1 (by decide),
   W14_of_ne m ρ c main_arg2 (by decide),
   W14_of_ne m ρ c main_arg3 (by decide),
   W14_of_ne m ρ c main_arg6 (by decide),
   W14_of_ne m ρ c main_arg7 (by decide),
   W14_of_ne m ρ c main_arg8 (by decide),
   (W14_arr m ρ c 1).trans (((dat6 (V13 m ρ) c).arrAt_in 1 rfl _).trans (A_eq6 (V13 m ρ) c 1))⟩

theorem keeps_reg7 : Keeps (W15 m ρ c) (W16 m ρ c) :=
  ⟨W16_of_ne m ρ c main_arg1 (by decide),
   W16_of_ne m ρ c main_arg2 (by decide),
   W16_of_ne m ρ c main_arg3 (by decide),
   W16_of_ne m ρ c main_arg6 (by decide),
   W16_of_ne m ρ c main_arg7 (by decide),
   W16_of_ne m ρ c main_arg8 (by decide),
   (W16_arr m ρ c 1).trans (((dat7 (V15 m ρ) c).arrAt_in 1 rfl _).trans (A_eq7 (V15 m ρ) c 1))⟩

theorem keeps_reg8 : Keeps (W17 m ρ c) (W18 m ρ c) :=
  ⟨W18_of_ne m ρ c main_arg1 (by decide),
   W18_of_ne m ρ c main_arg2 (by decide),
   W18_of_ne m ρ c main_arg3 (by decide),
   W18_of_ne m ρ c main_arg6 (by decide),
   W18_of_ne m ρ c main_arg7 (by decide),
   W18_of_ne m ρ c main_arg8 (by decide),
   (W18_arr m ρ c 1).trans (((dat8 (V17 m ρ) c).arrAt_in 1 rfl _).trans (A_eq8 (V17 m ρ) c 1))⟩

theorem keeps_reg9 : Keeps (W19 m ρ c) (W20 m ρ c) :=
  ⟨W20_of_ne m ρ c main_arg1 (by decide),
   W20_of_ne m ρ c main_arg2 (by decide),
   W20_of_ne m ρ c main_arg3 (by decide),
   W20_of_ne m ρ c main_arg6 (by decide),
   (W20_arr m ρ c 1).trans (((dat9 (V19 m ρ) c).arrAt_in 1 rfl _).trans (A_eq9 (V19 m ρ) c 1)),
   W20_of_ne m ρ c main_arg8 (by decide),
   W20_of_ne m ρ c main_v1 (by decide)⟩

theorem k2_2 : Keeps (W2 m ρ c) (W2 m ρ c) := Keeps.refl _
theorem k2_4 : Keeps (W2 m ρ c) (W4 m ρ c) :=
  Keeps.trans _ (Keeps.trans _ (k2_2 m ρ c) (keeps_host1 (W2 m ρ c))) (keeps_reg1 m ρ c)
theorem k2_6 : Keeps (W2 m ρ c) (W6 m ρ c) :=
  Keeps.trans _ (Keeps.trans _ (k2_4 m ρ c) (keeps_host2 (W4 m ρ c))) (keeps_reg2 m ρ c)
theorem k2_8 : Keeps (W2 m ρ c) (W8 m ρ c) :=
  Keeps.trans _ (Keeps.trans _ (k2_6 m ρ c) (keeps_host3 (W6 m ρ c))) (keeps_reg3 m ρ c)
theorem k2_10 : Keeps (W2 m ρ c) (W10 m ρ c) :=
  Keeps.trans _ (Keeps.trans _ (k2_8 m ρ c) (keeps_host4 (W8 m ρ c))) (keeps_reg4 m ρ c)
theorem k2_12 : Keeps (W2 m ρ c) (W12 m ρ c) :=
  Keeps.trans _ (Keeps.trans _ (k2_10 m ρ c) (keeps_host5 (W10 m ρ c))) (keeps_reg5 m ρ c)
theorem k2_14 : Keeps (W2 m ρ c) (W14 m ρ c) :=
  Keeps.trans _ (Keeps.trans _ (k2_12 m ρ c) (keeps_host6 (W12 m ρ c))) (keeps_reg6 m ρ c)
theorem k2_16 : Keeps (W2 m ρ c) (W16 m ρ c) :=
  Keeps.trans _ (Keeps.trans _ (k2_14 m ρ c) (keeps_host7 (W14 m ρ c))) (keeps_reg7 m ρ c)
theorem k2_18 : Keeps (W2 m ρ c) (W18 m ρ c) :=
  Keeps.trans _ (Keeps.trans _ (k2_16 m ρ c) (keeps_host8 (W16 m ρ c))) (keeps_reg8 m ρ c)

/-! ## The hidden states -/

/-- Region 1 leaves hidden state 1. -/
theorem val1 : W4 m ρ c (Proc.devRef .tc main_v17) = Cert.Gcn.hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_arr m ρ c 3).trans ((arr1 (V3 m ρ) c).trans (Cert.Gcn.layer_congr _ _ _ _
    ((host_agg1 (W2 m ρ c)).trans (Cert.Gcn.aggregate_congr
      ((k2_2 m ρ c).main_arg1.trans (at2_main_arg1 m ρ c)) ((k2_2 m ρ c).main_arg2.trans (at2_main_arg2 m ρ c))
      ((k2_2 m ρ c).main_arg3.trans (at2_main_arg3 m ρ c)) (at2_hidden0 m ρ c)))
    (((keeps_host1 (W2 m ρ c)).main_v1).trans ((k2_2 m ρ c).main_v1.trans (at2_hidden0 m ρ c)))
    ((host_w1 (W2 m ρ c)).trans (congrArg _ ((k2_2 m ρ c).main_arg6.trans (at2_main_arg6 m ρ c))))))

/-- Region 2 leaves hidden state 2. -/
theorem val2 : W6 m ρ c (Proc.devRef .tc main_v33) = Cert.Gcn.hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W6_arr m ρ c 3).trans ((arr2 (V5 m ρ) c).trans (Cert.Gcn.layer_congr _ _ _ _
    ((host_agg2 (W4 m ρ c)).trans (Cert.Gcn.aggregate_congr
      ((k2_4 m ρ c).main_arg1.trans (at2_main_arg1 m ρ c)) ((k2_4 m ρ c).main_arg2.trans (at2_main_arg2 m ρ c))
      ((k2_4 m ρ c).main_arg3.trans (at2_main_arg3 m ρ c)) (val1 m ρ c)))
    (((keeps_host2 (W4 m ρ c)).main_v1).trans ((k2_4 m ρ c).main_v1.trans (at2_hidden0 m ρ c)))
    ((host_w2 (W4 m ρ c)).trans (congrArg _ ((k2_4 m ρ c).main_arg6.trans (at2_main_arg6 m ρ c))))))

/-- Region 3 leaves hidden state 3. -/
theorem val3 : W8 m ρ c (Proc.devRef .tc main_v49) = Cert.Gcn.hidden3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 3).trans ((arr3 (V7 m ρ) c).trans (Cert.Gcn.layer_congr _ _ _ _
    ((host_agg3 (W6 m ρ c)).trans (Cert.Gcn.aggregate_congr
      ((k2_6 m ρ c).main_arg1.trans (at2_main_arg1 m ρ c)) ((k2_6 m ρ c).main_arg2.trans (at2_main_arg2 m ρ c))
      ((k2_6 m ρ c).main_arg3.trans (at2_main_arg3 m ρ c)) (val2 m ρ c)))
    (((keeps_host3 (W6 m ρ c)).main_v1).trans ((k2_6 m ρ c).main_v1.trans (at2_hidden0 m ρ c)))
    ((host_w3 (W6 m ρ c)).trans (congrArg _ ((k2_6 m ρ c).main_arg6.trans (at2_main_arg6 m ρ c))))))

/-- Region 4 leaves hidden state 4. -/
theorem val4 : W10 m ρ c (Proc.devRef .tc main_v65) = Cert.Gcn.hidden4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_arr m ρ c 3).trans ((arr4 (V9 m ρ) c).trans (Cert.Gcn.layer_congr _ _ _ _
    ((host_agg4 (W8 m ρ c)).trans (Cert.Gcn.aggregate_congr
      ((k2_8 m ρ c).main_arg1.trans (at2_main_arg1 m ρ c)) ((k2_8 m ρ c).main_arg2.trans (at2_main_arg2 m ρ c))
      ((k2_8 m ρ c).main_arg3.trans (at2_main_arg3 m ρ c)) (val3 m ρ c)))
    (((keeps_host4 (W8 m ρ c)).main_v1).trans ((k2_8 m ρ c).main_v1.trans (at2_hidden0 m ρ c)))
    ((host_w4 (W8 m ρ c)).trans (congrArg _ ((k2_8 m ρ c).main_arg6.trans (at2_main_arg6 m ρ c))))))

/-- Region 5 leaves hidden state 5. -/
theorem val5 : W12 m ρ c (Proc.devRef .tc main_v81) = Cert.Gcn.hidden5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W12_arr m ρ c 3).trans ((arr5 (V11 m ρ) c).trans (Cert.Gcn.layer_congr _ _ _ _
    ((host_agg5 (W10 m ρ c)).trans (Cert.Gcn.aggregate_congr
      ((k2_10 m ρ c).main_arg1.trans (at2_main_arg1 m ρ c)) ((k2_10 m ρ c).main_arg2.trans (at2_main_arg2 m ρ c))
      ((k2_10 m ρ c).main_arg3.trans (at2_main_arg3 m ρ c)) (val4 m ρ c)))
    (((keeps_host5 (W10 m ρ c)).main_v1).trans ((k2_10 m ρ c).main_v1.trans (at2_hidden0 m ρ c)))
    ((host_w5 (W10 m ρ c)).trans (congrArg _ ((k2_10 m ρ c).main_arg6.trans (at2_main_arg6 m ρ c))))))

/-- Region 6 leaves hidden state 6. -/
theorem val6 : W14 m ρ c (Proc.devRef .tc main_v97) = Cert.Gcn.hidden6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W14_arr m ρ c 3).trans ((arr6 (V13 m ρ) c).trans (Cert.Gcn.layer_congr _ _ _ _
    ((host_agg6 (W12 m ρ c)).trans (Cert.Gcn.aggregate_congr
      ((k2_12 m ρ c).main_arg1.trans (at2_main_arg1 m ρ c)) ((k2_12 m ρ c).main_arg2.trans (at2_main_arg2 m ρ c))
      ((k2_12 m ρ c).main_arg3.trans (at2_main_arg3 m ρ c)) (val5 m ρ c)))
    (((keeps_host6 (W12 m ρ c)).main_v1).trans ((k2_12 m ρ c).main_v1.trans (at2_hidden0 m ρ c)))
    ((host_w6 (W12 m ρ c)).trans (congrArg _ ((k2_12 m ρ c).main_arg6.trans (at2_main_arg6 m ρ c))))))

/-- Region 7 leaves hidden state 7. -/
theorem val7 : W16 m ρ c (Proc.devRef .tc main_v113) = Cert.Gcn.hidden7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W16_arr m ρ c 3).trans ((arr7 (V15 m ρ) c).trans (Cert.Gcn.layer_congr _ _ _ _
    ((host_agg7 (W14 m ρ c)).trans (Cert.Gcn.aggregate_congr
      ((k2_14 m ρ c).main_arg1.trans (at2_main_arg1 m ρ c)) ((k2_14 m ρ c).main_arg2.trans (at2_main_arg2 m ρ c))
      ((k2_14 m ρ c).main_arg3.trans (at2_main_arg3 m ρ c)) (val6 m ρ c)))
    (((keeps_host7 (W14 m ρ c)).main_v1).trans ((k2_14 m ρ c).main_v1.trans (at2_hidden0 m ρ c)))
    ((host_w7 (W14 m ρ c)).trans (congrArg _ ((k2_14 m ρ c).main_arg6.trans (at2_main_arg6 m ρ c))))))

/-- Region 8 leaves hidden state 8. -/
theorem val8 : W18 m ρ c (Proc.devRef .tc main_v129) = Cert.Gcn.hidden8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W18_arr m ρ c 3).trans ((arr8 (V17 m ρ) c).trans (Cert.Gcn.layer_congr _ _ _ _
    ((host_agg8 (W16 m ρ c)).trans (Cert.Gcn.aggregate_congr
      ((k2_16 m ρ c).main_arg1.trans (at2_main_arg1 m ρ c)) ((k2_16 m ρ c).main_arg2.trans (at2_main_arg2 m ρ c))
      ((k2_16 m ρ c).main_arg3.trans (at2_main_arg3 m ρ c)) (val7 m ρ c)))
    (((keeps_host8 (W16 m ρ c)).main_v1).trans ((k2_16 m ρ c).main_v1.trans (at2_hidden0 m ρ c)))
    ((host_w8 (W16 m ρ c)).trans (congrArg _ ((k2_16 m ρ c).main_arg6.trans (at2_main_arg6 m ρ c))))))

/-! ## The output -/

/-- Region 9 leaves the network's output in the result buffer. -/
theorem result_eq : W20 m ρ c (Proc.devRef .tc main_v131)
    = Cert.Gcn.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W20_arr m ρ c 3).trans ((arr9 (V19 m ρ) c).trans (Cert.Gcn.outProj_congr
    ((host_prev9 (W18 m ρ c)).trans (val8 m ρ c))
    (((keeps_host9 (W18 m ρ c)).main_arg7).trans ((k2_18 m ρ c).main_arg7.trans (at2_main_arg7 m ρ c)))
    ((host_bias9 (W18 m ρ c)).trans
      ((congrArg (fun b => shapeCast S1x40 b shapeCasts_S40_S1x40) ((k2_18 m ρ c).main_arg8.trans (at2_main_arg8 m ρ c))).trans
        (Cert.Gcn.reshape_row _ _)))))

end Cert.KernelIdeal.Val

end
-- ==== Proof.RefCut.lean ====
/-
  The reference's 299 host operations cut into its stages.

  Running a list of operations is running a prefix and then the rest, so the run is the entry stage (7 operations), then
  for each layer the sparse aggregation (16 operations) and the dense layer (20), then the exit stage (the last 4).  The
  valuations at the cuts are named `R1 … R17`.  A buffer that none of the 299 operations writes holds at every cut what
  it held at the launch; the first hidden state, written by the entry stage only, holds after it what that stage left.
-/
import proofs.«102039_j12893491822964_1_alg».proof.Proof.RefOps
import Idealize.ShloMosaic.PureOps.Ideal

noncomputable section

namespace Cert.ReferenceIdeal.Stages

open Cert.ReferenceIdeal Cert.ReferenceIdeal.ValueP Idealize.ShloMosaic Idealize.ShloMosaic.TcCoe Idealize.ShloMosaic.StableHlo
open Idealize.SL.Sem

/-- The reference's operations at the ideal instance. -/
abbrev opsI : List (HloOp τ sig (Elt Ideal)) := ops (F := Ideal)

/-- `n` operations from position `i`. -/
abbrev seg (i n : ℕ) : List (HloOp τ sig (Elt Ideal)) := (opsI.drop i).take n

theorem after_append (l₁ l₂ : List (HloOp τ sig (Elt Ideal))) (W : Valuation τ sig (Elt Ideal)) :
    after (l₁ ++ l₂) W = after l₂ (after l₁ W) := by
  induction l₁ generalizing W with
  | nil => rfl
  | cons op l ih => exact ih _

/-- The run from position `i` is `n` operations and then the run from position `j = i + n`. -/
theorem after_from (i n j : ℕ) (hj : i + n = j) (W : Valuation τ sig (Elt Ideal)) :
    after (opsI.drop i) W = after (opsI.drop j) (after (seg i n) W) := by
  subst hj
  have h : opsI.drop i = seg i n ++ opsI.drop (i + n) := by
    rw [← List.drop_drop]; exact (List.take_append_drop n (opsI.drop i)).symm
  rw [h, after_append]

variable (W : Valuation τ sig (Elt Ideal))

/-- After the entry stage. -/
def R1 : Valuation τ sig (Elt Ideal) := after (seg 0 7) W
/-- After layer 1's aggregation. -/
def R2 : Valuation τ sig (Elt Ideal) := after (seg 7 16) (R1 W)
/-- After layer 1. -/
def R3 : Valuation τ sig (Elt Ideal) := after (seg 23 20) (R2 W)
/-- After layer 2's aggregation. -/
def R4 : Valuation τ sig (Elt Ideal) := after (seg 43 16) (R3 W)
/-- After layer 2. -/
def R5 : Valuation τ sig (Elt Ideal) := after (seg 59 20) (R4 W)
/-- After layer 3's aggregation. -/
def R6 : Valuation τ sig (Elt Ideal) := after (seg 79 16) (R5 W)
/-- After layer 3. -/
def R7 : Valuation τ sig (Elt Ideal) := after (seg 95 20) (R6 W)
/-- After layer 4's aggregation. -/
def R8 : Valuation τ sig (Elt Ideal) := after (seg 115 16) (R7 W)
/-- After layer 4. -/
def R9 : Valuation τ sig (Elt Ideal) := after (seg 131 20) (R8 W)
/-- After layer 5's aggregation. -/
def R10 : Valuation τ sig (Elt Ideal) := after (seg 151 16) (R9 W)
/-- After layer 5. -/
def R11 : Valuation τ sig (Elt Ideal) := after (seg 167 20) (R10 W)
/-- After layer 6's aggregation. -/
def R12 : Valuation τ sig (Elt Ideal) := after (seg 187 16) (R11 W)
/-- After layer 6. -/
def R13 : Valuation τ sig (Elt Ideal) := after (seg 203 20) (R12 W)
/-- After layer 7's aggregation. -/
def R14 : Valuation τ sig (Elt Ideal) := after (seg 223 16) (R13 W)
/-- After layer 7. -/
def R15 : Valuation τ sig (Elt Ideal) := after (seg 239 20) (R14 W)
/-- After layer 8's aggregation. -/
def R16 : Valuation τ sig (Elt Ideal) := after (seg 259 16) (R15 W)
/-- After layer 8. -/
def R17 : Valuation τ sig (Elt Ideal) := after (seg 275 20) (R16 W)

/-- The whole run is the exit stage run from the valuation after layer 8. -/
theorem run_split : after opsI W = after (opsI.drop 295) (R17 W) :=
  (after_from 0 7 7 rfl W).trans
    ((after_from 7 16 23 rfl (R1 W)).trans
    ((after_from 23 20 43 rfl (R2 W)).trans
    ((after_from 43 16 59 rfl (R3 W)).trans
    ((after_from 59 20 79 rfl (R4 W)).trans
    ((after_from 79 16 95 rfl (R5 W)).trans
    ((after_from 95 20 115 rfl (R6 W)).trans
    ((after_from 115 16 131 rfl (R7 W)).trans
    ((after_from 131 20 151 rfl (R8 W)).trans
    ((after_from 151 16 167 rfl (R9 W)).trans
    ((after_from 167 20 187 rfl (R10 W)).trans
    ((after_from 187 16 203 rfl (R11 W)).trans
    ((after_from 203 20 223 rfl (R12 W)).trans
    ((after_from 223 16 239 rfl (R13 W)).trans
    ((after_from 239 20 259 rfl (R14 W)).trans
    ((after_from 259 16 275 rfl (R15 W)).trans
    ((after_from 275 20 295 rfl (R16 W))))))))))))))))))

/-! ## Buffers the operations leave alone -/

/-- A buffer none of the operations writes is kept by any piece of them. -/
theorem keep_of_unwritten {b : DevRef τ sig} (h : ∀ op ∈ opsI, b ∉ op.writes) (i n : ℕ) (W' : Valuation τ sig (Elt Ideal)) :
    after (seg i n) W' b = W' b :=
  after_of_forall_not_mem _ _ fun op hop => h op (List.mem_of_mem_drop (List.mem_of_mem_take hop))

theorem keep_of_unwritten_tail {b : DevRef τ sig} (h : ∀ op ∈ opsI, b ∉ op.writes) (i : ℕ) (W' : Valuation τ sig (Elt Ideal)) :
    after (opsI.drop i) W' b = W' b :=
  after_of_forall_not_mem _ _ fun op hop => h op (List.mem_of_mem_drop hop)

/-- A buffer none of the operations after the entry stage writes is kept by any later piece. -/
theorem keep_of_unwritten_late {b : DevRef τ sig} (h : ∀ op ∈ opsI.drop 7, b ∉ op.writes) (j n : ℕ)
    (W' : Valuation τ sig (Elt Ideal)) : after (seg (7 + j) n) W' b = W' b :=
  after_of_forall_not_mem _ _ fun op hop => h op (by
    have e : opsI.drop (7 + j) = (opsI.drop 7).drop j := (List.drop_drop).symm
    exact List.mem_of_mem_drop (e ▸ List.mem_of_mem_take hop))

end Cert.ReferenceIdeal.Stages

end
-- ==== Proof.RefStages.lean ====
/-
  What each stage of the reference computes, from any buffer contents `W`.

  The entry stage is the host spelling of `max (x · W_in + b_in) 0`; a layer's first sixteen operations are the sparse
  aggregation of the previous hidden state and its last twenty the host spelling of one layer of that aggregate, of the
  first hidden state and of a slice of the layer weights; the last four operations are the host spelling of the output
  projection.
-/
import proofs.«102039_j12893491822964_1_alg».proof.Proof.RefCut
import proofs.«102039_j12893491822964_1_alg».proof.Proof.Network

noncomputable section

namespace Cert.ReferenceIdeal.Stages

open Cert.ReferenceIdeal Cert.ReferenceIdeal.Gen Cert.ReferenceIdeal.ValueP Idealize.ShloMosaic Idealize.ShloMosaic.TcCoe Idealize.ShloMosaic.StableHlo
open Idealize.SL.Sem

/-- A piece of the operation list as a literal list. -/
macro "cut_ops" : tactic => `(tactic| simp only [seg, opsI, ops, List.drop_succ_cons, List.drop_zero, List.take_succ_cons, List.take_zero])

variable (W : Valuation τ sig (Elt Ideal))

theorem ref_entry : after (seg 0 7) W (Proc.devRef .tc main_v4)
    = Cert.Gcn.hostEntry dot_S50000x128_S128x64_S50000x64_1_0_0_1_n_n bcast_S64_S1x64_1 bcast_S1x64_S50000x64_0_1 bcast_S_S50000x64
        (W (Proc.devRef .tc main_arg0)) (W (Proc.devRef .tc main_arg4)) (W (Proc.devRef .tc main_arg5)) := by
  cut_ops
  after_results
  rfl

set_option maxHeartbeats 2000000 in
theorem ref_agg1 : after (seg 7 16) W (Proc.devRef .tc main_v17)
    = Cert.Gcn.aggregate (W (Proc.devRef .tc main_arg1)) (W (Proc.devRef .tc main_arg2)) (W (Proc.devRef .tc main_arg3))
        (W (Proc.devRef .tc main_v4)) := by
  cut_ops
  after_results_simp <;> rfl

set_option maxHeartbeats 2000000 in
theorem ref_dense1 : after (seg 23 20) W (Proc.devRef .tc main_v31)
    = Cert.Gcn.hostLayer 0x3F666666#32 0x3DCCCCCD#32 0x3F183370#32 0x3ECF991F#32 dot_S50000x64_S64x64_S50000x64_1_0_0_1_n_n bcast_S_S50000x64
        (W (Proc.devRef .tc main_v17)) (W (Proc.devRef .tc main_v4)) (Cert.Gcn.wslice0 (W (Proc.devRef .tc main_arg6))) := by
  cut_ops
  after_results_simp <;> rfl

set_option maxHeartbeats 2000000 in
theorem ref_agg2 : after (seg 43 16) W (Proc.devRef .tc main_v44)
    = Cert.Gcn.aggregate (W (Proc.devRef .tc main_arg1)) (W (Proc.devRef .tc main_arg2)) (W (Proc.devRef .tc main_arg3))
        (W (Proc.devRef .tc main_v31)) := by
  cut_ops
  after_results_simp <;> rfl

set_option maxHeartbeats 2000000 in
theorem ref_dense2 : after (seg 59 20) W (Proc.devRef .tc main_v58)
    = Cert.Gcn.hostLayer 0x3F666666#32 0x3DCCCCCD#32 0x3F46E010#32 0x3E647FBE#32 dot_S50000x64_S64x64_S50000x64_1_0_0_1_n_n bcast_S_S50000x64
        (W (Proc.devRef .tc main_v44)) (W (Proc.devRef .tc main_v4)) (Cert.Gcn.wslice1 (W (Proc.devRef .tc main_arg6))) := by
  cut_ops
  after_results_simp <;> rfl

set_option maxHeartbeats 2000000 in
theorem ref_agg3 : after (seg 79 16) W (Proc.devRef .tc main_v71)
    = Cert.Gcn.aggregate (W (Proc.devRef .tc main_arg1)) (W (Proc.devRef .tc main_arg2)) (W (Proc.devRef .tc main_arg3))
        (W (Proc.devRef .tc main_v58)) := by
  cut_ops
  after_results_simp <;> rfl

set_option maxHeartbeats 2000000 in
theorem ref_dense3 : after (seg 95 20) W (Proc.devRef .tc main_v85)
    = Cert.Gcn.hostLayer 0x3F666666#32 0x3DCCCCCD#32 0x3F588995#32 0x3E1DD9AD#32 dot_S50000x64_S64x64_S50000x64_1_0_0_1_n_n bcast_S_S50000x64
        (W (Proc.devRef .tc main_v71)) (W (Proc.devRef .tc main_v4)) (Cert.Gcn.wslice2 (W (Proc.devRef .tc main_arg6))) := by
  cut_ops
  after_results_simp <;> rfl

set_option maxHeartbeats 2000000 in
theorem ref_agg4 : after (seg 115 16) W (Proc.devRef .tc main_v98)
    = Cert.Gcn.aggregate (W (Proc.devRef .tc main_arg1)) (W (Proc.devRef .tc main_arg2)) (W (Proc.devRef .tc main_arg3))
        (W (Proc.devRef .tc main_v85)) := by
  cut_ops
  after_results_simp <;> rfl

set_option maxHeartbeats 2000000 in
theorem ref_dense4 : after (seg 131 20) W (Proc.devRef .tc main_v112)
    = Cert.Gcn.hostLayer 0x3F666666#32 0x3DCCCCCD#32 0x3F61D8F9#32 0x3DF1383B#32 dot_S50000x64_S64x64_S50000x64_1_0_0_1_n_n bcast_S_S50000x64
        (W (Proc.devRef .tc main_v98)) (W (Proc.devRef .tc main_v4)) (Cert.Gcn.wslice3 (W (Proc.devRef .tc main_arg6))) := by
  cut_ops
  after_results_simp <;> rfl

set_option maxHeartbeats 2000000 in
theorem ref_agg5 : after (seg 151 16) W (Proc.devRef .tc main_v125)
    = Cert.Gcn.aggregate (W (Proc.devRef .tc main_arg1)) (W (Proc.devRef .tc main_arg2)) (W (Proc.devRef .tc main_arg3))
        (W (Proc.devRef .tc main_v112)) := by
  cut_ops
  after_results_simp <;> rfl

set_option maxHeartbeats 2000000 in
theorem ref_dense5 : after (seg 167 20) W (Proc.devRef .tc main_v139)
    = Cert.Gcn.hostLayer 0x3F666666#32 0x3DCCCCCD#32 0x3F6799C1#32 0x3DC331FC#32 dot_S50000x64_S64x64_S50000x64_1_0_0_1_n_n bcast_S_S50000x64
        (W (Proc.devRef .tc main_v125)) (W (Proc.devRef .tc main_v4)) (Cert.Gcn.wslice4 (W (Proc.devRef .tc main_arg6))) := by
  cut_ops
  after_results_simp <;> rfl

set_option maxHeartbeats 2000000 in
theorem ref_agg6 : after (seg 187 16) W (Proc.devRef .tc main_v152)
    = Cert.Gcn.aggregate (W (Proc.devRef .tc main_arg1)) (W (Proc.devRef .tc main_arg2)) (W (Proc.devRef .tc main_arg3))
        (W (Proc.devRef .tc main_v139)) := by
  cut_ops
  after_results_simp <;> rfl

set_option maxHeartbeats 2000000 in
theorem ref_dense6 : after (seg 203 20) W (Proc.devRef .tc main_v166)
    = Cert.Gcn.hostLayer 0x3F666666#32 0x3DCCCCCD#32 0x3F6B8252#32 0x3DA3ED6E#32 dot_S50000x64_S64x64_S50000x64_1_0_0_1_n_n bcast_S_S50000x64
        (W (Proc.devRef .tc main_v152)) (W (Proc.devRef .tc main_v4)) (Cert.Gcn.wslice5 (W (Proc.devRef .tc main_arg6))) := by
  cut_ops
  after_results_simp <;> rfl

set_option maxHeartbeats 2000000 in
theorem ref_agg7 : after (seg 223 16) W (Proc.devRef .tc main_v179)
    = Cert.Gcn.aggregate (W (Proc.devRef .tc main_arg1)) (W (Proc.devRef .tc main_arg2)) (W (Proc.devRef .tc main_arg3))
        (W (Proc.devRef .tc main_v166)) := by
  cut_ops
  after_results_simp <;> rfl

set_option maxHeartbeats 2000000 in
theorem ref_dense7 : after (seg 239 20) W (Proc.devRef .tc main_v193)
    = Cert.Gcn.hostLayer 0x3F666666#32 0x3DCCCCCD#32 0x3F6E567C#32 0x3D8D4C22#32 dot_S50000x64_S64x64_S50000x64_1_0_0_1_n_n bcast_S_S50000x64
        (W (Proc.devRef .tc main_v179)) (W (Proc.devRef .tc main_v4)) (Cert.Gcn.wslice6 (W (Proc.devRef .tc main_arg6))) := by
  cut_ops
  after_results_simp <;> rfl

set_option maxHeartbeats 2000000 in
theorem ref_agg8 : after (seg 259 16) W (Proc.devRef .tc main_v206)
    = Cert.Gcn.aggregate (W (Proc.devRef .tc main_arg1)) (W (Proc.devRef .tc main_arg2)) (W (Proc.devRef .tc main_arg3))
        (W (Proc.devRef .tc main_v193)) := by
  cut_ops
  after_results_simp <;> rfl

set_option maxHeartbeats 2000000 in
theorem ref_dense8 : after (seg 275 20) W (Proc.devRef .tc main_v220)
    = Cert.Gcn.hostLayer 0x3F666666#32 0x3DCCCCCD#32 0x3F707AE8#32 0x3D785186#32 dot_S50000x64_S64x64_S50000x64_1_0_0_1_n_n bcast_S_S50000x64
        (W (Proc.devRef .tc main_v206)) (W (Proc.devRef .tc main_v4)) (Cert.Gcn.wslice7 (W (Proc.devRef .tc main_arg6))) := by
  cut_ops
  after_results_simp <;> rfl

theorem ref_exit : after (opsI.drop 295) W (Proc.devRef .tc main_v224)
    = Cert.Gcn.hostOut dot_S50000x64_S64x40_S50000x40_1_0_0_1_n_n bcast_S40_S1x40_1 bcast_S1x40_S50000x40_0_1
        (W (Proc.devRef .tc main_v220)) (W (Proc.devRef .tc main_arg7)) (W (Proc.devRef .tc main_arg8)) := by
  simp only [opsI, ops, List.drop_succ_cons, List.drop_zero]
  after_results
  rfl

end Cert.ReferenceIdeal.Stages

end
-- ==== Proof.RefKeepA.lean ====
/-
  The reference never writes its arguments: each of its 299 operations
  writes its own result buffer.
-/
import proofs.«102039_j12893491822964_1_alg».proof.Proof.RefCut

noncomputable section

namespace Cert.ReferenceIdeal.Stages

open Cert.ReferenceIdeal Cert.ReferenceIdeal.ValueP Idealize.ShloMosaic Idealize.ShloMosaic.TcCoe Idealize.ShloMosaic.StableHlo
open Idealize.SL.Sem

/-- No operation of the list writes the buffer: each operation writes one buffer, and it is another one. -/
macro "unwritten" : tactic => `(tactic| (
  refine List.forall_iff_forall_mem.mp ?_
  simp only [opsI, ops, List.drop_succ_cons, List.drop_zero, List.Forall, nullary_writes, unary_writes, binary_writes,
    ternary_writes, reshape_writes, Finset.mem_singleton]
  repeat' apply And.intro
  all_goals exact devRef_ne_of_ne (by decide)))

set_option maxRecDepth 8192 in
set_option maxHeartbeats 4000000 in
theorem uw_arg0 : ∀ op ∈ opsI, Proc.devRef (τ := τ) .tc main_arg0 ∉ op.writes := by unwritten

set_option maxRecDepth 8192 in
set_option maxHeartbeats 4000000 in
theorem uw_arg1 : ∀ op ∈ opsI, Proc.devRef (τ := τ) .tc main_arg1 ∉ op.writes := by unwritten

set_option maxRecDepth 8192 in
set_option maxHeartbeats 4000000 in
theorem uw_arg2 : ∀ op ∈ opsI, Proc.devRef (τ := τ) .tc main_arg2 ∉ op.writes := by unwritten

set_option maxRecDepth 8192 in
set_option maxHeartbeats 4000000 in
theorem uw_arg3 : ∀ op ∈ opsI, Proc.devRef (τ := τ) .tc main_arg3 ∉ op.writes := by unwritten

set_option maxRecDepth 8192 in
set_option maxHeartbeats 4000000 in
theorem uw_arg4 : ∀ op ∈ opsI, Proc.devRef (τ := τ) .tc main_arg4 ∉ op.writes := by unwritten

end Cert.ReferenceIdeal.Stages

end
-- ==== Proof.RefKeepB.lean ====
/-
  The reference never writes its arguments, and writes the first hidden state in its entry stage only: each of its 299 operations
  writes its own result buffer.
-/
import proofs.«102039_j12893491822964_1_alg».proof.Proof.RefKeepA

noncomputable section

namespace Cert.ReferenceIdeal.Stages

open Cert.ReferenceIdeal Cert.ReferenceIdeal.ValueP Idealize.ShloMosaic Idealize.ShloMosaic.TcCoe Idealize.ShloMosaic.StableHlo
open Idealize.SL.Sem

set_option maxRecDepth 8192 in
set_option maxHeartbeats 4000000 in
theorem uw_arg5 : ∀ op ∈ opsI, Proc.devRef (τ := τ) .tc main_arg5 ∉ op.writes := by unwritten

set_option maxRecDepth 8192 in
set_option maxHeartbeats 4000000 in
theorem uw_arg6 : ∀ op ∈ opsI, Proc.devRef (τ := τ) .tc main_arg6 ∉ op.writes := by unwritten

set_option maxRecDepth 8192 in
set_option maxHeartbeats 4000000 in
theorem uw_arg7 : ∀ op ∈ opsI, Proc.devRef (τ := τ) .tc main_arg7 ∉ op.writes := by unwritten

set_option maxRecDepth 8192 in
set_option maxHeartbeats 4000000 in
theorem uw_arg8 : ∀ op ∈ opsI, Proc.devRef (τ := τ) .tc main_arg8 ∉ op.writes := by unwritten

set_option maxRecDepth 8192 in
set_option maxHeartbeats 4000000 in
theorem uw_hidden0_late : ∀ op ∈ opsI.drop 7, Proc.devRef (τ := τ) .tc main_v4 ∉ op.writes := by unwritten

end Cert.ReferenceIdeal.Stages

end
-- ==== Proof.RefRun.lean ====
/-
  The reference's run, with its result at the network's output.

  At every cut the edge arrays, the weights and the exit bias are the launch contents, and after the entry stage the first
  hidden state stays what that stage left.  So the entry stage leaves `hidden0`; layer `l`'s aggregation aggregates
  `hidden_(l-1)` and its dense part leaves `hidden_l` (the host spelling of a layer is the layer entry by entry); the last
  four operations leave the output.  The arguments are never written.
-/
import proofs.«102039_j12893491822964_1_alg».proof.Proof.RefStages
import proofs.«102039_j12893491822964_1_alg».proof.Proof.RefKeepA
import proofs.«102039_j12893491822964_1_alg».proof.Proof.RefKeepB

noncomputable section

namespace Cert.ReferenceIdeal.Stages

open Cert.ReferenceIdeal Cert.ReferenceIdeal.ValueP Idealize.ShloMosaic Idealize.ShloMosaic.TcCoe Idealize.ShloMosaic.StableHlo
open Idealize.SL.Sem

variable (W : Valuation τ sig (Elt Ideal))

/-! ## The arguments and the first hidden state at the cuts -/
theorem R1_arg1 : R1 W (Proc.devRef .tc main_arg1) = W (Proc.devRef .tc main_arg1) :=
  keep_of_unwritten uw_arg1 0 7 W
theorem R2_arg1 : R2 W (Proc.devRef .tc main_arg1) = W (Proc.devRef .tc main_arg1) :=
  (keep_of_unwritten uw_arg1 7 16 (R1 W)).trans (R1_arg1 W)
theorem R3_arg1 : R3 W (Proc.devRef .tc main_arg1) = W (Proc.devRef .tc main_arg1) :=
  (keep_of_unwritten uw_arg1 23 20 (R2 W)).trans (R2_arg1 W)
theorem R4_arg1 : R4 W (Proc.devRef .tc main_arg1) = W (Proc.devRef .tc main_arg1) :=
  (keep_of_unwritten uw_arg1 43 16 (R3 W)).trans (R3_arg1 W)
theorem R5_arg1 : R5 W (Proc.devRef .tc main_arg1) = W (Proc.devRef .tc main_arg1) :=
  (keep_of_unwritten uw_arg1 59 20 (R4 W)).trans (R4_arg1 W)
theorem R6_arg1 : R6 W (Proc.devRef .tc main_arg1) = W (Proc.devRef .tc main_arg1) :=
  (keep_of_unwritten uw_arg1 79 16 (R5 W)).trans (R5_arg1 W)
theorem R7_arg1 : R7 W (Proc.devRef .tc main_arg1) = W (Proc.devRef .tc main_arg1) :=
  (keep_of_unwritten uw_arg1 95 20 (R6 W)).trans (R6_arg1 W)
theorem R8_arg1 : R8 W (Proc.devRef .tc main_arg1) = W (Proc.devRef .tc main_arg1) :=
  (keep_of_unwritten uw_arg1 115 16 (R7 W)).trans (R7_arg1 W)
theorem R9_arg1 : R9 W (Proc.devRef .tc main_arg1) = W (Proc.devRef .tc main_arg1) :=
  (keep_of_unwritten uw_arg1 131 20 (R8 W)).trans (R8_arg1 W)
theorem R10_arg1 : R10 W (Proc.devRef .tc main_arg1) = W (Proc.devRef .tc main_arg1) :=
  (keep_of_unwritten uw_arg1 151 16 (R9 W)).trans (R9_arg1 W)
theorem R11_arg1 : R11 W (Proc.devRef .tc main_arg1) = W (Proc.devRef .tc main_arg1) :=
  (keep_of_unwritten uw_arg1 167 20 (R10 W)).trans (R10_arg1 W)
theorem R12_arg1 : R12 W (Proc.devRef .tc main_arg1) = W (Proc.devRef .tc main_arg1) :=
  (keep_of_unwritten uw_arg1 187 16 (R11 W)).trans (R11_arg1 W)
theorem R13_arg1 : R13 W (Proc.devRef .tc main_arg1) = W (Proc.devRef .tc main_arg1) :=
  (keep_of_unwritten uw_arg1 203 20 (R12 W)).trans (R12_arg1 W)
theorem R14_arg1 : R14 W (Proc.devRef .tc main_arg1) = W (Proc.devRef .tc main_arg1) :=
  (keep_of_unwritten uw_arg1 223 16 (R13 W)).trans (R13_arg1 W)
theorem R15_arg1 : R15 W (Proc.devRef .tc main_arg1) = W (Proc.devRef .tc main_arg1) :=
  (keep_of_unwritten uw_arg1 239 20 (R14 W)).trans (R14_arg1 W)
theorem R16_arg1 : R16 W (Proc.devRef .tc main_arg1) = W (Proc.devRef .tc main_arg1) :=
  (keep_of_unwritten uw_arg1 259 16 (R15 W)).trans (R15_arg1 W)
theorem R17_arg1 : R17 W (Proc.devRef .tc main_arg1) = W (Proc.devRef .tc main_arg1) :=
  (keep_of_unwritten uw_arg1 275 20 (R16 W)).trans (R16_arg1 W)
theorem R1_arg2 : R1 W (Proc.devRef .tc main_arg2) = W (Proc.devRef .tc main_arg2) :=
  keep_of_unwritten uw_arg2 0 7 W
theorem R2_arg2 : R2 W (Proc.devRef .tc main_arg2) = W (Proc.devRef .tc main_arg2) :=
  (keep_of_unwritten uw_arg2 7 16 (R1 W)).trans (R1_arg2 W)
theorem R3_arg2 : R3 W (Proc.devRef .tc main_arg2) = W (Proc.devRef .tc main_arg2) :=
  (keep_of_unwritten uw_arg2 23 20 (R2 W)).trans (R2_arg2 W)
theorem R4_arg2 : R4 W (Proc.devRef .tc main_arg2) = W (Proc.devRef .tc main_arg2) :=
  (keep_of_unwritten uw_arg2 43 16 (R3 W)).trans (R3_arg2 W)
theorem R5_arg2 : R5 W (Proc.devRef .tc main_arg2) = W (Proc.devRef .tc main_arg2) :=
  (keep_of_unwritten uw_arg2 59 20 (R4 W)).trans (R4_arg2 W)
theorem R6_arg2 : R6 W (Proc.devRef .tc main_arg2) = W (Proc.devRef .tc main_arg2) :=
  (keep_of_unwritten uw_arg2 79 16 (R5 W)).trans (R5_arg2 W)
theorem R7_arg2 : R7 W (Proc.devRef .tc main_arg2) = W (Proc.devRef .tc main_arg2) :=
  (keep_of_unwritten uw_arg2 95 20 (R6 W)).trans (R6_arg2 W)
theorem R8_arg2 : R8 W (Proc.devRef .tc main_arg2) = W (Proc.devRef .tc main_arg2) :=
  (keep_of_unwritten uw_arg2 115 16 (R7 W)).trans (R7_arg2 W)
theorem R9_arg2 : R9 W (Proc.devRef .tc main_arg2) = W (Proc.devRef .tc main_arg2) :=
  (keep_of_unwritten uw_arg2 131 20 (R8 W)).trans (R8_arg2 W)
theorem R10_arg2 : R10 W (Proc.devRef .tc main_arg2) = W (Proc.devRef .tc main_arg2) :=
  (keep_of_unwritten uw_arg2 151 16 (R9 W)).trans (R9_arg2 W)
theorem R11_arg2 : R11 W (Proc.devRef .tc main_arg2) = W (Proc.devRef .tc main_arg2) :=
  (keep_of_unwritten uw_arg2 167 20 (R10 W)).trans (R10_arg2 W)
theorem R12_arg2 : R12 W (Proc.devRef .tc main_arg2) = W (Proc.devRef .tc main_arg2) :=
  (keep_of_unwritten uw_arg2 187 16 (R11 W)).trans (R11_arg2 W)
theorem R13_arg2 : R13 W (Proc.devRef .tc main_arg2) = W (Proc.devRef .tc main_arg2) :=
  (keep_of_unwritten uw_arg2 203 20 (R12 W)).trans (R12_arg2 W)
theorem R14_arg2 : R14 W (Proc.devRef .tc main_arg2) = W (Proc.devRef .tc main_arg2) :=
  (keep_of_unwritten uw_arg2 223 16 (R13 W)).trans (R13_arg2 W)
theorem R15_arg2 : R15 W (Proc.devRef .tc main_arg2) = W (Proc.devRef .tc main_arg2) :=
  (keep_of_unwritten uw_arg2 239 20 (R14 W)).trans (R14_arg2 W)
theorem R16_arg2 : R16 W (Proc.devRef .tc main_arg2) = W (Proc.devRef .tc main_arg2) :=
  (keep_of_unwritten uw_arg2 259 16 (R15 W)).trans (R15_arg2 W)
theorem R17_arg2 : R17 W (Proc.devRef .tc main_arg2) = W (Proc.devRef .tc main_arg2) :=
  (keep_of_unwritten uw_arg2 275 20 (R16 W)).trans (R16_arg2 W)
theorem R1_arg3 : R1 W (Proc.devRef .tc main_arg3) = W (Proc.devRef .tc main_arg3) :=
  keep_of_unwritten uw_arg3 0 7 W
theorem R2_arg3 : R2 W (Proc.devRef .tc main_arg3) = W (Proc.devRef .tc main_arg3) :=
  (keep_of_unwritten uw_arg3 7 16 (R1 W)).trans (R1_arg3 W)
theorem R3_arg3 : R3 W (Proc.devRef .tc main_arg3) = W (Proc.devRef .tc main_arg3) :=
  (keep_of_unwritten uw_arg3 23 20 (R2 W)).trans (R2_arg3 W)
theorem R4_arg3 : R4 W (Proc.devRef .tc main_arg3) = W (Proc.devRef .tc main_arg3) :=
  (keep_of_unwritten uw_arg3 43 16 (R3 W)).trans (R3_arg3 W)
theorem R5_arg3 : R5 W (Proc.devRef .tc main_arg3) = W (Proc.devRef .tc main_arg3) :=
  (keep_of_unwritten uw_arg3 59 20 (R4 W)).trans (R4_arg3 W)
theorem R6_arg3 : R6 W (Proc.devRef .tc main_arg3) = W (Proc.devRef .tc main_arg3) :=
  (keep_of_unwritten uw_arg3 79 16 (R5 W)).trans (R5_arg3 W)
theorem R7_arg3 : R7 W (Proc.devRef .tc main_arg3) = W (Proc.devRef .tc main_arg3) :=
  (keep_of_unwritten uw_arg3 95 20 (R6 W)).trans (R6_arg3 W)
theorem R8_arg3 : R8 W (Proc.devRef .tc main_arg3) = W (Proc.devRef .tc main_arg3) :=
  (keep_of_unwritten uw_arg3 115 16 (R7 W)).trans (R7_arg3 W)
theorem R9_arg3 : R9 W (Proc.devRef .tc main_arg3) = W (Proc.devRef .tc main_arg3) :=
  (keep_of_unwritten uw_arg3 131 20 (R8 W)).trans (R8_arg3 W)
theorem R10_arg3 : R10 W (Proc.devRef .tc main_arg3) = W (Proc.devRef .tc main_arg3) :=
  (keep_of_unwritten uw_arg3 151 16 (R9 W)).trans (R9_arg3 W)
theorem R11_arg3 : R11 W (Proc.devRef .tc main_arg3) = W (Proc.devRef .tc main_arg3) :=
  (keep_of_unwritten uw_arg3 167 20 (R10 W)).trans (R10_arg3 W)
theorem R12_arg3 : R12 W (Proc.devRef .tc main_arg3) = W (Proc.devRef .tc main_arg3) :=
  (keep_of_unwritten uw_arg3 187 16 (R11 W)).trans (R11_arg3 W)
theorem R13_arg3 : R13 W (Proc.devRef .tc main_arg3) = W (Proc.devRef .tc main_arg3) :=
  (keep_of_unwritten uw_arg3 203 20 (R12 W)).trans (R12_arg3 W)
theorem R14_arg3 : R14 W (Proc.devRef .tc main_arg3) = W (Proc.devRef .tc main_arg3) :=
  (keep_of_unwritten uw_arg3 223 16 (R13 W)).trans (R13_arg3 W)
theorem R15_arg3 : R15 W (Proc.devRef .tc main_arg3) = W (Proc.devRef .tc main_arg3) :=
  (keep_of_unwritten uw_arg3 239 20 (R14 W)).trans (R14_arg3 W)
theorem R16_arg3 : R16 W (Proc.devRef .tc main_arg3) = W (Proc.devRef .tc main_arg3) :=
  (keep_of_unwritten uw_arg3 259 16 (R15 W)).trans (R15_arg3 W)
theorem R17_arg3 : R17 W (Proc.devRef .tc main_arg3) = W (Proc.devRef .tc main_arg3) :=
  (keep_of_unwritten uw_arg3 275 20 (R16 W)).trans (R16_arg3 W)
theorem R1_arg6 : R1 W (Proc.devRef .tc main_arg6) = W (Proc.devRef .tc main_arg6) :=
  keep_of_unwritten uw_arg6 0 7 W
theorem R2_arg6 : R2 W (Proc.devRef .tc main_arg6) = W (Proc.devRef .tc main_arg6) :=
  (keep_of_unwritten uw_arg6 7 16 (R1 W)).trans (R1_arg6 W)
theorem R3_arg6 : R3 W (Proc.devRef .tc main_arg6) = W (Proc.devRef .tc main_arg6) :=
  (keep_of_unwritten uw_arg6 23 20 (R2 W)).trans (R2_arg6 W)
theorem R4_arg6 : R4 W (Proc.devRef .tc main_arg6) = W (Proc.devRef .tc main_arg6) :=
  (keep_of_unwritten uw_arg6 43 16 (R3 W)).trans (R3_arg6 W)
theorem R5_arg6 : R5 W (Proc.devRef .tc main_arg6) = W (Proc.devRef .tc main_arg6) :=
  (keep_of_unwritten uw_arg6 59 20 (R4 W)).trans (R4_arg6 W)
theorem R6_arg6 : R6 W (Proc.devRef .tc main_arg6) = W (Proc.devRef .tc main_arg6) :=
  (keep_of_unwritten uw_arg6 79 16 (R5 W)).trans (R5_arg6 W)
theorem R7_arg6 : R7 W (Proc.devRef .tc main_arg6) = W (Proc.devRef .tc main_arg6) :=
  (keep_of_unwritten uw_arg6 95 20 (R6 W)).trans (R6_arg6 W)
theorem R8_arg6 : R8 W (Proc.devRef .tc main_arg6) = W (Proc.devRef .tc main_arg6) :=
  (keep_of_unwritten uw_arg6 115 16 (R7 W)).trans (R7_arg6 W)
theorem R9_arg6 : R9 W (Proc.devRef .tc main_arg6) = W (Proc.devRef .tc main_arg6) :=
  (keep_of_unwritten uw_arg6 131 20 (R8 W)).trans (R8_arg6 W)
theorem R10_arg6 : R10 W (Proc.devRef .tc main_arg6) = W (Proc.devRef .tc main_arg6) :=
  (keep_of_unwritten uw_arg6 151 16 (R9 W)).trans (R9_arg6 W)
theorem R11_arg6 : R11 W (Proc.devRef .tc main_arg6) = W (Proc.devRef .tc main_arg6) :=
  (keep_of_unwritten uw_arg6 167 20 (R10 W)).trans (R10_arg6 W)
theorem R12_arg6 : R12 W (Proc.devRef .tc main_arg6) = W (Proc.devRef .tc main_arg6) :=
  (keep_of_unwritten uw_arg6 187 16 (R11 W)).trans (R11_arg6 W)
theorem R13_arg6 : R13 W (Proc.devRef .tc main_arg6) = W (Proc.devRef .tc main_arg6) :=
  (keep_of_unwritten uw_arg6 203 20 (R12 W)).trans (R12_arg6 W)
theorem R14_arg6 : R14 W (Proc.devRef .tc main_arg6) = W (Proc.devRef .tc main_arg6) :=
  (keep_of_unwritten uw_arg6 223 16 (R13 W)).trans (R13_arg6 W)
theorem R15_arg6 : R15 W (Proc.devRef .tc main_arg6) = W (Proc.devRef .tc main_arg6) :=
  (keep_of_unwritten uw_arg6 239 20 (R14 W)).trans (R14_arg6 W)
theorem R16_arg6 : R16 W (Proc.devRef .tc main_arg6) = W (Proc.devRef .tc main_arg6) :=
  (keep_of_unwritten uw_arg6 259 16 (R15 W)).trans (R15_arg6 W)
theorem R17_arg6 : R17 W (Proc.devRef .tc main_arg6) = W (Proc.devRef .tc main_arg6) :=
  (keep_of_unwritten uw_arg6 275 20 (R16 W)).trans (R16_arg6 W)
theorem R1_arg7 : R1 W (Proc.devRef .tc main_arg7) = W (Proc.devRef .tc main_arg7) :=
  keep_of_unwritten uw_arg7 0 7 W
theorem R2_arg7 : R2 W (Proc.devRef .tc main_arg7) = W (Proc.devRef .tc main_arg7) :=
  (keep_of_unwritten uw_arg7 7 16 (R1 W)).trans (R1_arg7 W)
theorem R3_arg7 : R3 W (Proc.devRef .tc main_arg7) = W (Proc.devRef .tc main_arg7) :=
  (keep_of_unwritten uw_arg7 23 20 (R2 W)).trans (R2_arg7 W)
theorem R4_arg7 : R4 W (Proc.devRef .tc main_arg7) = W (Proc.devRef .tc main_arg7) :=
  (keep_of_unwritten uw_arg7 43 16 (R3 W)).trans (R3_arg7 W)
theorem R5_arg7 : R5 W (Proc.devRef .tc main_arg7) = W (Proc.devRef .tc main_arg7) :=
  (keep_of_unwritten uw_arg7 59 20 (R4 W)).trans (R4_arg7 W)
theorem R6_arg7 : R6 W (Proc.devRef .tc main_arg7) = W (Proc.devRef .tc main_arg7) :=
  (keep_of_unwritten uw_arg7 79 16 (R5 W)).trans (R5_arg7 W)
theorem R7_arg7 : R7 W (Proc.devRef .tc main_arg7) = W (Proc.devRef .tc main_arg7) :=
  (keep_of_unwritten uw_arg7 95 20 (R6 W)).trans (R6_arg7 W)
theorem R8_arg7 : R8 W (Proc.devRef .tc main_arg7) = W (Proc.devRef .tc main_arg7) :=
  (keep_of_unwritten uw_arg7 115 16 (R7 W)).trans (R7_arg7 W)
theorem R9_arg7 : R9 W (Proc.devRef .tc main_arg7) = W (Proc.devRef .tc main_arg7) :=
  (keep_of_unwritten uw_arg7 131 20 (R8 W)).trans (R8_arg7 W)
theorem R10_arg7 : R10 W (Proc.devRef .tc main_arg7) = W (Proc.devRef .tc main_arg7) :=
  (keep_of_unwritten uw_arg7 151 16 (R9 W)).trans (R9_arg7 W)
theorem R11_arg7 : R11 W (Proc.devRef .tc main_arg7) = W (Proc.devRef .tc main_arg7) :=
  (keep_of_unwritten uw_arg7 167 20 (R10 W)).trans (R10_arg7 W)
theorem R12_arg7 : R12 W (Proc.devRef .tc main_arg7) = W (Proc.devRef .tc main_arg7) :=
  (keep_of_unwritten uw_arg7 187 16 (R11 W)).trans (R11_arg7 W)
theorem R13_arg7 : R13 W (Proc.devRef .tc main_arg7) = W (Proc.devRef .tc main_arg7) :=
  (keep_of_unwritten uw_arg7 203 20 (R12 W)).trans (R12_arg7 W)
theorem R14_arg7 : R14 W (Proc.devRef .tc main_arg7) = W (Proc.devRef .tc main_arg7) :=
  (keep_of_unwritten uw_arg7 223 16 (R13 W)).trans (R13_arg7 W)
theorem R15_arg7 : R15 W (Proc.devRef .tc main_arg7) = W (Proc.devRef .tc main_arg7) :=
  (keep_of_unwritten uw_arg7 239 20 (R14 W)).trans (R14_arg7 W)
theorem R16_arg7 : R16 W (Proc.devRef .tc main_arg7) = W (Proc.devRef .tc main_arg7) :=
  (keep_of_unwritten uw_arg7 259 16 (R15 W)).trans (R15_arg7 W)
theorem R17_arg7 : R17 W (Proc.devRef .tc main_arg7) = W (Proc.devRef .tc main_arg7) :=
  (keep_of_unwritten uw_arg7 275 20 (R16 W)).trans (R16_arg7 W)
theorem R1_arg8 : R1 W (Proc.devRef .tc main_arg8) = W (Proc.devRef .tc main_arg8) :=
  keep_of_unwritten uw_arg8 0 7 W
theorem R2_arg8 : R2 W (Proc.devRef .tc main_arg8) = W (Proc.devRef .tc main_arg8) :=
  (keep_of_unwritten uw_arg8 7 16 (R1 W)).trans (R1_arg8 W)
theorem R3_arg8 : R3 W (Proc.devRef .tc main_arg8) = W (Proc.devRef .tc main_arg8) :=
  (keep_of_unwritten uw_arg8 23 20 (R2 W)).trans (R2_arg8 W)
theorem R4_arg8 : R4 W (Proc.devRef .tc main_arg8) = W (Proc.devRef .tc main_arg8) :=
  (keep_of_unwritten uw_arg8 43 16 (R3 W)).trans (R3_arg8 W)
theorem R5_arg8 : R5 W (Proc.devRef .tc main_arg8) = W (Proc.devRef .tc main_arg8) :=
  (keep_of_unwritten uw_arg8 59 20 (R4 W)).trans (R4_arg8 W)
theorem R6_arg8 : R6 W (Proc.devRef .tc main_arg8) = W (Proc.devRef .tc main_arg8) :=
  (keep_of_unwritten uw_arg8 79 16 (R5 W)).trans (R5_arg8 W)
theorem R7_arg8 : R7 W (Proc.devRef .tc main_arg8) = W (Proc.devRef .tc main_arg8) :=
  (keep_of_unwritten uw_arg8 95 20 (R6 W)).trans (R6_arg8 W)
theorem R8_arg8 : R8 W (Proc.devRef .tc main_arg8) = W (Proc.devRef .tc main_arg8) :=
  (keep_of_unwritten uw_arg8 115 16 (R7 W)).trans (R7_arg8 W)
theorem R9_arg8 : R9 W (Proc.devRef .tc main_arg8) = W (Proc.devRef .tc main_arg8) :=
  (keep_of_unwritten uw_arg8 131 20 (R8 W)).trans (R8_arg8 W)
theorem R10_arg8 : R10 W (Proc.devRef .tc main_arg8) = W (Proc.devRef .tc main_arg8) :=
  (keep_of_unwritten uw_arg8 151 16 (R9 W)).trans (R9_arg8 W)
theorem R11_arg8 : R11 W (Proc.devRef .tc main_arg8) = W (Proc.devRef .tc main_arg8) :=
  (keep_of_unwritten uw_arg8 167 20 (R10 W)).trans (R10_arg8 W)
theorem R12_arg8 : R12 W (Proc.devRef .tc main_arg8) = W (Proc.devRef .tc main_arg8) :=
  (keep_of_unwritten uw_arg8 187 16 (R11 W)).trans (R11_arg8 W)
theorem R13_arg8 : R13 W (Proc.devRef .tc main_arg8) = W (Proc.devRef .tc main_arg8) :=
  (keep_of_unwritten uw_arg8 203 20 (R12 W)).trans (R12_arg8 W)
theorem R14_arg8 : R14 W (Proc.devRef .tc main_arg8) = W (Proc.devRef .tc main_arg8) :=
  (keep_of_unwritten uw_arg8 223 16 (R13 W)).trans (R13_arg8 W)
theorem R15_arg8 : R15 W (Proc.devRef .tc main_arg8) = W (Proc.devRef .tc main_arg8) :=
  (keep_of_unwritten uw_arg8 239 20 (R14 W)).trans (R14_arg8 W)
theorem R16_arg8 : R16 W (Proc.devRef .tc main_arg8) = W (Proc.devRef .tc main_arg8) :=
  (keep_of_unwritten uw_arg8 259 16 (R15 W)).trans (R15_arg8 W)
theorem R17_arg8 : R17 W (Proc.devRef .tc main_arg8) = W (Proc.devRef .tc main_arg8) :=
  (keep_of_unwritten uw_arg8 275 20 (R16 W)).trans (R16_arg8 W)
theorem R2_hidden0 : R2 W (Proc.devRef .tc main_v4) = R1 W (Proc.devRef .tc main_v4) :=
  keep_of_unwritten_late uw_hidden0_late 0 16 (R1 W)
theorem R3_hidden0 : R3 W (Proc.devRef .tc main_v4) = R1 W (Proc.devRef .tc main_v4) :=
  (keep_of_unwritten_late uw_hidden0_late 16 20 (R2 W)).trans (R2_hidden0 W)
theorem R4_hidden0 : R4 W (Proc.devRef .tc main_v4) = R1 W (Proc.devRef .tc main_v4) :=
  (keep_of_unwritten_late uw_hidden0_late 36 16 (R3 W)).trans (R3_hidden0 W)
theorem R5_hidden0 : R5 W (Proc.devRef .tc main_v4) = R1 W (Proc.devRef .tc main_v4) :=
  (keep_of_unwritten_late uw_hidden0_late 52 20 (R4 W)).trans (R4_hidden0 W)
theorem R6_hidden0 : R6 W (Proc.devRef .tc main_v4) = R1 W (Proc.devRef .tc main_v4) :=
  (keep_of_unwritten_late uw_hidden0_late 72 16 (R5 W)).trans (R5_hidden0 W)
theorem R7_hidden0 : R7 W (Proc.devRef .tc main_v4) = R1 W (Proc.devRef .tc main_v4) :=
  (keep_of_unwritten_late uw_hidden0_late 88 20 (R6 W)).trans (R6_hidden0 W)
theorem R8_hidden0 : R8 W (Proc.devRef .tc main_v4) = R1 W (Proc.devRef .tc main_v4) :=
  (keep_of_unwritten_late uw_hidden0_late 108 16 (R7 W)).trans (R7_hidden0 W)
theorem R9_hidden0 : R9 W (Proc.devRef .tc main_v4) = R1 W (Proc.devRef .tc main_v4) :=
  (keep_of_unwritten_late uw_hidden0_late 124 20 (R8 W)).trans (R8_hidden0 W)
theorem R10_hidden0 : R10 W (Proc.devRef .tc main_v4) = R1 W (Proc.devRef .tc main_v4) :=
  (keep_of_unwritten_late uw_hidden0_late 144 16 (R9 W)).trans (R9_hidden0 W)
theorem R11_hidden0 : R11 W (Proc.devRef .tc main_v4) = R1 W (Proc.devRef .tc main_v4) :=
  (keep_of_unwritten_late uw_hidden0_late 160 20 (R10 W)).trans (R10_hidden0 W)
theorem R12_hidden0 : R12 W (Proc.devRef .tc main_v4) = R1 W (Proc.devRef .tc main_v4) :=
  (keep_of_unwritten_late uw_hidden0_late 180 16 (R11 W)).trans (R11_hidden0 W)
theorem R13_hidden0 : R13 W (Proc.devRef .tc main_v4) = R1 W (Proc.devRef .tc main_v4) :=
  (keep_of_unwritten_late uw_hidden0_late 196 20 (R12 W)).trans (R12_hidden0 W)
theorem R14_hidden0 : R14 W (Proc.devRef .tc main_v4) = R1 W (Proc.devRef .tc main_v4) :=
  (keep_of_unwritten_late uw_hidden0_late 216 16 (R13 W)).trans (R13_hidden0 W)
theorem R15_hidden0 : R15 W (Proc.devRef .tc main_v4) = R1 W (Proc.devRef .tc main_v4) :=
  (keep_of_unwritten_late uw_hidden0_late 232 20 (R14 W)).trans (R14_hidden0 W)
theorem R16_hidden0 : R16 W (Proc.devRef .tc main_v4) = R1 W (Proc.devRef .tc main_v4) :=
  (keep_of_unwritten_late uw_hidden0_late 252 16 (R15 W)).trans (R15_hidden0 W)
theorem R17_hidden0 : R17 W (Proc.devRef .tc main_v4) = R1 W (Proc.devRef .tc main_v4) :=
  (keep_of_unwritten_late uw_hidden0_late 268 20 (R16 W)).trans (R16_hidden0 W)

/-! ## The hidden states -/

theorem rv0 : R1 W (Proc.devRef .tc main_v4) = Cert.Gcn.hidden0 (W (Proc.devRef .tc main_arg0)) (W (Proc.devRef .tc main_arg4)) (W (Proc.devRef .tc main_arg5)) :=
  (ref_entry W).trans (Cert.Gcn.hostEntry_eq _ rfl _ _ _ _ _ _)

theorem rv1 : R3 W (Proc.devRef .tc main_v31) = Cert.Gcn.hidden1 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  (ref_dense1 (R2 W)).trans ((Cert.Gcn.hostLayer_eq _ _ _ _ _ rfl _ _ _ _).trans (Cert.Gcn.layer_congr _ _ _ _
    ((ref_agg1 (R1 W)).trans (Cert.Gcn.aggregate_congr (R1_arg1 W) (R1_arg2 W) (R1_arg3 W) (rv0 W)))
    ((R2_hidden0 W).trans (rv0 W))
    (congrArg Cert.Gcn.wslice0 (R2_arg6 W))))

theorem rv2 : R5 W (Proc.devRef .tc main_v58) = Cert.Gcn.hidden2 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  (ref_dense2 (R4 W)).trans ((Cert.Gcn.hostLayer_eq _ _ _ _ _ rfl _ _ _ _).trans (Cert.Gcn.layer_congr _ _ _ _
    ((ref_agg2 (R3 W)).trans (Cert.Gcn.aggregate_congr (R3_arg1 W) (R3_arg2 W) (R3_arg3 W) (rv1 W)))
    ((R4_hidden0 W).trans (rv0 W))
    (congrArg Cert.Gcn.wslice1 (R4_arg6 W))))

theorem rv3 : R7 W (Proc.devRef .tc main_v85) = Cert.Gcn.hidden3 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  (ref_dense3 (R6 W)).trans ((Cert.Gcn.hostLayer_eq _ _ _ _ _ rfl _ _ _ _).trans (Cert.Gcn.layer_congr _ _ _ _
    ((ref_agg3 (R5 W)).trans (Cert.Gcn.aggregate_congr (R5_arg1 W) (R5_arg2 W) (R5_arg3 W) (rv2 W)))
    ((R6_hidden0 W).trans (rv0 W))
    (congrArg Cert.Gcn.wslice2 (R6_arg6 W))))

theorem rv4 : R9 W (Proc.devRef .tc main_v112) = Cert.Gcn.hidden4 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  (ref_dense4 (R8 W)).trans ((Cert.Gcn.hostLayer_eq _ _ _ _ _ rfl _ _ _ _).trans (Cert.Gcn.layer_congr _ _ _ _
    ((ref_agg4 (R7 W)).trans (Cert.Gcn.aggregate_congr (R7_arg1 W) (R7_arg2 W) (R7_arg3 W) (rv3 W)))
    ((R8_hidden0 W).trans (rv0 W))
    (congrArg Cert.Gcn.wslice3 (R8_arg6 W))))

theorem rv5 : R11 W (Proc.devRef .tc main_v139) = Cert.Gcn.hidden5 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  (ref_dense5 (R10 W)).trans ((Cert.Gcn.hostLayer_eq _ _ _ _ _ rfl _ _ _ _).trans (Cert.Gcn.layer_congr _ _ _ _
    ((ref_agg5 (R9 W)).trans (Cert.Gcn.aggregate_congr (R9_arg1 W) (R9_arg2 W) (R9_arg3 W) (rv4 W)))
    ((R10_hidden0 W).trans (rv0 W))
    (congrArg Cert.Gcn.wslice4 (R10_arg6 W))))

theorem rv6 : R13 W (Proc.devRef .tc main_v166) = Cert.Gcn.hidden6 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  (ref_dense6 (R12 W)).trans ((Cert.Gcn.hostLayer_eq _ _ _ _ _ rfl _ _ _ _).trans (Cert.Gcn.layer_congr _ _ _ _
    ((ref_agg6 (R11 W)).trans (Cert.Gcn.aggregate_congr (R11_arg1 W) (R11_arg2 W) (R11_arg3 W) (rv5 W)))
    ((R12_hidden0 W).trans (rv0 W))
    (congrArg Cert.Gcn.wslice5 (R12_arg6 W))))

theorem rv7 : R15 W (Proc.devRef .tc main_v193) = Cert.Gcn.hidden7 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  (ref_dense7 (R14 W)).trans ((Cert.Gcn.hostLayer_eq _ _ _ _ _ rfl _ _ _ _).trans (Cert.Gcn.layer_congr _ _ _ _
    ((ref_agg7 (R13 W)).trans (Cert.Gcn.aggregate_congr (R13_arg1 W) (R13_arg2 W) (R13_arg3 W) (rv6 W)))
    ((R14_hidden0 W).trans (rv0 W))
    (congrArg Cert.Gcn.wslice6 (R14_arg6 W))))

theorem rv8 : R17 W (Proc.devRef .tc main_v220) = Cert.Gcn.hidden8 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  (ref_dense8 (R16 W)).trans ((Cert.Gcn.hostLayer_eq _ _ _ _ _ rfl _ _ _ _).trans (Cert.Gcn.layer_congr _ _ _ _
    ((ref_agg8 (R15 W)).trans (Cert.Gcn.aggregate_congr (R15_arg1 W) (R15_arg2 W) (R15_arg3 W) (rv7 W)))
    ((R16_hidden0 W).trans (rv0 W))
    (congrArg Cert.Gcn.wslice7 (R16_arg6 W))))

/-! ## The result and the arguments after the whole run -/

theorem ref_result : after opsI W (Proc.devRef .tc main_v224)
    = Cert.Gcn.output (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
  (congrFun (run_split W) _).trans ((ref_exit (R17 W)).trans ((Cert.Gcn.hostOut_eq _ rfl _ _ _ _ _).trans
    (Cert.Gcn.outProj_congr (rv8 W) (R17_arg7 W) (congrArg Cert.Gcn.rowOf (R17_arg8 W)))))

theorem ref_arg0 : after opsI W (Proc.devRef .tc main_arg0) = W (Proc.devRef .tc main_arg0) :=
  keep_of_unwritten_tail uw_arg0 0 W
theorem ref_arg1 : after opsI W (Proc.devRef .tc main_arg1) = W (Proc.devRef .tc main_arg1) :=
  keep_of_unwritten_tail uw_arg1 0 W
theorem ref_arg2 : after opsI W (Proc.devRef .tc main_arg2) = W (Proc.devRef .tc main_arg2) :=
  keep_of_unwritten_tail uw_arg2 0 W
theorem ref_arg3 : after opsI W (Proc.devRef .tc main_arg3) = W (Proc.devRef .tc main_arg3) :=
  keep_of_unwritten_tail uw_arg3 0 W
theorem ref_arg4 : after opsI W (Proc.devRef .tc main_arg4) = W (Proc.devRef .tc main_arg4) :=
  keep_of_unwritten_tail uw_arg4 0 W
theorem ref_arg5 : after opsI W (Proc.devRef .tc main_arg5) = W (Proc.devRef .tc main_arg5) :=
  keep_of_unwritten_tail uw_arg5 0 W
theorem ref_arg6 : after opsI W (Proc.devRef .tc main_arg6) = W (Proc.devRef .tc main_arg6) :=
  keep_of_unwritten_tail uw_arg6 0 W
theorem ref_arg7 : after opsI W (Proc.devRef .tc main_arg7) = W (Proc.devRef .tc main_arg7) :=
  keep_of_unwritten_tail uw_arg7 0 W
theorem ref_arg8 : after opsI W (Proc.devRef .tc main_arg8) = W (Proc.devRef .tc main_arg8) :=
  keep_of_unwritten_tail uw_arg8 0 W

/-- No operation of the reference allocates a buffer. -/
theorem ops_fresh : (opsI).Forall fun op => op.fresh = ∅ := by
  simp only [List.Forall]; repeat' constructor

/-- Every weakly fair execution of the reference terminates, without a fault, with the network's output of the launch
    contents of the arguments in its result buffer and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v224)
        = Cert.Gcn.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v224).trans (ref_result (launchContents m c)),
       (h c main_arg0).trans (ref_arg0 (launchContents m c)),
       (h c main_arg1).trans (ref_arg1 (launchContents m c)),
       (h c main_arg2).trans (ref_arg2 (launchContents m c)),
       (h c main_arg3).trans (ref_arg3 (launchContents m c)),
       (h c main_arg4).trans (ref_arg4 (launchContents m c)),
       (h c main_arg5).trans (ref_arg5 (launchContents m c)),
       (h c main_arg6).trans (ref_arg6 (launchContents m c)),
       (h c main_arg7).trans (ref_arg7 (launchContents m c)),
       (h c main_arg8).trans (ref_arg8 (launchContents m c))⟩)
    (run_seq scopedRefs_eq scopedSems_eq defs main (fun _ => opsI) main_eq (fun _ => ops_sub) m ρ
      (fun _ => List.forall_iff_forall_mem.mp ops_fresh))

end Cert.ReferenceIdeal.Stages

end
-- ==== Proof.lean ====
/-
  A graph network with initial-residual layers, row-tiled, against its whole-array reference, over the extended reals.

  Both programs compute `hidden0 = max (x · W_in + b_in) 0`, then for `l = 1 … 8`
  `hidden_l = max (c_l · u + e_l · (u · W_l)) 0` with `u = 0.9 · aggregate hidden_(l-1) + 0.1 · hidden0` (the scalars the
  same float words on both sides), and return `hidden8 · W_out + b_out`.  The sparse aggregation is the same host
  operations in both.  The kernel evaluates each dense stage on ten blocks of 5000 rows, the reference on all 50000 rows at
  once; an entry of a stage depends on one row of its row-indexed operands, and a matrix product's entry is one sum over
  the contracted axis however the rows are blocked, so the two evaluations are one function.  No law that needs finite
  operands is used: the precondition is never opened.

  The idealization rewrote no operation, so `preserves` is `True`.
-/
import proofs.«102039_j12893491822964_1_alg».proof.Defs
import proofs.«102039_j12893491822964_1_alg».proof.Proof.Gen.Kernel
import proofs.«102039_j12893491822964_1_alg».proof.Proof.Gen.Kernel.Skeleton
import proofs.«102039_j12893491822964_1_alg».proof.Proof.Gen.Kernel.Launch
import proofs.«102039_j12893491822964_1_alg».proof.Proof.Gen.Kernel.Points
import proofs.«102039_j12893491822964_1_alg».proof.Proof.Gen.Kernel.Frame
import proofs.«102039_j12893491822964_1_alg».proof.Proof.Gen.KernelIdeal
import proofs.«102039_j12893491822964_1_alg».proof.Proof.Gen.KernelIdeal.Skeleton
import proofs.«102039_j12893491822964_1_alg».proof.Proof.Gen.KernelIdeal.Launch
import proofs.«102039_j12893491822964_1_alg».proof.Proof.Gen.KernelIdeal.Points
import proofs.«102039_j12893491822964_1_alg».proof.Proof.Gen.KernelIdeal.Frame
import proofs.«102039_j12893491822964_1_alg».proof.Proof.Gen.ReferenceIdeal
import proofs.«102039_j12893491822964_1_alg».proof.Proof.Gen.Pre_finite_inputs
import proofs.«102039_j12893491822964_1_alg».proof.Proof.KernelRun
import proofs.«102039_j12893491822964_1_alg».proof.Proof.Chain
import proofs.«102039_j12893491822964_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the result dropped. -/
theorem frame_referenceIdeal : Cert.frame_ReferenceIdeal :=
  fun m ρ _ => (θ_run Cert.ReferenceIdeal.defs _ _).mono (fun _ h c => (h c).2)
    (Cert.ReferenceIdeal.Stages.run m ρ)

/-- Both runs end with the network's output of the (agreeing) arguments in their result buffers. -/
theorem algebraic : Cert.algebraic_KernelIdeal_ReferenceIdeal := by
  intro m ρ m' ρ' _ hagree
  refine ⟨fun c => Cert.Gcn.output (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Val.result_eq m ρ c), (h c).2⟩)
      (Cert.KernelIdeal.Val.run_result (F := Ideal) m ρ)
  · refine (θ_run Cert.ReferenceIdeal.defs _ _).mono (fun r h c => ⟨?_, (h c).2⟩)
      (Cert.ReferenceIdeal.Stages.run m' ρ')
    obtain ⟨e0, e1, e2, e3, e4, e5, e6, e7, e8⟩ := hagree c
    exact (h c).1.trans (by rw [e0, e1, e2, e3, e4, e5, e6, e7, e8])

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
